-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1025x8193 : Shape := ⟨2, ![1025, 8193]⟩
abbrev S1 : Shape := ⟨1, ![1]⟩
abbrev S1025x1025 : Shape := ⟨2, ![1025, 1025]⟩
abbrev S8193x8193 : Shape := ⟨2, ![8193, 8193]⟩
abbrev S_ : Shape := ⟨0, ![]⟩

class Facts : Prop where
  bcast_S_S1025x8193 : S_.BroadcastsInDim S1025x8193 (![] : Fin 0 → Fin S1025x8193.rank)
  reducesTo_S1025x8193_S_d0_1 : S1025x8193.ReducesTo [0, 1] S_
  h_S_ : 0 < S_.numel
  bcast_S_S1 : S_.BroadcastsInDim S1 (![] : Fin 0 → Fin S1.rank)
  reducesTo_S1_S_d0 : S1.ReducesTo [0] S_
  bcast_S_S1025x1025 : S_.BroadcastsInDim S1025x1025 (![] : Fin 0 → Fin S1025x1025.rank)
  reducesTo_S1025x1025_S_d0_1 : S1025x1025.ReducesTo [0, 1] S_
  bcast_S_S8193x8193 : S_.BroadcastsInDim S8193x8193 (![] : Fin 0 → Fin S8193x8193.rank)
  reducesTo_S8193x8193_S_d0_1 : S8193x8193.ReducesTo [0, 1] S_

variable [Facts]

def fn_part1 {F : FTy → Type} [FloatOps F] (main_arg4 : FVec F S1025x1025 .f32) (main_v13 : IVec S_ 1) (main_v16 : IVec S8193x8193 1) : IVec S_ 1 :=
  let main_c_5 : IVec S_ 1 := constantI S_ 1 1#1
  let main_v17 : IVec S_ 1 := (fun x v => Host.reduce IntOp.andi x v reducesTo_S8193x8193_S_d0_1 h_S_) main_v16 main_c_5
  let main_v18 : IVec S_ 1 := andi main_v13 main_v17
  let main_v19 : FVec F S1025x1025 .f32 := Host.absf main_arg4
  let main_cst_6 : FVec F S_ .f32 := constant S_ .f32 0x7F800000#32
  let main_v20 : FVec F S1025x1025 .f32 := broadcastInDim S1025x1025 ![] bcast_S_S1025x1025 main_cst_6
  let main_v21 : IVec S1025x1025 1 := cmpf .olt main_v19 main_v20
  let main_c_7 : IVec S_ 1 := constantI S_ 1 1#1
  let main_v22 : IVec S_ 1 := (fun x v => Host.reduce IntOp.andi x v reducesTo_S1025x1025_S_d0_1 h_S_) main_v21 main_c_7
  let main_v23 : IVec S_ 1 := andi main_v18 main_v22
  main_v23

def fn {F : FTy → Type} [FloatOps F] (main_arg0 : FVec F S1025x8193 .f32) (main_arg1 : FVec F S1 .f32) (main_arg2 : FVec F S1025x1025 .f32) (main_arg3 : FVec F S8193x8193 .f32) (main_arg4 : FVec F S1025x1025 .f32) : IVec S_ 1 :=
  let main_v0 : FVec F S1025x8193 .f32 := Host.absf main_arg0
  let main_cst : FVec F S_ .f32 := constant S_ .f32 0x7F800000#32
  let main_v1 : FVec F S1025x8193 .f32 := broadcastInDim S1025x8193 ![] bcast_S_S1025x8193 main_cst
  let main_v2 : IVec S1025x8193 1 := cmpf .olt main_v0 main_v1
  let main_c : IVec S_ 1 := constantI S_ 1 1#1
  let main_v3 : IVec S_ 1 := (fun x v => Host.reduce IntOp.andi x v reducesTo_S1025x8193_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1025x1025 .f32 := Host.absf main_arg2
  let main_cst_2 : FVec F S_ .f32 := constant S_ .f32 0x7F800000#32
  let main_v10 : FVec F S1025x1025 .f32 := broadcastInDim S1025x1025 ![] bcast_S_S1025x1025 main_cst_2
  let main_v11 : IVec S1025x1025 1 := cmpf .olt main_v9 main_v10
  let main_c_3 : IVec S_ 1 := constantI S_ 1 1#1
  let main_v12 : IVec S_ 1 := (fun x v => Host.reduce IntOp.andi x v reducesTo_S1025x1025_S_d0_1 h_S_) main_v11 main_c_3
  let main_v13 : IVec S_ 1 := andi main_v8 main_v12
  let main_v14 : FVec F S8193x8193 .f32 := Host.absf main_arg3
  let main_cst_4 : FVec F S_ .f32 := constant S_ .f32 0x7F800000#32
  let main_v15 : FVec F S8193x8193 .f32 := broadcastInDim S8193x8193 ![] bcast_S_S8193x8193 main_cst_4
  let main_v16 : IVec S8193x8193 1 := cmpf .olt main_v14 main_v15
  fn_part1 (F := F) main_arg4 main_v13 main_v16
-- ==== Kernel.lean ====
abbrev S1025x8193 : Shape := ⟨2, ![1025, 8193]⟩
abbrev S1 : Shape := ⟨1, ![1]⟩
abbrev S1025x1025 : Shape := ⟨2, ![1025, 1025]⟩
abbrev S8193x8193 : Shape := ⟨2, ![8193, 8193]⟩
abbrev S_ : Shape := ⟨0, ![]⟩
abbrev S1152x8320 : Shape := ⟨2, ![1152, 8320]⟩
abbrev S1152x1152 : Shape := ⟨2, ![1152, 1152]⟩
abbrev S8320x8320 : Shape := ⟨2, ![8320, 8320]⟩
abbrev S1152x640 : Shape := ⟨2, ![1152, 640]⟩
abbrev S640x640 : Shape := ⟨2, ![640, 640]⟩
abbrev S8320x1152 : Shape := ⟨2, ![8320, 1152]⟩
abbrev S640x1152 : Shape := ⟨2, ![640, 1152]⟩

abbrev nBuf : Space → Nat
  | .hbm => 35
  | .vmem => 29
  | .smem => 0
  | _ => 0

abbrev bufTy : (tb : Table) → Fin (tcTables nBuf tb) → BufTy
  | .hbm, ⟨0, _⟩ => ⟨S1025x8193, .f32⟩
  | .hbm, ⟨1, _⟩ => ⟨S1, .f32⟩
  | .hbm, ⟨2, _⟩ => ⟨S1025x1025, .f32⟩
  | .hbm, ⟨3, _⟩ => ⟨S8193x8193, .f32⟩
  | .hbm, ⟨4, _⟩ => ⟨S1025x1025, .f32⟩
  | .hbm, ⟨5, _⟩ => ⟨S_, .i32⟩
  | .hbm, ⟨6, _⟩ => ⟨S_, .f32⟩
  | .hbm, ⟨7, _⟩ => ⟨S1152x8320, .f32⟩
  | .hbm, ⟨8, _⟩ => ⟨S_, .i32⟩
  | .hbm, ⟨9, _⟩ => ⟨S_, .f32⟩
  | .hbm, ⟨10, _⟩ => ⟨S1152x1152, .f32⟩
  | .hbm, ⟨11, _⟩ => ⟨S_, .i32⟩
  | .hbm, ⟨12, _⟩ => ⟨S_, .f32⟩
  | .hbm, ⟨13, _⟩ => ⟨S1152x1152, .f32⟩
  | .hbm, ⟨14, _⟩ => ⟨S_, .i32⟩
  | .hbm, ⟨15, _⟩ => ⟨S_, .f32⟩
  | .hbm, ⟨16, _⟩ => ⟨S8320x8320, .f32⟩
  | .hbm, ⟨17, _⟩ => ⟨S1152x8320, .bf16⟩
  | .hbm, ⟨18, _⟩ => ⟨S1152x1152, .bf16⟩
  | .hbm, ⟨19, _⟩ => ⟨S1152x1152, .bf16⟩
  | .hbm, ⟨20, _⟩ => ⟨S8320x8320, .bf16⟩
  | .hbm, ⟨21, _⟩ => ⟨S1152x8320, .bf16⟩
  | .hbm, ⟨22, _⟩ => ⟨S1152x8320, .bf16⟩
  | .hbm, ⟨23, _⟩ => ⟨S8320x1152, .bf16⟩
  | .hbm, ⟨24, _⟩ => ⟨S1152x1152, .f32⟩
  | .hbm, ⟨25, _⟩ => ⟨S1152x1152, .bf16⟩
  | .hbm, ⟨26, _⟩ => ⟨S1152x1152, .bf16⟩
  | .hbm, ⟨27, _⟩ => ⟨S1152x8320, .f32⟩
  | .hbm, ⟨28, _⟩ => ⟨S1025x8193, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1025x8193, .f32⟩
  | .hbm, ⟨33, _⟩ => ⟨S1025x8193, .f32⟩
  | .hbm, ⟨34, _⟩ => ⟨S1025x8193, .f32⟩
  | .local _ .vmem, ⟨0, _⟩ => ⟨S1152x1152, .bf16⟩
  | .local _ .vmem, ⟨1, _⟩ => ⟨S1152x640, .bf16⟩
  | .local _ .vmem, ⟨2, _⟩ => ⟨S1152x640, .bf16⟩
  | .local _ .vmem, ⟨3, _⟩ => ⟨S1152x640, .bf16⟩
  | .local _ .vmem, ⟨4, _⟩ => ⟨S1152x640, .bf16⟩
  | .local _ .vmem, ⟨5, _⟩ => ⟨S1152x640, .f32⟩
  | .local _ .vmem, ⟨6, _⟩ => ⟨S1152x640, .bf16⟩
  | .local _ .vmem, ⟨7, _⟩ => ⟨S1152x640, .bf16⟩
  | .local _ .vmem, ⟨8, _⟩ => ⟨S640x640, .bf16⟩
  | .local _ .vmem, ⟨9, _⟩ => ⟨S640x640, .bf16⟩
  | .local _ .vmem, ⟨10, _⟩ => ⟨S1152x640, .bf16⟩
  | .local _ .vmem, ⟨11, _⟩ => ⟨S1152x640, .bf16⟩
  | .local _ .vmem, ⟨12, _⟩ => ⟨S1152x640, .f32⟩
  | .local _ .vmem, ⟨13, _⟩ => ⟨S1152x640, .bf16⟩
  | .local _ .vmem, ⟨14, _⟩ => ⟨S1152x640, .bf16⟩
  | .local _ .vmem, ⟨15, _⟩ => ⟨S640x1152, .bf16⟩
  | .local _ .vmem, ⟨16, _⟩ => ⟨S640x1152, .bf16⟩
  | .local _ .vmem, ⟨17, _⟩ => ⟨S1152x1152, .f32⟩
  | .local _ .vmem, ⟨18, _⟩ => ⟨S1152x1152, .f32⟩
  | .local _ .vmem, ⟨19, _⟩ => ⟨S1152x1152, .bf16⟩
  | .local _ .vmem, ⟨20, _⟩ => ⟨S1152x1152, .bf16⟩
  | .local _ .vmem, ⟨21, _⟩ => ⟨S1152x1152, .bf16⟩
  | .local _ .vmem, ⟨22, _⟩ => ⟨S1152x1152, .f32⟩
  | .local _ .vmem, ⟨23, _⟩ => ⟨S1152x1152, .bf16⟩
  | .local _ .vmem, ⟨24, _⟩ => ⟨S1152x640, .bf16⟩
  | .local _ .vmem, ⟨25, _⟩ => ⟨S1152x640, .bf16⟩
  | .local _ .vmem, ⟨26, _⟩ => ⟨S1152x640, .f32⟩
  | .local _ .vmem, ⟨27, _⟩ => ⟨S1152x640, .f32⟩
  | .local _ .vmem, ⟨28, _⟩ => ⟨S1152x640, .f32⟩
  | _, _ => ⟨S1025x8193, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_c_2 : Ref sig .tc := ⟨.hbm, 14, rfl⟩
abbrev main_call3_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg2_0 : Ref sig .tc := ⟨.vmem, 21, rfl⟩
abbrev cc3_scratch0 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc4_scratch0 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc3_sem0_0 : DmaSem sig := 16
abbrev cc3_sem1_0 : DmaSem sig := 17
abbrev cc3_sem2_0 : DmaSem sig := 18
abbrev cc4_sem0_0 : DmaSem sig := 19
abbrev cc4_sem1_0 : DmaSem sig := 20
abbrev cc4_sem1_1 : DmaSem sig := 21
abbrev cc4_sem2_0 : DmaSem sig := 22
abbrev cc4_sem2_1 : DmaSem sig := 23

abbrev nD : Nat := 1
abbrev τ : Topo := Topo.v7x

variable {F : FTy → Type} [FloatOps F]

abbrev grid0 : Pipeline.Grid := ⟨3, ![1, 13, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1152x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1152x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 13, 13], ![false, false, false]⟩

def k1_cond2 (i : grid1.Coords) : BitVec 1 :=
  let arg2 : BitVec 32 := BitVec.ofNat 32 (i 2).val
  let c12_i32 : BitVec 32 := 12#32
  let v13 : BitVec 1 := Scalar.cmpi .eq arg2 c12_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1152x640 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S640x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1152x640 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 1, 13], ![false, false, false]⟩

def k2_cond2 (i : grid2.Coords) : BitVec 1 :=
  let arg2 : BitVec 32 := BitVec.ofNat 32 (i 2).val
  let c12_i32 : BitVec 32 := 12#32
  let v13 : BitVec 1 := Scalar.cmpi .eq arg2 c12_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1152x640 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S640x1152 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1152x1152 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 1], ![false, false, false]⟩

def k3_cond2 (i : grid3.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S1152x1152 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S1152x1152 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S1152x1152 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![1, 13, 1], ![false, false, false]⟩

def k4_cond2 (i : grid4.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S1152x1152 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S1152x640 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1152x640 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

class Facts₀ : Prop where
  pads_S1025x8193_S1152x8320_01270_01270 : S1025x8193.Pads (![0, 0] : Fin 2 → Nat) ![127, 127] ![0, 0] S1152x8320
  h_S_ : 0 < S_.numel
  pads_S1025x1025_S1152x1152_01270_01270 : S1025x1025.Pads (![0, 0] : Fin 2 → Nat) ![127, 127] ![0, 0] S1152x1152
  pads_S8193x8193_S8320x8320_01270_01270 : S8193x8193.Pads (![0, 0] : Fin 2 → Nat) ![127, 127] ![0, 0] S8320x8320
  bitsLt_bf16_f32 : FTy.bits .bf16 < FTy.bits .f32
  inb_S1152x640_S1152x640_0_0 : ∀ a, (![0, 0] : Fin 2 → Nat) a + S1152x640.size a ≤ S1152x640.size a
  h_S1152x640 : 0 < S1152x640.numel
  shapeCasts_S1152x640_S1152x640 : S1152x640.ShapeCasts S1152x640
  inb_S1152x1152_S1152x1152_0_0 : ∀ a, (![0, 0] : Fin 2 → Nat) a + S1152x1152.size a ≤ S1152x1152.size a
  h_S1152x1152 : 0 < S1152x1152.numel
  shapeCasts_S1152x1152_S1152x1152 : S1152x1152.ShapeCasts S1152x1152
  packedbf16_S1152x640_S1152x640_0_0 : (Rect.unit (s := S1152x640) ![0, 0] S1152x640.size inb_S1152x640_S1152x640_0_0).PackedRows (EltTy.packing .bf16)
  inb_S640x640_S640x640_0_0 : ∀ a, (![0, 0] : Fin 2 → Nat) a + S640x640.size a ≤ S640x640.size a
  h_S640x640 : 0 < S640x640.numel
  shapeCasts_S640x640_S640x640 : S640x640.ShapeCasts S640x640
  transposes_S1152x8320_S8320x1152_1_0 : S1152x8320.Transposes [1, 0] S8320x1152
  inb_S640x1152_S640x1152_0_0 : ∀ a, (![0, 0] : Fin 2 → Nat) a + S640x1152.size a ≤ S640x1152.size a
  h_S640x1152 : 0 < S640x1152.numel
  shapeCasts_S640x1152_S640x1152 : S640x1152.ShapeCasts S640x1152
  packedbf16_S1152x1152_S1152x1152_0_0 : (Rect.unit (s := S1152x1152) ![0, 0] S1152x1152.size inb_S1152x1152_S1152x1152_0_0).PackedRows (EltTy.packing .bf16)
  slices_S1152x8320_S1025x8193_0_0 : S1152x8320.Slices ![0, 0] S1025x8193
  shapeCasts_S1_S_ : S1.ShapeCasts S_
  bcast_S_S1025x8193 : S_.BroadcastsInDim S1025x8193 (![] : Fin 0 → Fin S1025x8193.rank)
  dot_S1152x1152_S1152x640_S1152x640_1_0_0_1_n_n_wf : DotDims.WF S1152x1152 S1152x640 S1152x640 [1] [0] [0] [1] [] []
  dot_S1152x640_S640x640_S1152x640_1_0_0_1_n_n_wf : DotDims.WF S1152x640 S640x640 S1152x640 [1] [0] [0] [1] [] []
  dot_S1152x640_S640x1152_S1152x1152_1_0_0_1_n_n_wf : DotDims.WF S1152x640 S640x1152 S1152x1152 [1] [0] [0] [1] [] []
  dot_S1152x1152_S1152x1152_S1152x1152_1_0_0_1_n_n_wf : DotDims.WF S1152x1152 S1152x1152 S1152x1152 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S1152x1152.size a ≤ S1152x1152.size a
  hwx0_0 : ∀ i : grid0.Coords, EltTy.bits .bf16 = 32 ∨ (Rect.block (s := S1152x1152) S1152x1152.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1152x640.size a ≤ S1152x8320.size a
  hwx0_1 : ∀ i : grid0.Coords, EltTy.bits .bf16 = 32 ∨ (Rect.block (s := S1152x8320) S1152x640.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1152x640.size a ≤ S1152x8320.size a
  hwx0_2 : ∀ i : grid0.Coords, EltTy.bits .bf16 = 32 ∨ (Rect.block (s := S1152x8320) S1152x640.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1152x640.size a ≤ S1152x8320.size a
  hwx1_0 : ∀ i : grid1.Coords, EltTy.bits .bf16 = 32 ∨ (Rect.block (s := S1152x8320) S1152x640.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x640.size a ≤ S8320x8320.size a
  hwx1_1 : ∀ i : grid1.Coords, EltTy.bits .bf16 = 32 ∨ (Rect.block (s := S8320x8320) S640x640.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1152x640.size a ≤ S1152x8320.size a
  hwx1_2 : ∀ i : grid1.Coords, EltTy.bits .bf16 = 32 ∨ (Rect.block (s := S1152x8320) S1152x640.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1152x640.size a ≤ S1152x8320.size a
  hwx2_0 : ∀ i : grid2.Coords, EltTy.bits .bf16 = 32 ∨ (Rect.block (s := S1152x8320) S1152x640.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S640x1152.size a ≤ S8320x1152.size a
  hwx2_1 : ∀ i : grid2.Coords, EltTy.bits .bf16 = 32 ∨ (Rect.block (s := S8320x1152) S640x1152.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1152x1152.size a ≤ S1152x1152.size a
  hwx2_2 : ∀ i : grid2.Coords, EltTy.bits .f32 = 32 ∨ (Rect.block (s := S1152x1152) S1152x1152.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S1152x1152.size a ≤ S1152x1152.size a
  hwx3_0 : ∀ i : grid3.Coords, EltTy.bits .bf16 = 32 ∨ (Rect.block (s := S1152x1152) S1152x1152.size (cc3_transform_0 i) (hinb3_0 i)).WholeWords (EltTy.packing .bf16)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S1152x1152.size a ≤ S1152x1152.size a
  hwx3_1 : ∀ i : grid3.Coords, EltTy.bits .bf16 = 32 ∨ (Rect.block (s := S1152x1152) S1152x1152.size (cc3_transform_1 i) (hinb3_1 i)).WholeWords (EltTy.packing .bf16)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1152x1152.size a ≤ S1152x1152.size a
  hwx3_2 : ∀ i : grid3.Coords, EltTy.bits .bf16 = 32 ∨ (Rect.block (s := S1152x1152) S1152x1152.size (cc3_transform_2 i) (hinb3_2 i)).WholeWords (EltTy.packing .bf16)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S1152x1152.size a ≤ S1152x1152.size a
  hwx4_0 : ∀ i : grid4.Coords, EltTy.bits .bf16 = 32 ∨ (Rect.block (s := S1152x1152) S1152x1152.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1152x640.size a ≤ S1152x8320.size a
  hwx4_1 : ∀ i : grid4.Coords, EltTy.bits .bf16 = 32 ∨ (Rect.block (s := S1152x8320) S1152x640.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1152x640.size a ≤ S1152x8320.size a
  hwx4_2 : ∀ i : grid4.Coords, EltTy.bits .f32 = 32 ∨ (Rect.block (s := S1152x8320) S1152x640.size (cc4_transform_2 i) (hinb4_2 i)).WholeWords (EltTy.packing .f32)

variable [Facts₀]

def dot_S1152x1152_S1152x640_S1152x640_1_0_0_1_n_n : DotDims S1152x1152 S1152x640 S1152x640 where
  lhsContracting := [1]
  rhsContracting := [0]
  lhsNonContracting := [0]
  rhsNonContracting := [1]
  lhsBatch := []
  rhsBatch := []
  wf := dot_S1152x1152_S1152x640_S1152x640_1_0_0_1_n_n_wf
def dot_S1152x640_S640x640_S1152x640_1_0_0_1_n_n : DotDims S1152x640 S640x640 S1152x640 where
  lhsContracting := [1]
  rhsContracting := [0]
  lhsNonContracting := [0]
  rhsNonContracting := [1]
  lhsBatch := []
  rhsBatch := []
  wf := dot_S1152x640_S640x640_S1152x640_1_0_0_1_n_n_wf
def dot_S1152x640_S640x1152_S1152x1152_1_0_0_1_n_n : DotDims S1152x640 S640x1152 S1152x1152 where
  lhsContracting := [1]
  rhsContracting := [0]
  lhsNonContracting := [0]
  rhsNonContracting := [1]
  lhsBatch := []
  rhsBatch := []
  wf := dot_S1152x640_S640x1152_S1152x1152_1_0_0_1_n_n_wf
def dot_S1152x1152_S1152x1152_S1152x1152_1_0_0_1_n_n : DotDims S1152x1152 S1152x1152 S1152x1152 where
  lhsContracting := [1]
  rhsContracting := [0]
  lhsNonContracting := [0]
  rhsNonContracting := [1]
  lhsBatch := []
  rhsBatch := []
  wf := dot_S1152x1152_S1152x1152_S1152x1152_1_0_0_1_n_n_wf

abbrev win0_0 : Pipeline.Window sig grid0 :=
  Pipeline.Window.ofSpec (Memref.whole main_v5) S1152x1152.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1152x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1152x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v8) S1152x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S640x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1152x640.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v9) S1152x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S640x1152.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1152x1152.size cc2_transform_2 reads2_2 true false 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v12) S1152x1152.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1152x1152.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1152x1152.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v13) S1152x1152.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v4) S1152x640.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14) S1152x640.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S1025x8193 : Shape := ⟨2, ![1025, 8193]⟩
abbrev S1 : Shape := ⟨1, ![1]⟩
abbrev S1025x1025 : Shape := ⟨2, ![1025, 1025]⟩
abbrev S8193x8193 : Shape := ⟨2, ![8193, 8193]⟩
abbrev S8193x1025 : Shape := ⟨2, ![8193, 1025]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1025x8193, .f32⟩
  | .hbm, ⟨1, _⟩ => ⟨S1, .f32⟩
  | .hbm, ⟨2, _⟩ => ⟨S1025x1025, .f32⟩
  | .hbm, ⟨3, _⟩ => ⟨S8193x8193, .f32⟩
  | .hbm, ⟨4, _⟩ => ⟨S1025x1025, .f32⟩
  | .hbm, ⟨5, _⟩ => ⟨S1025x8193, .f32⟩
  | .hbm, ⟨6, _⟩ => ⟨S1025x8193, .f32⟩
  | .hbm, ⟨7, _⟩ => ⟨S8193x1025, .f32⟩
  | .hbm, ⟨8, _⟩ => ⟨S1025x1025, .f32⟩
  | .hbm, ⟨9, _⟩ => ⟨S1025x1025, .f32⟩
  | .hbm, ⟨10, _⟩ => ⟨S1025x8193, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1025x8193, .f32⟩
  | .hbm, ⟨15, _⟩ => ⟨S1025x8193, .f32⟩
  | .hbm, ⟨16, _⟩ => ⟨S1025x8193, .f32⟩
  | _, _ => ⟨S1025x8193, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S1025x8193_S8193x1025_1_0 : S1025x8193.Transposes [1, 0] S8193x1025
  shapeCasts_S1_S_ : S1.ShapeCasts S_
  bcast_S_S1025x8193 : S_.BroadcastsInDim S1025x8193 (![] : Fin 0 → Fin S1025x8193.rank)
  dot_S1025x1025_S1025x8193_S1025x8193_1_0_0_1_n_n_wf : DotDims.WF S1025x1025 S1025x8193 S1025x8193 [1] [0] [0] [1] [] []
  dot_S1025x8193_S8193x8193_S1025x8193_1_0_0_1_n_n_wf : DotDims.WF S1025x8193 S8193x8193 S1025x8193 [1] [0] [0] [1] [] []
  dot_S1025x8193_S8193x1025_S1025x1025_1_0_0_1_n_n_wf : DotDims.WF S1025x8193 S8193x1025 S1025x1025 [1] [0] [0] [1] [] []
  dot_S1025x1025_S1025x1025_S1025x1025_1_0_0_1_n_n_wf : DotDims.WF S1025x1025 S1025x1025 S1025x1025 [1] [0] [0] [1] [] []

variable [Facts₀]

def dot_S1025x1025_S1025x8193_S1025x8193_1_0_0_1_n_n : DotDims S1025x1025 S1025x8193 S1025x8193 where
  lhsContracting := [1]
  rhsContracting := [0]
  lhsNonContracting := [0]
  rhsNonContracting := [1]
  lhsBatch := []
  rhsBatch := []
  wf := dot_S1025x1025_S1025x8193_S1025x8193_1_0_0_1_n_n_wf
def dot_S1025x8193_S8193x8193_S1025x8193_1_0_0_1_n_n : DotDims S1025x8193 S8193x8193 S1025x8193 where
  lhsContracting := [1]
  rhsContracting := [0]
  lhsNonContracting := [0]
  rhsNonContracting := [1]
  lhsBatch := []
  rhsBatch := []
  wf := dot_S1025x8193_S8193x8193_S1025x8193_1_0_0_1_n_n_wf
def dot_S1025x8193_S8193x1025_S1025x1025_1_0_0_1_n_n : DotDims S1025x8193 S8193x1025 S1025x1025 where
  lhsContracting := [1]
  rhsContracting := [0]
  lhsNonContracting := [0]
  rhsNonContracting := [1]
  lhsBatch := []
  rhsBatch := []
  wf := dot_S1025x8193_S8193x1025_S1025x1025_1_0_0_1_n_n_wf
def dot_S1025x1025_S1025x1025_S1025x1025_1_0_0_1_n_n : DotDims S1025x1025 S1025x1025 S1025x1025 where
  lhsContracting := [1]
  rhsContracting := [0]
  lhsNonContracting := [0]
  rhsNonContracting := [1]
  lhsBatch := []
  rhsBatch := []
  wf := dot_S1025x1025_S1025x1025_S1025x1025_1_0_0_1_n_n_wf

class Facts : Prop extends Facts₀ where

variable [Facts]
-- ==== Proof.BitsR0Base.lean ====
/-
  The first product of the chain, A = P · Z, as the kernel computes it: 13 column blocks, the whole contracted
  axis in one step. At each step the body clears the accumulator (a scratch buffer), adds the step's 1152×1152 by
  1152×640 product to it and rounds it into the output block: every step is both first and last along the contracted
  axis. This module fixes which block of each operand a step reads, that both conditions hold at every step, and the
  accumulator as a view.
-/
import proofs.«147890_j85212151153300_1_alg».proof.Proof.Gen.Kernel.Launch
import proofs.«147890_j85212151153300_1_alg».proof.Proof.Gen.Kernel.Skeleton
import proofs.«147890_j85212151153300_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of operand `w` that step `t` reads, cut out of the operand's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the step's block of it, whether fetched at this step or kept. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-- The step is the first along the contracted axis: at every step. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) :=
  (by decide +kernel : ∀ t : Fin grid0.N, cond0_0 (grid0.coords t))

/-- The step is the last along the contracted axis: at every step. -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-- No window is idle at any step. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- One staging buffer of the output window, through which its contents are stated. -/
abbrev VO0 : View sig .tc .vmem S1152x640 .bf16 := (Memref.whole cc0_stg2_0 : Memref sig .tc .vmem S1152x640 .bf16).view
/-- Each window's current staging buffer at step `t`, as the pipeline passes it to the body. -/
abbrev ms0_0 (t : Fin cfg0.N) : Memref sig .tc .vmem S1152x1152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1152x640 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1152x640 .bf16 := win0_2.stage (cfg0.slots t 2)
abbrev hs0_2 (t : Fin cfg0.N) : (ms0_2 t).IsWhole := hstage0_2 ((cfg0.slots t 2).cast nbuf0_2)
/-- The accumulator: a whole scoped buffer of the call's own. -/
abbrev scM0 : Memref sig .tc .vmem S1152x640 .f32 := Memref.whole cc0_scratch0

/-- The call's scoped buffers that it does not stage through, split at the accumulator. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole, bigSepL]; try rfl

end Cert.Kernel.Hand

end
-- ==== Proof.BitsR0Run.lean ====
/-
  One step of A = P · Z, run whole: the body clears the accumulator, adds the step's product to it, and rounds the
  accumulator into the output block.
-/
import proofs.«147890_j85212151153300_1_alg».proof.Proof.BitsR0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- What the body's stores leave in the output block and in the accumulator, as pieces, with the proof that on
    whole buffers (the operands' at their blocks, the output's and the accumulator's at anything) the body runs to the
    continuation holding them so. -/
noncomputable def kernelRun0_D (c : Dev nD) (i : grid0.Coords) (arg3 : Memref sig .tc .vmem S1152x1152 .bf16) (harg3 : arg3.IsWhole) (arg4 : Memref sig .tc .vmem S1152x640 .bf16) (harg4 : arg4.IsWhole) (arg5 : Memref sig .tc .vmem S1152x640 .bf16) (harg5 : arg5.IsWhole) (arg6 : Memref sig .tc .vmem S1152x640 .f32) (harg6 : arg6.IsWhole) (hc0 : cond0_0 i) (hc1 : cond0_1 i)
    (x0 : Vec F S1152x1152 .bf16) (x1 : Vec F S1152x640 .bf16) :
    Σ' (L2 : List (View.Piece (Elt F) S1152x640 .bf16)), { LS0 : List (View.Piece (Elt F) S1152x640 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.BitsR0Body.lean ====
/-
  A = P · Z, step by step: the output's staging buffer after a step is what the step's run leaves there, a function
  of the step's two blocks alone. The invariant between steps is constant (the accumulator at anything: each step clears
  it before use). From this come the pipeline's data and the proof that the body meets them at every step.
-/
import proofs.«147890_j85212151153300_1_alg».proof.Proof.BitsR0Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover0_D (c : Dev nD) (i : grid0.Coords) (arg3 : Memref sig .tc .vmem S1152x1152 .bf16) (harg3 : arg3.IsWhole) (arg4 : Memref sig .tc .vmem S1152x640 .bf16) (harg4 : arg4.IsWhole) (arg5 : Memref sig .tc .vmem S1152x640 .bf16) (harg5 : arg5.IsWhole) (arg6 : Memref sig .tc .vmem S1152x640 .f32) (harg6 : arg6.IsWhole) (hc0 : cond0_0 i) (hc1 : cond0_1 i)
    (x0 : Vec F S1152x1152 .bf16) (x1 : Vec F S1152x640 .bf16) (y : S1152x640.Idx) :
    ∃ pc ∈ (kernelRun0_D c i arg3 harg3 arg4 harg4 arg5 harg5 arg6 harg6 hc0 hc1 x0 x1).1, y ∈ pc.1.set :=
  View.cover_of_tiledL (kernelRun0_D c i arg3 harg3 arg4 harg4 arg5 harg5 arg6 harg6 hc0 hc1 x0 x1).1 S1152x640.size (by sl_kernel_rfl) y

/-- The output block after a step. -/
def out0_D (c : Dev nD) (i : grid0.Coords) (arg3 : Memref sig .tc .vmem S1152x1152 .bf16) (harg3 : arg3.IsWhole) (arg4 : Memref sig .tc .vmem S1152x640 .bf16) (harg4 : arg4.IsWhole) (arg5 : Memref sig .tc .vmem S1152x640 .bf16) (harg5 : arg5.IsWhole) (arg6 : Memref sig .tc .vmem S1152x640 .f32) (harg6 : arg6.IsWhole) (hc0 : cond0_0 i) (hc1 : cond0_1 i)
    (x0 : Vec F S1152x1152 .bf16) (x1 : Vec F S1152x640 .bf16) : Vec F S1152x640 .bf16 :=
  VO0.read (Elt F) (VO0.writes (Elt F) VO0.junk (kernelRun0_D c i arg3 harg3 arg4 harg4 arg5 harg5 arg6 harg6 hc0 hc1 x0 x1).1)

/-- The arrays as the call finds them; after step `t` each operand's buffer at its block and the output's at what
    the step's run leaves; the constant invariant; nothing owed to another core; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_D c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_D c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at step `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl, PhiA0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold out0_D; (try dsimp only)
  iintro ⟨⟨⟨HS0, Hrest⟩, Hg⟩, Ho, ⟨%d0, H0⟩, ⟨%d1, H1⟩, ⟨%d2, H2⟩⟩
  iapply ((kernelRun0_D c (grid0.coords t) _ _ _ _ _ _ _ _ (hcond0_0 t) (hcond0_1 t) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _, _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_D c _ _ _ _ _ _ _ _ _ _ _ _ _ )

/-- The pipeline rule's obligation on the body, at every step. -/
theorem body_obligation0 (c : Dev nD) : BodyObligation (dat0 (F := F) V c) (defs₀ (F := F)) Variants.none () Set.univ := fun t => by
  rw [bigSep_W0, bigSep_W0]
  exact sound_body0 V c t

/-- What the call is entered with is the invariant, before the first step and after the last. -/
theorem hin0 (c : Dev nD) : Pipeline.ΦA spec0 c ⊢ (dat0 V c).Φ 0 := Idealize.SL.BI.Entails.refl _
theorem hout0 (c : Dev nD) : (dat0 V c).Φ (Fin.last cfg0.N) ⊢ Pipeline.ΦA spec0 c := Idealize.SL.BI.Entails.refl _

end Cert.Kernel.Hand

end
-- ==== Proof.BitsR1Base.lean ====
/-
  The second product of the chain, B = A · M, as the kernel computes it: a grid of 13 column blocks by 13 steps
  along the contracted axis. At a step the body adds one 1152×640 by 640×640 partial product to an accumulator that
  lives in a scratch buffer from step to step; the first step of a column block clears the accumulator first, the
  last step rounds it into the output block. This module fixes what the steps share: which block of each operand a
  step reads, which steps are first and last, where the output block is left alone, and the accumulator as a view.
-/
import proofs.«147890_j85212151153300_1_alg».proof.Proof.Gen.Kernel.Launch
import proofs.«147890_j85212151153300_1_alg».proof.Proof.Gen.Kernel.Skeleton
import proofs.«147890_j85212151153300_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of operand `w` that step `t` reads, cut out of the operand's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds the step's block of it, whether fetched at this step or kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-- The step is the first along the contracted axis (the accumulator is cleared). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 13 = 0 :=
  (by decide +kernel : ∀ t : Fin grid1.N, cond1_0 (grid1.coords t) ↔ t.val % 13 = 0)

/-- The step is the last along the contracted axis (the accumulator is written out). -/
abbrev cond1_1 (i : grid1.Coords) : Prop := k1_cond2 i = 1#1
theorem hcond1_1 : ∀ t : Fin cfg1.N, cond1_1 (grid1.coords t) ↔ t.val % 13 = 12 :=
  (by decide +kernel : ∀ t : Fin grid1.N, cond1_1 (grid1.coords t) ↔ t.val % 13 = 12)

/-- The operands' windows are never idle; the output's is idle, and not written back, at every step but the last. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, through which its contents are stated. -/
abbrev VO1 : View sig .tc .vmem S1152x640 .bf16 := (Memref.whole cc1_stg2_0 : Memref sig .tc .vmem S1152x640 .bf16).view
/-- Each window's current staging buffer at step `t`, as the pipeline passes it to the body. -/
abbrev ms1_0 (t : Fin cfg1.N) : Memref sig .tc .vmem S1152x640 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S640x640 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1152x640 .bf16 := win1_2.stage (cfg1.slots t 2)
abbrev hs1_2 (t : Fin cfg1.N) : (ms1_2 t).IsWhole := hstage1_2 ((cfg1.slots t 2).cast nbuf1_2)
/-- The accumulator: a whole scoped buffer of the call's own, and the view its contents are stated through. -/
abbrev scM1 : Memref sig .tc .vmem S1152x640 .f32 := Memref.whole cc1_scratch0
abbrev VS1 : View sig .tc .vmem S1152x640 .f32 := scM1.view

/-- The call's scoped buffers that it does not stage through, split at the accumulator. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole, bigSepL]; try rfl

end Cert.Kernel.Hand

end
-- ==== Proof.BitsR1RunA.lean ====
/-
  The first step of a column block of B = A · M (not also the last): the body clears the accumulator, adds the step's partial product to it, and leaves the output block alone. Whatever the accumulator held before is overwritten.
-/
import proofs.«147890_j85212151153300_1_alg».proof.Proof.BitsR1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- What the body's stores leave in the accumulator at a first step, as pieces, with the proof that on whole
    buffers (the operands' at their blocks, the output's at anything and handed back untouched, the accumulator at
    anything) the body runs to the continuation holding them so. -/
noncomputable def kernelRun1_A (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : cond1_0 i) (hc1 : ¬cond1_1 i)
    (x0 : Vec F S1152x640 .bf16) (x1 : Vec F S640x640 .bf16) :
    Σ' (L2 : List (View.Piece (Elt F) S1152x640 .bf16)), { LS0 : List (View.Piece (Elt F) S1152x640 .f32) //
      ∀ (xi2 : Vec F S1152x640 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.BitsR1RunB.lean ====
/-
  A step of B = A · M that is neither first nor last along the contracted axis: the body adds the step's partial product to the accumulator and leaves the output block alone.
-/
import proofs.«147890_j85212151153300_1_alg».proof.Proof.BitsR1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- What the body's stores leave in the accumulator at a middle step, as pieces, with the proof that on whole
    buffers (the operands' at their blocks, the output's at anything and handed back untouched, the accumulator at
    what the step before left) the body runs to the continuation holding them so. -/
noncomputable def kernelRun1_B (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : ¬cond1_1 i)
    (x0 : Vec F S1152x640 .bf16) (x1 : Vec F S640x640 .bf16) (xs0 : Vec F S1152x640 .f32) :
    Σ' (L2 : List (View.Piece (Elt F) S1152x640 .bf16)), { LS0 : List (View.Piece (Elt F) S1152x640 .f32) //
      ∀ (xi2 : Vec F S1152x640 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.BitsR1RunC.lean ====
/-
  The last step of a column block of B = A · M (not also the first): the body adds the step's partial product to the accumulator and rounds the accumulator into the output block.
-/
import proofs.«147890_j85212151153300_1_alg».proof.Proof.BitsR1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- What the body's stores leave in the output block and in the accumulator at a last step, as pieces, with the
    proof that on whole buffers (the operands' at their blocks, the output's at anything, the accumulator at what the
    step before left) the body runs to the continuation holding them so. -/
noncomputable def kernelRun1_C (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : cond1_1 i)
    (x0 : Vec F S1152x640 .bf16) (x1 : Vec F S640x640 .bf16) (xs0 : Vec F S1152x640 .f32) :
    Σ' (L2 : List (View.Piece (Elt F) S1152x640 .bf16)), { LS0 : List (View.Piece (Elt F) S1152x640 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.BitsR1Data.lean ====
/-
  The second product of the chain, B = A · M, step by step. What the accumulator holds after each step is a
  recursion over the steps: a first step starts it afresh, every other step continues from what the step before left.
  The output block is written at the last step of a column block only. From this recursion come the data the pipeline
  rule asks for — every staging buffer's contents after every step and the invariant between steps, which carries the
  accumulator at the recursion's value — and the proof that the body meets them at every step.
-/
import proofs.«147890_j85212151153300_1_alg».proof.Proof.BitsR1RunA
import proofs.«147890_j85212151153300_1_alg».proof.Proof.BitsR1RunB
import proofs.«147890_j85212151153300_1_alg».proof.Proof.BitsR1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a step leaves, case by case -/

/-- The output block's placeholder at the steps that do not write it: nothing reads it. -/
def outIdle1 : Vec F S1152x640 .bf16 := VO1.read (Elt F) VO1.junk

theorem scover1_A (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : cond1_0 i) (hc1 : ¬cond1_1 i)
    (x0 : Vec F S1152x640 .bf16) (x1 : Vec F S640x640 .bf16) (y : S1152x640.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1152x640.size (by sl_kernel_rfl) y

/-- The accumulator after a first step. -/
def sout1_A (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : cond1_0 i) (hc1 : ¬cond1_1 i)
    (x0 : Vec F S1152x640 .bf16) (x1 : Vec F S640x640 .bf16) : Vec F S1152x640 .f32 :=
  VS1.read (Elt F) (VS1.writes (Elt F) VS1.junk (kernelRun1_A c i arg3 harg3 arg4 harg4 arg5 harg5 arg6 harg6 hc0 hc1 x0 x1).2.1)

theorem scover1_B (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : ¬cond1_1 i)
    (x0 : Vec F S1152x640 .bf16) (x1 : Vec F S640x640 .bf16) (xs0 : Vec F S1152x640 .f32) (y : S1152x640.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1152x640.size (by sl_kernel_rfl) y

/-- The accumulator after a middle step that found it at `xs0`. -/
def sout1_B (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : ¬cond1_1 i)
    (x0 : Vec F S1152x640 .bf16) (x1 : Vec F S640x640 .bf16) (xs0 : Vec F S1152x640 .f32) : Vec F S1152x640 .f32 :=
  VS1.read (Elt F) (VS1.writes (Elt F) VS1.junk (kernelRun1_B c i arg3 harg3 arg4 harg4 arg5 harg5 arg6 harg6 hc0 hc1 x0 x1 xs0).2.1)

theorem cover1_C (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : cond1_1 i)
    (x0 : Vec F S1152x640 .bf16) (x1 : Vec F S640x640 .bf16) (xs0 : Vec F S1152x640 .f32) (y : S1152x640.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1152x640.size (by sl_kernel_rfl) y

/-- The output block after a last step that found the accumulator at `xs0`. -/
def out1_C (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : cond1_1 i)
    (x0 : Vec F S1152x640 .bf16) (x1 : Vec F S640x640 .bf16) (xs0 : Vec F S1152x640 .f32) : Vec F S1152x640 .bf16 :=
  VO1.read (Elt F) (VO1.writes (Elt F) VO1.junk (kernelRun1_C c i arg3 harg3 arg4 harg4 arg5 harg5 arg6 harg6 hc0 hc1 x0 x1 xs0).1)

theorem scover1_C (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : cond1_1 i)
    (x0 : Vec F S1152x640 .bf16) (x1 : Vec F S640x640 .bf16) (xs0 : Vec F S1152x640 .f32) (y : S1152x640.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1152x640.size (by sl_kernel_rfl) y

/-- The accumulator after a last step that found it at `xs0`. -/
def sout1_C (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : cond1_1 i)
    (x0 : Vec F S1152x640 .bf16) (x1 : Vec F S640x640 .bf16) (xs0 : Vec F S1152x640 .f32) : Vec F S1152x640 .f32 :=
  VS1.read (Elt F) (VS1.writes (Elt F) VS1.junk (kernelRun1_C c i arg3 harg3 arg4 harg4 arg5 harg5 arg6 harg6 hc0 hc1 x0 x1 xs0).2.1)

/-! ## The recursion over the steps -/

/-- What the output's staging buffer and the accumulator hold after step `n`: a first step starts the
    accumulator afresh from the step's two blocks, any other step continues from what step `n - 1` left. -/
def outsAt1 (c : Dev nD) : (n : ℕ) → n < cfg1.N → Vec F S1152x640 .bf16 × Vec F S1152x640 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 13 = 0 then
      if h1 : (n + 1) % 13 = 12 then
        False.elim (by omega)
      else
        (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 13 = 12 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 13 = 0) (h1 : ¬t.val % 13 = 12) :
    outsAt1 V c t.val t.isLt = (outIdle1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 13 = 0) (h1 : ¬t.val % 13 = 12) :
    outsAt1 V c t.val t.isLt = (outIdle1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 13 = 0) (h1 : t.val % 13 = 12) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between steps -/

/-- Before the first step: the call's scoped buffers it does not stage through, at anything. After step `n`: the
    same, but the accumulator at the recursion's value. The generator register rides along. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's data -/

/-- The arrays as the call finds them; after step `t` each operand's buffer at its block and the output's at the
    recursion's first component; the invariant above; nothing owed to another core; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.Kernel.Hand

end
-- ==== Proof.BitsR1Body.lean ====
/-
  The body of B = A · M meets the pipeline's data at every step: the step's position along the contracted axis
  says which of the three cases it is; the invariant hands the body the accumulator at what the step before left
  (at anything before the very first step), and takes it back at the recursion's value for this step.
-/
import proofs.«147890_j85212151153300_1_alg».proof.Proof.BitsR1Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at step `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 169 := lt_of_lt_of_eq t.isLt (show cfg1.N = 169 from N_1)
  by_cases h0 : t.val % 13 = 0
  · by_cases h1 : t.val % 13 = 12
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ )
            iexact Hrest
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ )
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 13 = 12
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _ )
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _ )
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _ )
          iexact Hrest
        iexact Hg
      isplitl [Ho]; · iexact Ho
      isplitl [H0]; · iexact H0
      isplitl [H1]; · iexact H1
      iexists _; iexact H2

/-- The pipeline rule's obligation on the body, at every step. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first step, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last step the invariant gives the same back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 169 := N_1; omega), PhiA1_eq]
  iintro ⟨⟨HS0, Hrest⟩, Hg⟩
  isplitl [HS0 Hrest]
  · isplitl [HS0]
    · iexists _; iexact HS0
    iexact Hrest
  iexact Hg

end Cert.Kernel.Hand

end
-- ==== Proof.BitsR2Base.lean ====
/-
  The third product of the chain, C = B · Zᵀ, as the kernel computes it: one output block, 13 steps along the
  contracted axis. At a step the body adds one 1152×640 by 640×1152 partial product to an accumulator that lives in
  a scratch buffer from step to step; the first step clears the accumulator first, the last step copies it into the
  output block. This module fixes what the steps share: which block of each operand a
  step reads, which steps are first and last, where the output block is left alone, and the accumulator as a view.
-/
import proofs.«147890_j85212151153300_1_alg».proof.Proof.Gen.Kernel.Launch
import proofs.«147890_j85212151153300_1_alg».proof.Proof.Gen.Kernel.Skeleton
import proofs.«147890_j85212151153300_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of operand `w` that step `t` reads, cut out of the operand's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the step's block of it, whether fetched at this step or kept. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the right operand. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-- The step is the first along the contracted axis (the accumulator is cleared). -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 13 = 0 :=
  (by decide +kernel : ∀ t : Fin grid2.N, cond2_0 (grid2.coords t) ↔ t.val % 13 = 0)

/-- The step is the last along the contracted axis (the accumulator is written out). -/
abbrev cond2_1 (i : grid2.Coords) : Prop := k2_cond2 i = 1#1
theorem hcond2_1 : ∀ t : Fin cfg2.N, cond2_1 (grid2.coords t) ↔ t.val % 13 = 12 :=
  (by decide +kernel : ∀ t : Fin grid2.N, cond2_1 (grid2.coords t) ↔ t.val % 13 = 12)

/-- The operands' windows are never idle; the output's is idle, and not written back, at every step but the last. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- One staging buffer of the output window, through which its contents are stated. -/
abbrev VO2 : View sig .tc .vmem S1152x1152 .f32 := (Memref.whole cc2_stg2_0 : Memref sig .tc .vmem S1152x1152 .f32).view
/-- Each window's current staging buffer at step `t`, as the pipeline passes it to the body. -/
abbrev ms2_0 (t : Fin cfg2.N) : Memref sig .tc .vmem S1152x640 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S640x1152 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1152x1152 .f32 := win2_2.stage (cfg2.slots t 2)
abbrev hs2_2 (t : Fin cfg2.N) : (ms2_2 t).IsWhole := hstage2_2 ((cfg2.slots t 2).cast nbuf2_2)
/-- The accumulator: a whole scoped buffer of the call's own, and the view its contents are stated through. -/
abbrev scM2 : Memref sig .tc .vmem S1152x1152 .f32 := Memref.whole cc2_scratch0
abbrev VS2 : View sig .tc .vmem S1152x1152 .f32 := scM2.view

/-- The call's scoped buffers that it does not stage through, split at the accumulator. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole, bigSepL]; try rfl

end Cert.Kernel.Hand

end
-- ==== Proof.BitsR2RunA.lean ====
/-
  The first step of C = B · Zᵀ (not also the last): the body clears the accumulator, adds the step's partial product to it, and leaves the output block alone. Whatever the accumulator held before is overwritten.
-/
import proofs.«147890_j85212151153300_1_alg».proof.Proof.BitsR2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- What the body's stores leave in the accumulator at a first step, as pieces, with the proof that on whole
    buffers (the operands' at their blocks, the output's at anything and handed back untouched, the accumulator at
    anything) the body runs to the continuation holding them so. -/
noncomputable def kernelRun2_A (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : cond2_0 i) (hc1 : ¬cond2_1 i)
    (x0 : Vec F S1152x640 .bf16) (x1 : Vec F S640x1152 .bf16) :
    Σ' (L2 : List (View.Piece (Elt F) S1152x1152 .f32)), { LS0 : List (View.Piece (Elt F) S1152x1152 .f32) //
      ∀ (xi2 : Vec F S1152x1152 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.BitsR2RunB.lean ====
/-
  A step of C = B · Zᵀ that is neither first nor last along the contracted axis: the body adds the step's partial product to the accumulator and leaves the output block alone.
-/
import proofs.«147890_j85212151153300_1_alg».proof.Proof.BitsR2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- What the body's stores leave in the accumulator at a middle step, as pieces, with the proof that on whole
    buffers (the operands' at their blocks, the output's at anything and handed back untouched, the accumulator at
    what the step before left) the body runs to the continuation holding them so. -/
noncomputable def kernelRun2_B (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : ¬cond2_1 i)
    (x0 : Vec F S1152x640 .bf16) (x1 : Vec F S640x1152 .bf16) (xs0 : Vec F S1152x1152 .f32) :
    Σ' (L2 : List (View.Piece (Elt F) S1152x1152 .f32)), { LS0 : List (View.Piece (Elt F) S1152x1152 .f32) //
      ∀ (xi2 : Vec F S1152x1152 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.BitsR2RunC.lean ====
/-
  The last step of C = B · Zᵀ (not also the first): the body adds the step's partial product to the accumulator and copies the accumulator into the output block.
-/
import proofs.«147890_j85212151153300_1_alg».proof.Proof.BitsR2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- What the body's stores leave in the output block and in the accumulator at a last step, as pieces, with the
    proof that on whole buffers (the operands' at their blocks, the output's at anything, the accumulator at what the
    step before left) the body runs to the continuation holding them so. -/
noncomputable def kernelRun2_C (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : cond2_1 i)
    (x0 : Vec F S1152x640 .bf16) (x1 : Vec F S640x1152 .bf16) (xs0 : Vec F S1152x1152 .f32) :
    Σ' (L2 : List (View.Piece (Elt F) S1152x1152 .f32)), { LS0 : List (View.Piece (Elt F) S1152x1152 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.BitsR2Data.lean ====
/-
  The third product of the chain, C = B · Zᵀ, step by step. What the accumulator holds after each step is a
  recursion over the steps: a first step starts it afresh, every other step continues from what the step before left.
  The output block is written at the last step only. From this recursion come the data the pipeline
  rule asks for — every staging buffer's contents after every step and the invariant between steps, which carries the
  accumulator at the recursion's value — and the proof that the body meets them at every step.
-/
import proofs.«147890_j85212151153300_1_alg».proof.Proof.BitsR2RunA
import proofs.«147890_j85212151153300_1_alg».proof.Proof.BitsR2RunB
import proofs.«147890_j85212151153300_1_alg».proof.Proof.BitsR2RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a step leaves, case by case -/

/-- The output block's placeholder at the steps that do not write it: nothing reads it. -/
def outIdle2 : Vec F S1152x1152 .f32 := VO2.read (Elt F) VO2.junk

theorem scover2_A (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : cond2_0 i) (hc1 : ¬cond2_1 i)
    (x0 : Vec F S1152x640 .bf16) (x1 : Vec F S640x1152 .bf16) (y : S1152x1152.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S1152x1152.size (by sl_kernel_rfl) y

/-- The accumulator after a first step. -/
def sout2_A (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : cond2_0 i) (hc1 : ¬cond2_1 i)
    (x0 : Vec F S1152x640 .bf16) (x1 : Vec F S640x1152 .bf16) : Vec F S1152x1152 .f32 :=
  VS2.read (Elt F) (VS2.writes (Elt F) VS2.junk (kernelRun2_A c i arg3 harg3 arg4 harg4 arg5 harg5 arg6 harg6 hc0 hc1 x0 x1).2.1)

theorem scover2_B (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : ¬cond2_1 i)
    (x0 : Vec F S1152x640 .bf16) (x1 : Vec F S640x1152 .bf16) (xs0 : Vec F S1152x1152 .f32) (y : S1152x1152.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S1152x1152.size (by sl_kernel_rfl) y

/-- The accumulator after a middle step that found it at `xs0`. -/
def sout2_B (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : ¬cond2_1 i)
    (x0 : Vec F S1152x640 .bf16) (x1 : Vec F S640x1152 .bf16) (xs0 : Vec F S1152x1152 .f32) : Vec F S1152x1152 .f32 :=
  VS2.read (Elt F) (VS2.writes (Elt F) VS2.junk (kernelRun2_B c i arg3 harg3 arg4 harg4 arg5 harg5 arg6 harg6 hc0 hc1 x0 x1 xs0).2.1)

theorem cover2_C (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : cond2_1 i)
    (x0 : Vec F S1152x640 .bf16) (x1 : Vec F S640x1152 .bf16) (xs0 : Vec F S1152x1152 .f32) (y : S1152x1152.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S1152x1152.size (by sl_kernel_rfl) y

/-- The output block after a last step that found the accumulator at `xs0`. -/
def out2_C (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : cond2_1 i)
    (x0 : Vec F S1152x640 .bf16) (x1 : Vec F S640x1152 .bf16) (xs0 : Vec F S1152x1152 .f32) : Vec F S1152x1152 .f32 :=
  VO2.read (Elt F) (VO2.writes (Elt F) VO2.junk (kernelRun2_C c i arg3 harg3 arg4 harg4 arg5 harg5 arg6 harg6 hc0 hc1 x0 x1 xs0).1)

theorem scover2_C (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : cond2_1 i)
    (x0 : Vec F S1152x640 .bf16) (x1 : Vec F S640x1152 .bf16) (xs0 : Vec F S1152x1152 .f32) (y : S1152x1152.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S1152x1152.size (by sl_kernel_rfl) y

/-- The accumulator after a last step that found it at `xs0`. -/
def sout2_C (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : cond2_1 i)
    (x0 : Vec F S1152x640 .bf16) (x1 : Vec F S640x1152 .bf16) (xs0 : Vec F S1152x1152 .f32) : Vec F S1152x1152 .f32 :=
  VS2.read (Elt F) (VS2.writes (Elt F) VS2.junk (kernelRun2_C c i arg3 harg3 arg4 harg4 arg5 harg5 arg6 harg6 hc0 hc1 x0 x1 xs0).2.1)

/-! ## The recursion over the steps -/

/-- What the output's staging buffer and the accumulator hold after step `n`: a first step starts the
    accumulator afresh from the step's two blocks, any other step continues from what step `n - 1` left. -/
def outsAt2 (c : Dev nD) : (n : ℕ) → n < cfg2.N → Vec F S1152x1152 .f32 × Vec F S1152x1152 .f32
  | 0, hn => (outIdle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 13 = 0 then
      if h1 : (n + 1) % 13 = 12 then
        False.elim (by omega)
      else
        (outIdle2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 13 = 12 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (outIdle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 13 = 0) (h1 : ¬t.val % 13 = 12) :
    outsAt2 V c t.val t.isLt = (outIdle2, sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 13 = 0) (h1 : ¬t.val % 13 = 12) :
    outsAt2 V c t.val t.isLt = (outIdle2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 13 = 0) (h1 : t.val % 13 = 12) :
    outsAt2 V c t.val t.isLt = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between steps -/

/-- Before the first step: the call's scoped buffers it does not stage through, at anything. After step `n`: the
    same, but the accumulator at the recursion's value. The generator register rides along. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's data -/

/-- The arrays as the call finds them; after step `t` each operand's buffer at its block and the output's at the
    recursion's first component; the invariant above; nothing owed to another core; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.Kernel.Hand

end
-- ==== Proof.BitsR2Body.lean ====
/-
  The body of C = B · Zᵀ meets the pipeline's data at every step: the step's position along the contracted axis
  says which of the three cases it is; the invariant hands the body the accumulator at what the step before left
  (at anything before the very first step), and takes it back at the recursion's value for this step.
-/
import proofs.«147890_j85212151153300_1_alg».proof.Proof.BitsR2Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at step `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 13 := lt_of_lt_of_eq t.isLt (show cfg2.N = 13 from N_2)
  by_cases h0 : t.val % 13 = 0
  · by_cases h1 : t.val % 13 = 12
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2 t (fun h => h1 ((hcond2_1 t).mp h))) (noFlush2_2 t (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A c _ _ _ _ _ _ _ _ _ _ _ _ _ )
            iexact Hrest
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A c _ _ _ _ _ _ _ _ _ _ _ _ _ )
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 13 = 12
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C sout2_C; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C c _ _ _ _ _ _ _ _ _ _ _ _ _ _ )
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _ )
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B c _ _ _ _ _ _ _ _ _ _ _ _ _ _ )
          iexact Hrest
        iexact Hg
      isplitl [Ho]; · iexact Ho
      isplitl [H0]; · iexact H0
      isplitl [H1]; · iexact H1
      iexists _; iexact H2

/-- The pipeline rule's obligation on the body, at every step. -/
theorem body_obligation2 (c : Dev nD) : BodyObligation (dat2 (F := F) V c) (defs₀ (F := F)) Variants.none () Set.univ := fun t => by
  rw [bigSep_W2, bigSep_W2]
  exact sound_body2 V c t

/-- What the call is entered with is the invariant before the first step, -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after the last step the invariant gives the same back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 13 := N_2; omega), PhiA2_eq]
  iintro ⟨⟨HS0, Hrest⟩, Hg⟩
  isplitl [HS0 Hrest]
  · isplitl [HS0]
    · iexists _; iexact HS0
    iexact Hrest
  iexact Hg

end Cert.Kernel.Hand

end
-- ==== Proof.BitsR3Base.lean ====
/-
  The fourth product of the chain, D = C · Q, as the kernel computes it: one block, one step. The body clears the
  accumulator (a scratch buffer), adds the 1152×1152 by 1152×1152 product to it and rounds it into the output block:
  the one step is both first and last along the contracted axis. This module fixes which block of each operand a step reads, that both conditions hold at every step, and the
  accumulator as a view.
-/
import proofs.«147890_j85212151153300_1_alg».proof.Proof.Gen.Kernel.Launch
import proofs.«147890_j85212151153300_1_alg».proof.Proof.Gen.Kernel.Skeleton
import proofs.«147890_j85212151153300_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of operand `w` that step `t` reads, cut out of the operand's array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds the step's block of it, whether fetched at this step or kept. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the right operand. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
end

/-- The step is the first along the contracted axis: at every step. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) :=
  (by decide +kernel : ∀ t : Fin grid3.N, cond3_0 (grid3.coords t))

/-- The step is the last along the contracted axis: at every step. -/
abbrev cond3_1 (i : grid3.Coords) : Prop := k3_cond2 i = 1#1
theorem hcond3_1 : ∀ t : Fin cfg3.N, cond3_1 (grid3.coords t) :=
  (by decide +kernel : ∀ t : Fin grid3.N, cond3_1 (grid3.coords t))

/-- No window is idle at any step. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

/-- One staging buffer of the output window, through which its contents are stated. -/
abbrev VO3 : View sig .tc .vmem S1152x1152 .bf16 := (Memref.whole cc3_stg2_0 : Memref sig .tc .vmem S1152x1152 .bf16).view
/-- Each window's current staging buffer at step `t`, as the pipeline passes it to the body. -/
abbrev ms3_0 (t : Fin cfg3.N) : Memref sig .tc .vmem S1152x1152 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1152x1152 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1152x1152 .bf16 := win3_2.stage (cfg3.slots t 2)
abbrev hs3_2 (t : Fin cfg3.N) : (ms3_2 t).IsWhole := hstage3_2 ((cfg3.slots t 2).cast nbuf3_2)
/-- The accumulator: a whole scoped buffer of the call's own. -/
abbrev scM3 : Memref sig .tc .vmem S1152x1152 .f32 := Memref.whole cc3_scratch0

/-- The call's scoped buffers that it does not stage through, split at the accumulator. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [scM3, owns_whole, bigSepL]; try rfl

end Cert.Kernel.Hand

end
-- ==== Proof.BitsR3Run.lean ====
/-
  The one step of D = C · Q, run whole: the body clears the accumulator, adds the step's product to it, and rounds the
  accumulator into the output block.
-/
import proofs.«147890_j85212151153300_1_alg».proof.Proof.BitsR3Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- What the body's stores leave in the output block and in the accumulator, as pieces, with the proof that on
    whole buffers (the operands' at their blocks, the output's and the accumulator's at anything) the body runs to the
    continuation holding them so. -/
noncomputable def kernelRun3_D (c : Dev nD) (i : grid3.Coords) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .f32) (harg6 : arg6.IsWhole) (hc0 : cond3_0 i) (hc1 : cond3_1 i)
    (x0 : Vec F S1152x1152 .bf16) (x1 : Vec F S1152x1152 .bf16) :
    Σ' (L2 : List (View.Piece (Elt F) S1152x1152 .bf16)), { LS0 : List (View.Piece (Elt F) S1152x1152 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg3 harg3 arg4 harg4 arg5 harg5 arg6 harg6) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.BitsR3Body.lean ====
/-
  D = C · Q, its one step: the output's staging buffer after a step is what the step's run leaves there, a function
  of the step's two blocks alone. The invariant between steps is constant (the accumulator at anything: each step clears
  it before use). From this come the pipeline's data and the proof that the body meets them at every step.
-/
import proofs.«147890_j85212151153300_1_alg».proof.Proof.BitsR3Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover3_D (c : Dev nD) (i : grid3.Coords) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .f32) (harg6 : arg6.IsWhole) (hc0 : cond3_0 i) (hc1 : cond3_1 i)
    (x0 : Vec F S1152x1152 .bf16) (x1 : Vec F S1152x1152 .bf16) (y : S1152x1152.Idx) :
    ∃ pc ∈ (kernelRun3_D c i arg3 harg3 arg4 harg4 arg5 harg5 arg6 harg6 hc0 hc1 x0 x1).1, y ∈ pc.1.set :=
  View.cover_of_tiledL (kernelRun3_D c i arg3 harg3 arg4 harg4 arg5 harg5 arg6 harg6 hc0 hc1 x0 x1).1 S1152x1152.size (by sl_kernel_rfl) y

/-- The output block after a step. -/
def out3_D (c : Dev nD) (i : grid3.Coords) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .f32) (harg6 : arg6.IsWhole) (hc0 : cond3_0 i) (hc1 : cond3_1 i)
    (x0 : Vec F S1152x1152 .bf16) (x1 : Vec F S1152x1152 .bf16) : Vec F S1152x1152 .bf16 :=
  VO3.read (Elt F) (VO3.writes (Elt F) VO3.junk (kernelRun3_D c i arg3 harg3 arg4 harg4 arg5 harg5 arg6 harg6 hc0 hc1 x0 x1).1)

/-- The arrays as the call finds them; after step `t` each operand's buffer at its block and the output's at what
    the step's run leaves; the constant invariant; nothing owed to another core; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_D c (grid3.coords t) (ms3_0 t) (hs3_0 t) (ms3_1 t) (hs3_1 t) (ms3_2 t) (hs3_2 t) scM3 (Memref.isWhole_whole _) (hcond3_0 t) (hcond3_1 t) (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_D c (grid3.coords t) (ms3_0 t) (hs3_0 t) (ms3_1 t) (hs3_1 t) (ms3_2 t) (hs3_2 t) scM3 (Memref.isWhole_whole _) (hcond3_0 t) (hcond3_1 t) (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at step `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl, PhiA3_eq]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  unfold out3_D; (try dsimp only)
  iintro ⟨⟨⟨HS0, Hrest⟩, Hg⟩, Ho, ⟨%d0, H0⟩, ⟨%d1, H1⟩, ⟨%d2, H2⟩⟩
  iapply ((kernelRun3_D c (grid3.coords t) _ _ _ _ _ _ _ _ (hcond3_0 t) (hcond3_1 t) (iblk3 V c 0 t) (iblk3 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _, _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover3_D c _ _ _ _ _ _ _ _ _ _ _ _ _ )

/-- The pipeline rule's obligation on the body, at every step. -/
theorem body_obligation3 (c : Dev nD) : BodyObligation (dat3 (F := F) V c) (defs₀ (F := F)) Variants.none () Set.univ := fun t => by
  rw [bigSep_W3, bigSep_W3]
  exact sound_body3 V c t

/-- What the call is entered with is the invariant, before the first step and after the last. -/
theorem hin3 (c : Dev nD) : Pipeline.ΦA spec3 c ⊢ (dat3 V c).Φ 0 := Idealize.SL.BI.Entails.refl _
theorem hout3 (c : Dev nD) : (dat3 V c).Φ (Fin.last cfg3.N) ⊢ Pipeline.ΦA spec3 c := Idealize.SL.BI.Entails.refl _

end Cert.Kernel.Hand

end
-- ==== Proof.BitsR4Base.lean ====
/-
  The fifth product of the chain, E = D · Z, as the kernel computes it: 13 column blocks, the whole contracted
  axis in one step. At each step the body clears the accumulator (a scratch buffer), adds the step's 1152×1152 by
  1152×640 product to it and copies it into the output block: every step is both first and last along the contracted
  axis. This module fixes which block of each operand a step reads, that both conditions hold at every step, and the
  accumulator as a view.
-/
import proofs.«147890_j85212151153300_1_alg».proof.Proof.Gen.Kernel.Launch
import proofs.«147890_j85212151153300_1_alg».proof.Proof.Gen.Kernel.Skeleton
import proofs.«147890_j85212151153300_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of operand `w` that step `t` reads, cut out of the operand's array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's staging buffer holds the step's block of it, whether fetched at this step or kept. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the right operand. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
end

/-- The step is the first along the contracted axis: at every step. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) :=
  (by decide +kernel : ∀ t : Fin grid4.N, cond4_0 (grid4.coords t))

/-- The step is the last along the contracted axis: at every step. -/
abbrev cond4_1 (i : grid4.Coords) : Prop := k4_cond2 i = 1#1
theorem hcond4_1 : ∀ t : Fin cfg4.N, cond4_1 (grid4.coords t) :=
  (by decide +kernel : ∀ t : Fin grid4.N, cond4_1 (grid4.coords t))

/-- No window is idle at any step. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

/-- One staging buffer of the output window, through which its contents are stated. -/
abbrev VO4 : View sig .tc .vmem S1152x640 .f32 := (Memref.whole cc4_stg2_0 : Memref sig .tc .vmem S1152x640 .f32).view
/-- Each window's current staging buffer at step `t`, as the pipeline passes it to the body. -/
abbrev ms4_0 (t : Fin cfg4.N) : Memref sig .tc .vmem S1152x1152 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1152x640 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1152x640 .f32 := win4_2.stage (cfg4.slots t 2)
abbrev hs4_2 (t : Fin cfg4.N) : (ms4_2 t).IsWhole := hstage4_2 ((cfg4.slots t 2).cast nbuf4_2)
/-- The accumulator: a whole scoped buffer of the call's own. -/
abbrev scM4 : Memref sig .tc .vmem S1152x640 .f32 := Memref.whole cc4_scratch0

/-- The call's scoped buffers that it does not stage through, split at the accumulator. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA
  rw [Pipeline.scopedRest_split_of_list spec4 c [cc4_scratch0] (by decide) (by decide)]
  simp only [scM4, owns_whole, bigSepL]; try rfl

end Cert.Kernel.Hand

end
-- ==== Proof.BitsR4Run.lean ====
/-
  One step of E = D · Z, run whole: the body clears the accumulator, adds the step's product to it, and copies the
  accumulator into the output block.
-/
import proofs.«147890_j85212151153300_1_alg».proof.Proof.BitsR4Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- What the body's stores leave in the output block and in the accumulator, as pieces, with the proof that on
    whole buffers (the operands' at their blocks, the output's and the accumulator's at anything) the body runs to the
    continuation holding them so. -/
noncomputable def kernelRun4_D (c : Dev nD) (i : grid4.Coords) (arg3 : Memref sig .tc .vmem S1152x1152 .bf16) (harg3 : arg3.IsWhole) (arg4 : Memref sig .tc .vmem S1152x640 .bf16) (harg4 : arg4.IsWhole) (arg5 : Memref sig .tc .vmem S1152x640 .f32) (harg5 : arg5.IsWhole) (arg6 : Memref sig .tc .vmem S1152x640 .f32) (harg6 : arg6.IsWhole) (hc0 : cond4_0 i) (hc1 : cond4_1 i)
    (x0 : Vec F S1152x1152 .bf16) (x1 : Vec F S1152x640 .bf16) :
    Σ' (L2 : List (View.Piece (Elt F) S1152x640 .f32)), { LS0 : List (View.Piece (Elt F) S1152x640 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, ?_, fun E K => ?run⟩
  case run =>
    simp only [cc4__matmul_kernel_eq_skeleton]; unfold cc4__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.BitsR4Body.lean ====
/-
  E = D · Z, step by step: the output's staging buffer after a step is what the step's run leaves there, a function
  of the step's two blocks alone. The invariant between steps is constant (the accumulator at anything: each step clears
  it before use). From this come the pipeline's data and the proof that the body meets them at every step.
-/
import proofs.«147890_j85212151153300_1_alg».proof.Proof.BitsR4Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover4_D (c : Dev nD) (i : grid4.Coords) (arg3 : Memref sig .tc .vmem S1152x1152 .bf16) (harg3 : arg3.IsWhole) (arg4 : Memref sig .tc .vmem S1152x640 .bf16) (harg4 : arg4.IsWhole) (arg5 : Memref sig .tc .vmem S1152x640 .f32) (harg5 : arg5.IsWhole) (arg6 : Memref sig .tc .vmem S1152x640 .f32) (harg6 : arg6.IsWhole) (hc0 : cond4_0 i) (hc1 : cond4_1 i)
    (x0 : Vec F S1152x1152 .bf16) (x1 : Vec F S1152x640 .bf16) (y : S1152x640.Idx) :
    ∃ pc ∈ (kernelRun4_D c i arg3 harg3 arg4 harg4 arg5 harg5 arg6 harg6 hc0 hc1 x0 x1).1, y ∈ pc.1.set :=
  View.cover_of_tiledL (kernelRun4_D c i arg3 harg3 arg4 harg4 arg5 harg5 arg6 harg6 hc0 hc1 x0 x1).1 S1152x640.size (by sl_kernel_rfl) y

/-- The output block after a step. -/
def out4_D (c : Dev nD) (i : grid4.Coords) (arg3 : Memref sig .tc .vmem S1152x1152 .bf16) (harg3 : arg3.IsWhole) (arg4 : Memref sig .tc .vmem S1152x640 .bf16) (harg4 : arg4.IsWhole) (arg5 : Memref sig .tc .vmem S1152x640 .f32) (harg5 : arg5.IsWhole) (arg6 : Memref sig .tc .vmem S1152x640 .f32) (harg6 : arg6.IsWhole) (hc0 : cond4_0 i) (hc1 : cond4_1 i)
    (x0 : Vec F S1152x1152 .bf16) (x1 : Vec F S1152x640 .bf16) : Vec F S1152x640 .f32 :=
  VO4.read (Elt F) (VO4.writes (Elt F) VO4.junk (kernelRun4_D c i arg3 harg3 arg4 harg4 arg5 harg5 arg6 harg6 hc0 hc1 x0 x1).1)

/-- The arrays as the call finds them; after step `t` each operand's buffer at its block and the output's at what
    the step's run leaves; the constant invariant; nothing owed to another core; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_D c (grid4.coords t) (ms4_0 t) (hs4_0 t) (ms4_1 t) (hs4_1 t) (ms4_2 t) (hs4_2 t) scM4 (Memref.isWhole_whole _) (hcond4_0 t) (hcond4_1 t) (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_D c (grid4.coords t) (ms4_0 t) (hs4_0 t) (ms4_1 t) (hs4_1 t) (ms4_2 t) (hs4_2 t) scM4 (Memref.isWhole_whole _) (hcond4_0 t) (hcond4_1 t) (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at step `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Pipeline.ΦA spec4 c from rfl, show (dat4 V c).Φ t.castSucc = Pipeline.ΦA spec4 c from rfl, PhiA4_eq]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  unfold out4_D; (try dsimp only)
  iintro ⟨⟨⟨HS0, Hrest⟩, Hg⟩, Ho, ⟨%d0, H0⟩, ⟨%d1, H1⟩, ⟨%d2, H2⟩⟩
  iapply ((kernelRun4_D c (grid4.coords t) _ _ _ _ _ _ _ _ (hcond4_0 t) (hcond4_1 t) (iblk4 V c 0 t) (iblk4 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _, _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover4_D c _ _ _ _ _ _ _ _ _ _ _ _ _ )

/-- The pipeline rule's obligation on the body, at every step. -/
theorem body_obligation4 (c : Dev nD) : BodyObligation (dat4 (F := F) V c) (defs₀ (F := F)) Variants.none () Set.univ := fun t => by
  rw [bigSep_W4, bigSep_W4]
  exact sound_body4 V c t

/-- What the call is entered with is the invariant, before the first step and after the last. -/
theorem hin4 (c : Dev nD) : Pipeline.ΦA spec4 c ⊢ (dat4 V c).Φ 0 := Idealize.SL.BI.Entails.refl _
theorem hout4 (c : Dev nD) : (dat4 V c).Φ (Fin.last cfg4.N) ⊢ Pipeline.ΦA spec4 c := Idealize.SL.BI.Entails.refl _

end Cert.Kernel.Hand

end
-- ==== Proof.BitsRun.lean ====
/-
  The whole program as a run. Between two items of @main a core holds every unscoped buffer at a valuation: the launch
  memory, then each stretch of host operations applied, then, after a kernel region, the region's output array at what the
  pipeline's write-backs leave there. Each region is entered from the valuation before it and left at the one after it;
  the host stretches run over the valuations by themselves. At the end every unscoped buffer is read off the last
  valuation: the argument arrays are as launched, and the result is what the last stretch computes.
-/
import proofs.«147890_j85212151153300_1_alg».proof.Proof.BitsR0Body
import proofs.«147890_j85212151153300_1_alg».proof.Proof.BitsR1Body
import proofs.«147890_j85212151153300_1_alg».proof.Proof.BitsR2Body
import proofs.«147890_j85212151153300_1_alg».proof.Proof.BitsR3Body
import proofs.«147890_j85212151153300_1_alg».proof.Proof.BitsR4Body
import proofs.«147890_j85212151153300_1_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's valuation read at the TensorCore's references. -/
abbrev Vt (W : Dev nD → Valuation τ sig (Elt F)) : (c : Dev nD) → (b : Ref sig .tc) → Buf (Elt F) ((c : Thread nD τ).loc b) :=
  fun c b => W c b

/-! ## What each region leaves in its output array, and the valuations after it -/

def o0 (c : Dev nD) : Buf (Elt F) ((c : Thread nD τ).loc main_v8) := (dat0 (Vt (Gen.V9 m)) c).arrAt 2 cfg0.N
def U10 (c : Dev nD) : Valuation τ sig (Elt F) := Function.update (Gen.V9 m c) main_v8 (o0 m c)
def o1 (c : Dev nD) : Buf (Elt F) ((c : Thread nD τ).loc main_v9) := (dat1 (Vt (U10 m)) c).arrAt 2 cfg1.N
def U11 (c : Dev nD) : Valuation τ sig (Elt F) := Function.update (U10 m c) main_v9 (o1 m c)
abbrev U12 (c : Dev nD) : Valuation τ sig (Elt F) := StableHlo.after hostOps2 (U11 m c)
def o2 (c : Dev nD) : Buf (Elt F) ((c : Thread nD τ).loc main_v11) := (dat2 (Vt (U12 m)) c).arrAt 2 cfg2.N
def U13 (c : Dev nD) : Valuation τ sig (Elt F) := Function.update (U12 m c) main_v11 (o2 m c)
abbrev U14 (c : Dev nD) : Valuation τ sig (Elt F) := StableHlo.after hostOps3 (U13 m c)
def o3 (c : Dev nD) : Buf (Elt F) ((c : Thread nD τ).loc main_v13) := (dat3 (Vt (U14 m)) c).arrAt 2 cfg3.N
def U15 (c : Dev nD) : Valuation τ sig (Elt F) := Function.update (U14 m c) main_v13 (o3 m c)
def o4 (c : Dev nD) : Buf (Elt F) ((c : Thread nD τ).loc main_v14) := (dat4 (Vt (U15 m)) c).arrAt 2 cfg4.N
def U16 (c : Dev nD) : Valuation τ sig (Elt F) := Function.update (U15 m c) main_v14 (o4 m c)

/-- The contents the regions leave, as the generated valuations read them: after item J the buffers are `UJ`. -/
def outs : Gen.Outs (F := F) := fun J r c =>
  match J with
  | 10 => U10 m c r
  | 11 => U11 m c r
  | 13 => U13 m c r
  | 15 => U15 m c r
  | 16 => U16 m c r
  | _ => Gen.V0 m c r

theorem outs10 (c : Dev nD) : outs m 10 main_v8 c = o0 m c := by
  show U10 m c main_v8 = o0 m c; unfold U10; exact Function.update_self ..
theorem V10_eq : Gen.V10 m (outs m) = U10 m := by
  funext c; show Function.update (Gen.V9 m c) main_v8 (outs m 10 main_v8 c) = U10 m c; rw [outs10]; rfl
theorem outs11 (c : Dev nD) : outs m 11 main_v9 c = o1 m c := by
  show U11 m c main_v9 = o1 m c; unfold U11; exact Function.update_self ..
theorem V11_eq : Gen.V11 m (outs m) = U11 m := by
  funext c; show Function.update (Gen.V10 m (outs m) c) main_v9 (outs m 11 main_v9 c) = U11 m c; rw [outs11, V10_eq]; rfl
theorem V12_eq : Gen.V12 m (outs m) = U12 m := by
  funext c; show StableHlo.after hostOps2 (Gen.V11 m (outs m) c) = _; rw [V11_eq]
theorem outs13 (c : Dev nD) : outs m 13 main_v11 c = o2 m c := by
  show U13 m c main_v11 = o2 m c; unfold U13; exact Function.update_self ..
theorem V13_eq : Gen.V13 m (outs m) = U13 m := by
  funext c; show Function.update (Gen.V12 m (outs m) c) main_v11 (outs m 13 main_v11 c) = U13 m c; rw [outs13, V12_eq]; rfl
theorem V14_eq : Gen.V14 m (outs m) = U14 m := by
  funext c; show StableHlo.after hostOps3 (Gen.V13 m (outs m) c) = _; rw [V13_eq]
theorem outs15 (c : Dev nD) : outs m 15 main_v13 c = o3 m c := by
  show U15 m c main_v13 = o3 m c; unfold U15; exact Function.update_self ..
theorem V15_eq : Gen.V15 m (outs m) = U15 m := by
  funext c; show Function.update (Gen.V14 m (outs m) c) main_v13 (outs m 15 main_v13 c) = U15 m c; rw [outs15, V14_eq]; rfl
theorem outs16 (c : Dev nD) : outs m 16 main_v14 c = o4 m c := by
  show U16 m c main_v14 = o4 m c; unfold U16; exact Function.update_self ..

/-! ## The pipelines' data, each at its region's entry valuation -/

def pdats : (p : Fin 5) → (c : Dev nD) → Dat τ (Elt F) Unit ℕ (UR sig nD τ) ℕ (Pipeline.pin (pcfgs (F := F)) Gen.adm p) c
  | ⟨0, _⟩ => fun c => dat0 (Vt (Gen.V9 m)) c
  | ⟨1, _⟩ => fun c => dat1 (Vt (Gen.V10 m (outs m))) c
  | ⟨2, _⟩ => fun c => dat2 (Vt (Gen.V12 m (outs m))) c
  | ⟨3, _⟩ => fun c => dat3 (Vt (Gen.V14 m (outs m))) c
  | ⟨4, _⟩ => fun c => dat4 (Vt (Gen.V15 m (outs m))) c

/-- Each region's output array after the region is what the valuation after it holds there. -/
theorem out0_eq (c : Dev nD) : Vt (Gen.V10 m (outs m)) c (Pipeline.arrRef spec0 2) = (pdats m 0 c).arrAt 2 cfg0.N := by
  show Function.update (Gen.V9 m c) main_v8 (outs m 10 main_v8 c) main_v8 = o0 m c
  rw [Function.update_self, outs10]
theorem out1_eq (c : Dev nD) : Vt (Gen.V11 m (outs m)) c (Pipeline.arrRef spec1 2) = (pdats m 1 c).arrAt 2 cfg1.N := by
  show Function.update (Gen.V10 m (outs m) c) main_v9 (outs m 11 main_v9 c) main_v9 = (dat1 (Vt (Gen.V10 m (outs m))) c).arrAt 2 cfg1.N
  rw [Function.update_self, outs11, V10_eq]; rfl
theorem out2_eq (c : Dev nD) : Vt (Gen.V13 m (outs m)) c (Pipeline.arrRef spec2 2) = (pdats m 2 c).arrAt 2 cfg2.N := by
  show Function.update (Gen.V12 m (outs m) c) main_v11 (outs m 13 main_v11 c) main_v11 = (dat2 (Vt (Gen.V12 m (outs m))) c).arrAt 2 cfg2.N
  rw [Function.update_self, outs13, V12_eq]; rfl
theorem out3_eq (c : Dev nD) : Vt (Gen.V15 m (outs m)) c (Pipeline.arrRef spec3 2) = (pdats m 3 c).arrAt 2 cfg3.N := by
  show Function.update (Gen.V14 m (outs m) c) main_v13 (outs m 15 main_v13 c) main_v13 = (dat3 (Vt (Gen.V14 m (outs m))) c).arrAt 2 cfg3.N
  rw [Function.update_self, outs15, V14_eq]; rfl
theorem out4_eq (c : Dev nD) : Vt (Gen.V16 m (outs m)) c (Pipeline.arrRef spec4 2) = (pdats m 4 c).arrAt 2 cfg4.N := by
  show Function.update (Gen.V15 m (outs m) c) main_v14 (outs m 16 main_v14 c) main_v14 = (dat4 (Vt (Gen.V15 m (outs m))) c).arrAt 2 cfg4.N
  rw [Function.update_self, outs16, V15_eq]; rfl

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A stretch of host operations as a segment over a valuation. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- Where region 0 leaves the buffers it does not write, and its three arrays. -/
theorem hrest0 (c : Dev nD) : ∀ b, b ∉ Finset.univ.image (Pipeline.arrRef spec0) → Vt (Gen.V10 m (outs m)) c b = Vt (Gen.V9 m) c b :=
  fun b hb => Gen.V10_of m (outs m) c b fun hm =>
    hb (Finset.mem_image.mpr ⟨2, Finset.mem_univ _, ((List.mem_singleton.mp hm).trans (rfl : main_v8 = Pipeline.arrRef spec0 2)).symm⟩)
theorem hF0 (c : Dev nD) (w : Fin cfg0.W) : (pdats m 0 c).arrAt w cfg0.N = Vt (Gen.V10 m (outs m)) c (Pipeline.arrRef spec0 w) :=
  match w with
  | ⟨0, _⟩ => (((pdats m 0 c).arrAt_in 0 rfl _).trans (A_eq0 _ c 0)).trans (Gen.V10_of m (outs m) c (Pipeline.arrRef spec0 0) (by decide)).symm
  | ⟨1, _⟩ => (((pdats m 0 c).arrAt_in 1 rfl _).trans (A_eq0 _ c 1)).trans (Gen.V10_of m (outs m) c (Pipeline.arrRef spec0 1) (by decide)).symm
  | ⟨2, _⟩ => (out0_eq m c).symm

set_option backward.isDefEq.respectTransparency.types false in
/-- Region 0 over the thread state: entered with every unscoped buffer at the valuation before it, left with them at
    the valuation after it. Its arrays are split out of the unscoped buffers and put back at what the pipeline leaves; the
    generator register goes into the invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt (Gen.V9 m)) c).loose
  hwaits := Pipeline.hwaits_of_owed_zero _ _ _ _ L lv 0 fun _ _ => rfl
  pre c := iprop(StableHlo.held (c : Thread nD τ) (Pipeline.ucRefs τ sig) (Gen.V9 m c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vt (Gen.V9 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vt (Gen.V9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (Vt (Gen.V9 m)) c
    unfold Pipeline.ΦA at h
    rw [show (pdats m 0 c).Φ 0 = (dat0 (Vt (Gen.V9 m)) c).Φ 0 from rfl]
    iintro ⟨Hp, -, Hr⟩
    iapply h
    isplitl [Hr]; · iexact Hr
    iexact Hp
  hout c := by
    have h := hout0 (Vt (Gen.V9 m)) c
    unfold Pipeline.ΦA at h
    rw [Pipeline.ownSems0_none, show (pdats m 0 c).Φ (Fin.last _) = (dat0 (Vt (Gen.V9 m)) c).Φ (Fin.last cfg0.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vt (Gen.V9 m) c) (Vt (Gen.V10 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Where region 1 leaves the buffers it does not write, and its three arrays. -/
theorem hrest1 (c : Dev nD) : ∀ b, b ∉ Finset.univ.image (Pipeline.arrRef spec1) → Vt (Gen.V11 m (outs m)) c b = Vt (Gen.V10 m (outs m)) c b :=
  fun b hb => Gen.V11_of m (outs m) c b fun hm =>
    hb (Finset.mem_image.mpr ⟨2, Finset.mem_univ _, ((List.mem_singleton.mp hm).trans (rfl : main_v9 = Pipeline.arrRef spec1 2)).symm⟩)
theorem hF1 (c : Dev nD) (w : Fin cfg1.W) : (pdats m 1 c).arrAt w cfg1.N = Vt (Gen.V11 m (outs m)) c (Pipeline.arrRef spec1 w) :=
  match w with
  | ⟨0, _⟩ => (((pdats m 1 c).arrAt_in 0 rfl _).trans (A_eq1 _ c 0)).trans (Gen.V11_of m (outs m) c (Pipeline.arrRef spec1 0) (by decide)).symm
  | ⟨1, _⟩ => (((pdats m 1 c).arrAt_in 1 rfl _).trans (A_eq1 _ c 1)).trans (Gen.V11_of m (outs m) c (Pipeline.arrRef spec1 1) (by decide)).symm
  | ⟨2, _⟩ => (out1_eq m c).symm

set_option backward.isDefEq.respectTransparency.types false in
/-- Region 1 over the thread state: entered with every unscoped buffer at the valuation before it, left with them at
    the valuation after it. Its arrays are split out of the unscoped buffers and put back at what the pipeline leaves; the
    generator register goes into the invariant and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt (Gen.V10 m (outs m))) c).loose
  hwaits := Pipeline.hwaits_of_owed_zero _ _ _ _ L lv 1 fun _ _ => rfl
  pre c := iprop(StableHlo.held (c : Thread nD τ) (Pipeline.ucRefs τ sig) (Gen.V10 m (outs m) c) ∗ R c)
  post c := iprop(StableHlo.held (c : Thread nD τ) (Pipeline.ucRefs τ sig) (Gen.V11 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vt (Gen.V10 m (outs m)) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vt (Gen.V10 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vt (Gen.V10 m (outs m))) c
    unfold Pipeline.ΦA at h
    rw [show (pdats m 1 c).Φ 0 = (dat1 (Vt (Gen.V10 m (outs m))) c).Φ 0 from rfl]
    iintro ⟨Hp, -, Hr⟩
    iapply h
    isplitl [Hr]; · iexact Hr
    iexact Hp
  hout c := by
    have h := hout1 (Vt (Gen.V10 m (outs m))) c
    unfold Pipeline.ΦA at h
    rw [Pipeline.ownSems0_none, show (pdats m 1 c).Φ (Fin.last _) = (dat1 (Vt (Gen.V10 m (outs m))) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vt (Gen.V10 m (outs m)) c) (Vt (Gen.V11 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Where region 2 leaves the buffers it does not write, and its three arrays. -/
theorem hrest2 (c : Dev nD) : ∀ b, b ∉ Finset.univ.image (Pipeline.arrRef spec2) → Vt (Gen.V13 m (outs m)) c b = Vt (Gen.V12 m (outs m)) c b :=
  fun b hb => Gen.V13_of m (outs m) c b fun hm =>
    hb (Finset.mem_image.mpr ⟨2, Finset.mem_univ _, ((List.mem_singleton.mp hm).trans (rfl : main_v11 = Pipeline.arrRef spec2 2)).symm⟩)
theorem hF2 (c : Dev nD) (w : Fin cfg2.W) : (pdats m 2 c).arrAt w cfg2.N = Vt (Gen.V13 m (outs m)) c (Pipeline.arrRef spec2 w) :=
  match w with
  | ⟨0, _⟩ => (((pdats m 2 c).arrAt_in 0 rfl _).trans (A_eq2 _ c 0)).trans (Gen.V13_of m (outs m) c (Pipeline.arrRef spec2 0) (by decide)).symm
  | ⟨1, _⟩ => (((pdats m 2 c).arrAt_in 1 rfl _).trans (A_eq2 _ c 1)).trans (Gen.V13_of m (outs m) c (Pipeline.arrRef spec2 1) (by decide)).symm
  | ⟨2, _⟩ => (out2_eq m c).symm

set_option backward.isDefEq.respectTransparency.types false in
/-- Region 2 over the thread state: entered with every unscoped buffer at the valuation before it, left with them at
    the valuation after it. Its arrays are split out of the unscoped buffers and put back at what the pipeline leaves; the
    generator register goes into the invariant and comes out; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt (Gen.V12 m (outs m))) c).loose
  hwaits := Pipeline.hwaits_of_owed_zero _ _ _ _ L lv 2 fun _ _ => rfl
  pre c := iprop(StableHlo.held (c : Thread nD τ) (Pipeline.ucRefs τ sig) (Gen.V12 m (outs m) c) ∗ R c)
  post c := iprop(StableHlo.held (c : Thread nD τ) (Pipeline.ucRefs τ sig) (Gen.V13 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vt (Gen.V12 m (outs m)) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Vt (Gen.V12 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (Vt (Gen.V12 m (outs m))) c
    unfold Pipeline.ΦA at h
    rw [show (pdats m 2 c).Φ 0 = (dat2 (Vt (Gen.V12 m (outs m))) c).Φ 0 from rfl]
    iintro ⟨Hp, -, Hr⟩
    iapply h
    isplitl [Hr]; · iexact Hr
    iexact Hp
  hout c := by
    have h := hout2 (Vt (Gen.V12 m (outs m))) c
    unfold Pipeline.ΦA at h
    rw [Pipeline.ownSems0_none, show (pdats m 2 c).Φ (Fin.last _) = (dat2 (Vt (Gen.V12 m (outs m))) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Vt (Gen.V12 m (outs m)) c) (Vt (Gen.V13 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Where region 3 leaves the buffers it does not write, and its three arrays. -/
theorem hrest3 (c : Dev nD) : ∀ b, b ∉ Finset.univ.image (Pipeline.arrRef spec3) → Vt (Gen.V15 m (outs m)) c b = Vt (Gen.V14 m (outs m)) c b :=
  fun b hb => Gen.V15_of m (outs m) c b fun hm =>
    hb (Finset.mem_image.mpr ⟨2, Finset.mem_univ _, ((List.mem_singleton.mp hm).trans (rfl : main_v13 = Pipeline.arrRef spec3 2)).symm⟩)
theorem hF3 (c : Dev nD) (w : Fin cfg3.W) : (pdats m 3 c).arrAt w cfg3.N = Vt (Gen.V15 m (outs m)) c (Pipeline.arrRef spec3 w) :=
  match w with
  | ⟨0, _⟩ => (((pdats m 3 c).arrAt_in 0 rfl _).trans (A_eq3 _ c 0)).trans (Gen.V15_of m (outs m) c (Pipeline.arrRef spec3 0) (by decide)).symm
  | ⟨1, _⟩ => (((pdats m 3 c).arrAt_in 1 rfl _).trans (A_eq3 _ c 1)).trans (Gen.V15_of m (outs m) c (Pipeline.arrRef spec3 1) (by decide)).symm
  | ⟨2, _⟩ => (out3_eq m c).symm

set_option backward.isDefEq.respectTransparency.types false in
/-- Region 3 over the thread state: entered with every unscoped buffer at the valuation before it, left with them at
    the valuation after it. Its arrays are split out of the unscoped buffers and put back at what the pipeline leaves; the
    generator register goes into the invariant and comes out; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt (Gen.V14 m (outs m))) c).loose
  hwaits := Pipeline.hwaits_of_owed_zero _ _ _ _ L lv 3 fun _ _ => rfl
  pre c := iprop(StableHlo.held (c : Thread nD τ) (Pipeline.ucRefs τ sig) (Gen.V14 m (outs m) c) ∗ R c)
  post c := iprop(StableHlo.held (c : Thread nD τ) (Pipeline.ucRefs τ sig) (Gen.V15 m (outs m) c) ∗ R c)
  X c := iprop(∃ r, prngReg c r)
  Y c := iprop(∃ r, prngReg c r)
  Z c := Pipeline.unscopedRest (Ix := Unit) (Name := ℕ) (U := UR sig nD τ) (Lvl := ℕ) spec3 c (Vt (Gen.V14 m (outs m)) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (Vt (Gen.V14 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (Vt (Gen.V14 m (outs m))) c
    unfold Pipeline.ΦA at h
    rw [show (pdats m 3 c).Φ 0 = (dat3 (Vt (Gen.V14 m (outs m))) c).Φ 0 from rfl]
    iintro ⟨Hp, -, Hr⟩
    iapply h
    isplitl [Hr]; · iexact Hr
    iexact Hp
  hout c := by
    have h := hout3 (Vt (Gen.V14 m (outs m))) c
    unfold Pipeline.ΦA at h
    rw [Pipeline.ownSems0_none, show (pdats m 3 c).Φ (Fin.last _) = (dat3 (Vt (Gen.V14 m (outs m))) c).Φ (Fin.last cfg3.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (Vt (Gen.V14 m (outs m)) c) (Vt (Gen.V15 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Where region 4 leaves the buffers it does not write, and its three arrays. -/
theorem hrest4 (c : Dev nD) : ∀ b, b ∉ Finset.univ.image (Pipeline.arrRef spec4) → Vt (Gen.V16 m (outs m)) c b = Vt (Gen.V15 m (outs m)) c b :=
  fun b hb => Gen.V16_of m (outs m) c b fun hm =>
    hb (Finset.mem_image.mpr ⟨2, Finset.mem_univ _, ((List.mem_singleton.mp hm).trans (rfl : main_v14 = Pipeline.arrRef spec4 2)).symm⟩)
theorem hF4 (c : Dev nD) (w : Fin cfg4.W) : (pdats m 4 c).arrAt w cfg4.N = Vt (Gen.V16 m (outs m)) c (Pipeline.arrRef spec4 w) :=
  match w with
  | ⟨0, _⟩ => (((pdats m 4 c).arrAt_in 0 rfl _).trans (A_eq4 _ c 0)).trans (Gen.V16_of m (outs m) c (Pipeline.arrRef spec4 0) (by decide)).symm
  | ⟨1, _⟩ => (((pdats m 4 c).arrAt_in 1 rfl _).trans (A_eq4 _ c 1)).trans (Gen.V16_of m (outs m) c (Pipeline.arrRef spec4 1) (by decide)).symm
  | ⟨2, _⟩ => (out4_eq m c).symm

set_option backward.isDefEq.respectTransparency.types false in
/-- Region 4 over the thread state: entered with every unscoped buffer at the valuation before it, left with them at
    the valuation after it. Its arrays are split out of the unscoped buffers and put back at what the pipeline leaves; the
    generator register goes into the invariant and comes out; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vt (Gen.V15 m (outs m))) c).loose
  hwaits := Pipeline.hwaits_of_owed_zero _ _ _ _ L lv 4 fun _ _ => rfl
  pre c := iprop(StableHlo.held (c : Thread nD τ) (Pipeline.ucRefs τ sig) (Gen.V15 m (outs m) c) ∗ R c)
  post c := iprop(StableHlo.held (c : Thread nD τ) (Pipeline.ucRefs τ sig) (Gen.V16 m (outs m) c) ∗ R c)
  X c := iprop(∃ r, prngReg c r)
  Y c := iprop(∃ r, prngReg c r)
  Z c := Pipeline.unscopedRest (Ix := Unit) (Name := ℕ) (U := UR sig nD τ) (Lvl := ℕ) spec4 c (Vt (Gen.V15 m (outs m)) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (Vt (Gen.V15 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (Vt (Gen.V15 m (outs m))) c
    unfold Pipeline.ΦA at h
    rw [show (pdats m 4 c).Φ 0 = (dat4 (Vt (Gen.V15 m (outs m))) c).Φ 0 from rfl]
    iintro ⟨Hp, -, Hr⟩
    iapply h
    isplitl [Hr]; · iexact Hr
    iexact Hp
  hout c := by
    have h := hout4 (Vt (Gen.V15 m (outs m))) c
    unfold Pipeline.ΦA at h
    rw [Pipeline.ownSems0_none, show (pdats m 4 c).Φ (Fin.last _) = (dat4 (Vt (Gen.V15 m (outs m))) c).Φ (Fin.last cfg4.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (Vt (Gen.V15 m (outs m)) c) (Vt (Gen.V16 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) Gen.adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .host (hseg hostOps0_5 hostOps0_5_sub Gen.hostOps0_5_fresh (Gen.V5 m)),
    .host (hseg hostOps0_6 hostOps0_6_sub Gen.hostOps0_6_fresh (Gen.V6 m)),
    .host (hseg hostOps0_7 hostOps0_7_sub Gen.hostOps0_7_fresh (Gen.V7 m)),
    .host (hseg hostOps0_8 hostOps0_8_sub Gen.hostOps0_8_fresh (Gen.V8 m)),
    .region (reg0 m),
    .region (reg1 m),
    .host (hseg hostOps2 hostOps2_sub Gen.hostOps2_fresh (Gen.V11 m (outs m))),
    .region (reg2 m),
    .host (hseg hostOps3 hostOps3_sub Gen.hostOps3_fresh (Gen.V13 m (outs m))),
    .region (reg3 m),
    .region (reg4 m),
    .host (hseg hostOps5 hostOps5_sub Gen.hostOps5_fresh (Gen.V16 m (outs m))) ]

theorem main_run (c : Dev nD) : main (F := F) c = Pipeline.Seg.run (segs m) := (main_chain c).trans (by chain_rfl)

set_option backward.isDefEq.respectTransparency.types false in
/-- From any memory with zero counters every weakly fair execution of @main terminates, nothing faulting, and in every
    final state each core's unscoped buffers hold the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V17 m (outs m) c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V17 m (outs m) c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Gen.V17 m (outs m) c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V17 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V17 m (outs m) c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Gen.V17_main_arg0 m (outs m) c),
     (h c _ (mem_uc main_arg1 (by decide))).trans (Gen.V17_main_arg1 m (outs m) c),
     (h c _ (mem_uc main_arg2 (by decide))).trans (Gen.V17_main_arg2 m (outs m) c),
     (h c _ (mem_uc main_arg3 (by decide))).trans (Gen.V17_main_arg3 m (outs m) c),
     (h c _ (mem_uc main_arg4 (by decide))).trans (Gen.V17_main_arg4 m (outs m) c)⟩) (run_all m ρ)

end Cert.Kernel.Hand

end
-- ==== Proof.IdealR0Base.lean ====
/-
  The first product of the chain, A = P · Z, as the kernel computes it: 13 column blocks, the whole contracted
  axis in one step. At each step the body clears the accumulator (a scratch buffer), adds the step's 1152×1152 by
  1152×640 product to it and rounds it into the output block: every step is both first and last along the contracted
  axis. This module fixes which block of each operand a step reads, that both conditions hold at every step, and the
  accumulator as a view.
-/
import proofs.«147890_j85212151153300_1_alg».proof.Proof.Gen.KernelIdeal.Launch
import proofs.«147890_j85212151153300_1_alg».proof.Proof.Gen.KernelIdeal.Skeleton
import proofs.«147890_j85212151153300_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of operand `w` that step `t` reads, cut out of the operand's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the step's block of it, whether fetched at this step or kept. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-- The step is the first along the contracted axis: at every step. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) :=
  (by decide +kernel : ∀ t : Fin grid0.N, cond0_0 (grid0.coords t))

/-- The step is the last along the contracted axis: at every step. -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-- No window is idle at any step. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- One staging buffer of the output window, through which its contents are stated. -/
abbrev VO0 : View sig .tc .vmem S1152x640 .bf16 := (Memref.whole cc0_stg2_0 : Memref sig .tc .vmem S1152x640 .bf16).view
/-- Each window's current staging buffer at step `t`, as the pipeline passes it to the body. -/
abbrev ms0_0 (t : Fin cfg0.N) : Memref sig .tc .vmem S1152x1152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1152x640 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1152x640 .bf16 := win0_2.stage (cfg0.slots t 2)
abbrev hs0_2 (t : Fin cfg0.N) : (ms0_2 t).IsWhole := hstage0_2 ((cfg0.slots t 2).cast nbuf0_2)
/-- The accumulator: a whole scoped buffer of the call's own. -/
abbrev scM0 : Memref sig .tc .vmem S1152x640 .f32 := Memref.whole cc0_scratch0

/-- The call's scoped buffers that it does not stage through, split at the accumulator. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole, bigSepL]; try rfl

end Cert.KernelIdeal.Hand

end
-- ==== Proof.IdealR0Run.lean ====
/-
  One step of A = P · Z, run whole: the body clears the accumulator, adds the step's product to it, and rounds the
  accumulator into the output block.
-/
import proofs.«147890_j85212151153300_1_alg».proof.Proof.IdealR0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- What the body's stores leave in the output block and in the accumulator, as pieces, with the proof that on
    whole buffers (the operands' at their blocks, the output's and the accumulator's at anything) the body runs to the
    continuation holding them so. -/
noncomputable def kernelRun0_D (c : Dev nD) (i : grid0.Coords) (arg3 : Memref sig .tc .vmem S1152x1152 .bf16) (harg3 : arg3.IsWhole) (arg4 : Memref sig .tc .vmem S1152x640 .bf16) (harg4 : arg4.IsWhole) (arg5 : Memref sig .tc .vmem S1152x640 .bf16) (harg5 : arg5.IsWhole) (arg6 : Memref sig .tc .vmem S1152x640 .f32) (harg6 : arg6.IsWhole) (hc0 : cond0_0 i) (hc1 : cond0_1 i)
    (x0 : Vec F S1152x1152 .bf16) (x1 : Vec F S1152x640 .bf16) :
    Σ' (L2 : List (View.Piece (Elt F) S1152x640 .bf16)), { LS0 : List (View.Piece (Elt F) S1152x640 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.IdealR0Body.lean ====
/-
  A = P · Z, step by step: the output's staging buffer after a step is what the step's run leaves there, a function
  of the step's two blocks alone. The invariant between steps is constant (the accumulator at anything: each step clears
  it before use). From this come the pipeline's data and the proof that the body meets them at every step.
-/
import proofs.«147890_j85212151153300_1_alg».proof.Proof.IdealR0Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover0_D (c : Dev nD) (i : grid0.Coords) (arg3 : Memref sig .tc .vmem S1152x1152 .bf16) (harg3 : arg3.IsWhole) (arg4 : Memref sig .tc .vmem S1152x640 .bf16) (harg4 : arg4.IsWhole) (arg5 : Memref sig .tc .vmem S1152x640 .bf16) (harg5 : arg5.IsWhole) (arg6 : Memref sig .tc .vmem S1152x640 .f32) (harg6 : arg6.IsWhole) (hc0 : cond0_0 i) (hc1 : cond0_1 i)
    (x0 : Vec F S1152x1152 .bf16) (x1 : Vec F S1152x640 .bf16) (y : S1152x640.Idx) :
    ∃ pc ∈ (kernelRun0_D c i arg3 harg3 arg4 harg4 arg5 harg5 arg6 harg6 hc0 hc1 x0 x1).1, y ∈ pc.1.set :=
  View.cover_of_tiledL (kernelRun0_D c i arg3 harg3 arg4 harg4 arg5 harg5 arg6 harg6 hc0 hc1 x0 x1).1 S1152x640.size (by sl_kernel_rfl) y

/-- The output block after a step. -/
def out0_D (c : Dev nD) (i : grid0.Coords) (arg3 : Memref sig .tc .vmem S1152x1152 .bf16) (harg3 : arg3.IsWhole) (arg4 : Memref sig .tc .vmem S1152x640 .bf16) (harg4 : arg4.IsWhole) (arg5 : Memref sig .tc .vmem S1152x640 .bf16) (harg5 : arg5.IsWhole) (arg6 : Memref sig .tc .vmem S1152x640 .f32) (harg6 : arg6.IsWhole) (hc0 : cond0_0 i) (hc1 : cond0_1 i)
    (x0 : Vec F S1152x1152 .bf16) (x1 : Vec F S1152x640 .bf16) : Vec F S1152x640 .bf16 :=
  VO0.read (Elt F) (VO0.writes (Elt F) VO0.junk (kernelRun0_D c i arg3 harg3 arg4 harg4 arg5 harg5 arg6 harg6 hc0 hc1 x0 x1).1)

/-- The arrays as the call finds them; after step `t` each operand's buffer at its block and the output's at what
    the step's run leaves; the constant invariant; nothing owed to another core; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_D c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_D c (grid0.coords t) (ms0_0 t) (hs0_0 t) (ms0_1 t) (hs0_1 t) (ms0_2 t) (hs0_2 t) scM0 (Memref.isWhole_whole _) (hcond0_0 t) (hcond0_1 t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at step `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl, PhiA0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold out0_D; (try dsimp only)
  iintro ⟨⟨⟨HS0, Hrest⟩, Hg⟩, Ho, ⟨%d0, H0⟩, ⟨%d1, H1⟩, ⟨%d2, H2⟩⟩
  iapply ((kernelRun0_D c (grid0.coords t) _ _ _ _ _ _ _ _ (hcond0_0 t) (hcond0_1 t) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _, _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_D c _ _ _ _ _ _ _ _ _ _ _ _ _ )

/-- The pipeline rule's obligation on the body, at every step. -/
theorem body_obligation0 (c : Dev nD) : BodyObligation (dat0 (F := F) V c) (defs₀ (F := F)) Variants.none () Set.univ := fun t => by
  rw [bigSep_W0, bigSep_W0]
  exact sound_body0 V c t

/-- What the call is entered with is the invariant, before the first step and after the last. -/
theorem hin0 (c : Dev nD) : Pipeline.ΦA spec0 c ⊢ (dat0 V c).Φ 0 := Idealize.SL.BI.Entails.refl _
theorem hout0 (c : Dev nD) : (dat0 V c).Φ (Fin.last cfg0.N) ⊢ Pipeline.ΦA spec0 c := Idealize.SL.BI.Entails.refl _

end Cert.KernelIdeal.Hand

end
-- ==== Proof.IdealR1Base.lean ====
/-
  The second product of the chain, B = A · M, as the kernel computes it: a grid of 13 column blocks by 13 steps
  along the contracted axis. At a step the body adds one 1152×640 by 640×640 partial product to an accumulator that
  lives in a scratch buffer from step to step; the first step of a column block clears the accumulator first, the
  last step rounds it into the output block. This module fixes what the steps share: which block of each operand a
  step reads, which steps are first and last, where the output block is left alone, and the accumulator as a view.
-/
import proofs.«147890_j85212151153300_1_alg».proof.Proof.Gen.KernelIdeal.Launch
import proofs.«147890_j85212151153300_1_alg».proof.Proof.Gen.KernelIdeal.Skeleton
import proofs.«147890_j85212151153300_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of operand `w` that step `t` reads, cut out of the operand's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds the step's block of it, whether fetched at this step or kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-- The step is the first along the contracted axis (the accumulator is cleared). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 13 = 0 :=
  (by decide +kernel : ∀ t : Fin grid1.N, cond1_0 (grid1.coords t) ↔ t.val % 13 = 0)

/-- The step is the last along the contracted axis (the accumulator is written out). -/
abbrev cond1_1 (i : grid1.Coords) : Prop := k1_cond2 i = 1#1
theorem hcond1_1 : ∀ t : Fin cfg1.N, cond1_1 (grid1.coords t) ↔ t.val % 13 = 12 :=
  (by decide +kernel : ∀ t : Fin grid1.N, cond1_1 (grid1.coords t) ↔ t.val % 13 = 12)

/-- The operands' windows are never idle; the output's is idle, and not written back, at every step but the last. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, through which its contents are stated. -/
abbrev VO1 : View sig .tc .vmem S1152x640 .bf16 := (Memref.whole cc1_stg2_0 : Memref sig .tc .vmem S1152x640 .bf16).view
/-- Each window's current staging buffer at step `t`, as the pipeline passes it to the body. -/
abbrev ms1_0 (t : Fin cfg1.N) : Memref sig .tc .vmem S1152x640 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S640x640 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1152x640 .bf16 := win1_2.stage (cfg1.slots t 2)
abbrev hs1_2 (t : Fin cfg1.N) : (ms1_2 t).IsWhole := hstage1_2 ((cfg1.slots t 2).cast nbuf1_2)
/-- The accumulator: a whole scoped buffer of the call's own, and the view its contents are stated through. -/
abbrev scM1 : Memref sig .tc .vmem S1152x640 .f32 := Memref.whole cc1_scratch0
abbrev VS1 : View sig .tc .vmem S1152x640 .f32 := scM1.view

/-- The call's scoped buffers that it does not stage through, split at the accumulator. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole, bigSepL]; try rfl

end Cert.KernelIdeal.Hand

end
-- ==== Proof.IdealR1RunA.lean ====
/-
  The first step of a column block of B = A · M (not also the last): the body clears the accumulator, adds the step's partial product to it, and leaves the output block alone. Whatever the accumulator held before is overwritten.
-/
import proofs.«147890_j85212151153300_1_alg».proof.Proof.IdealR1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- What the body's stores leave in the accumulator at a first step, as pieces, with the proof that on whole
    buffers (the operands' at their blocks, the output's at anything and handed back untouched, the accumulator at
    anything) the body runs to the continuation holding them so. -/
noncomputable def kernelRun1_A (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : cond1_0 i) (hc1 : ¬cond1_1 i)
    (x0 : Vec F S1152x640 .bf16) (x1 : Vec F S640x640 .bf16) :
    Σ' (L2 : List (View.Piece (Elt F) S1152x640 .bf16)), { LS0 : List (View.Piece (Elt F) S1152x640 .f32) //
      ∀ (xi2 : Vec F S1152x640 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.IdealR1RunB.lean ====
/-
  A step of B = A · M that is neither first nor last along the contracted axis: the body adds the step's partial product to the accumulator and leaves the output block alone.
-/
import proofs.«147890_j85212151153300_1_alg».proof.Proof.IdealR1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- What the body's stores leave in the accumulator at a middle step, as pieces, with the proof that on whole
    buffers (the operands' at their blocks, the output's at anything and handed back untouched, the accumulator at
    what the step before left) the body runs to the continuation holding them so. -/
noncomputable def kernelRun1_B (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : ¬cond1_1 i)
    (x0 : Vec F S1152x640 .bf16) (x1 : Vec F S640x640 .bf16) (xs0 : Vec F S1152x640 .f32) :
    Σ' (L2 : List (View.Piece (Elt F) S1152x640 .bf16)), { LS0 : List (View.Piece (Elt F) S1152x640 .f32) //
      ∀ (xi2 : Vec F S1152x640 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.IdealR1RunC.lean ====
/-
  The last step of a column block of B = A · M (not also the first): the body adds the step's partial product to the accumulator and rounds the accumulator into the output block.
-/
import proofs.«147890_j85212151153300_1_alg».proof.Proof.IdealR1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- What the body's stores leave in the output block and in the accumulator at a last step, as pieces, with the
    proof that on whole buffers (the operands' at their blocks, the output's at anything, the accumulator at what the
    step before left) the body runs to the continuation holding them so. -/
noncomputable def kernelRun1_C (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : cond1_1 i)
    (x0 : Vec F S1152x640 .bf16) (x1 : Vec F S640x640 .bf16) (xs0 : Vec F S1152x640 .f32) :
    Σ' (L2 : List (View.Piece (Elt F) S1152x640 .bf16)), { LS0 : List (View.Piece (Elt F) S1152x640 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.IdealR1Data.lean ====
/-
  The second product of the chain, B = A · M, step by step. What the accumulator holds after each step is a
  recursion over the steps: a first step starts it afresh, every other step continues from what the step before left.
  The output block is written at the last step of a column block only. From this recursion come the data the pipeline
  rule asks for — every staging buffer's contents after every step and the invariant between steps, which carries the
  accumulator at the recursion's value — and the proof that the body meets them at every step.
-/
import proofs.«147890_j85212151153300_1_alg».proof.Proof.IdealR1RunA
import proofs.«147890_j85212151153300_1_alg».proof.Proof.IdealR1RunB
import proofs.«147890_j85212151153300_1_alg».proof.Proof.IdealR1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a step leaves, case by case -/

/-- The output block's placeholder at the steps that do not write it: nothing reads it. -/
def outIdle1 : Vec F S1152x640 .bf16 := VO1.read (Elt F) VO1.junk

theorem scover1_A (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : cond1_0 i) (hc1 : ¬cond1_1 i)
    (x0 : Vec F S1152x640 .bf16) (x1 : Vec F S640x640 .bf16) (y : S1152x640.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1152x640.size (by sl_kernel_rfl) y

/-- The accumulator after a first step. -/
def sout1_A (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : cond1_0 i) (hc1 : ¬cond1_1 i)
    (x0 : Vec F S1152x640 .bf16) (x1 : Vec F S640x640 .bf16) : Vec F S1152x640 .f32 :=
  VS1.read (Elt F) (VS1.writes (Elt F) VS1.junk (kernelRun1_A c i arg3 harg3 arg4 harg4 arg5 harg5 arg6 harg6 hc0 hc1 x0 x1).2.1)

theorem scover1_B (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : ¬cond1_1 i)
    (x0 : Vec F S1152x640 .bf16) (x1 : Vec F S640x640 .bf16) (xs0 : Vec F S1152x640 .f32) (y : S1152x640.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1152x640.size (by sl_kernel_rfl) y

/-- The accumulator after a middle step that found it at `xs0`. -/
def sout1_B (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : ¬cond1_1 i)
    (x0 : Vec F S1152x640 .bf16) (x1 : Vec F S640x640 .bf16) (xs0 : Vec F S1152x640 .f32) : Vec F S1152x640 .f32 :=
  VS1.read (Elt F) (VS1.writes (Elt F) VS1.junk (kernelRun1_B c i arg3 harg3 arg4 harg4 arg5 harg5 arg6 harg6 hc0 hc1 x0 x1 xs0).2.1)

theorem cover1_C (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : cond1_1 i)
    (x0 : Vec F S1152x640 .bf16) (x1 : Vec F S640x640 .bf16) (xs0 : Vec F S1152x640 .f32) (y : S1152x640.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1152x640.size (by sl_kernel_rfl) y

/-- The output block after a last step that found the accumulator at `xs0`. -/
def out1_C (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : cond1_1 i)
    (x0 : Vec F S1152x640 .bf16) (x1 : Vec F S640x640 .bf16) (xs0 : Vec F S1152x640 .f32) : Vec F S1152x640 .bf16 :=
  VO1.read (Elt F) (VO1.writes (Elt F) VO1.junk (kernelRun1_C c i arg3 harg3 arg4 harg4 arg5 harg5 arg6 harg6 hc0 hc1 x0 x1 xs0).1)

theorem scover1_C (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : cond1_1 i)
    (x0 : Vec F S1152x640 .bf16) (x1 : Vec F S640x640 .bf16) (xs0 : Vec F S1152x640 .f32) (y : S1152x640.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1152x640.size (by sl_kernel_rfl) y

/-- The accumulator after a last step that found it at `xs0`. -/
def sout1_C (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : cond1_1 i)
    (x0 : Vec F S1152x640 .bf16) (x1 : Vec F S640x640 .bf16) (xs0 : Vec F S1152x640 .f32) : Vec F S1152x640 .f32 :=
  VS1.read (Elt F) (VS1.writes (Elt F) VS1.junk (kernelRun1_C c i arg3 harg3 arg4 harg4 arg5 harg5 arg6 harg6 hc0 hc1 x0 x1 xs0).2.1)

/-! ## The recursion over the steps -/

/-- What the output's staging buffer and the accumulator hold after step `n`: a first step starts the
    accumulator afresh from the step's two blocks, any other step continues from what step `n - 1` left. -/
def outsAt1 (c : Dev nD) : (n : ℕ) → n < cfg1.N → Vec F S1152x640 .bf16 × Vec F S1152x640 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 13 = 0 then
      if h1 : (n + 1) % 13 = 12 then
        False.elim (by omega)
      else
        (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 13 = 12 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 13 = 0) (h1 : ¬t.val % 13 = 12) :
    outsAt1 V c t.val t.isLt = (outIdle1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 13 = 0) (h1 : ¬t.val % 13 = 12) :
    outsAt1 V c t.val t.isLt = (outIdle1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 13 = 0) (h1 : t.val % 13 = 12) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between steps -/

/-- Before the first step: the call's scoped buffers it does not stage through, at anything. After step `n`: the
    same, but the accumulator at the recursion's value. The generator register rides along. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's data -/

/-- The arrays as the call finds them; after step `t` each operand's buffer at its block and the output's at the
    recursion's first component; the invariant above; nothing owed to another core; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.KernelIdeal.Hand

end
-- ==== Proof.IdealR1Body.lean ====
/-
  The body of B = A · M meets the pipeline's data at every step: the step's position along the contracted axis
  says which of the three cases it is; the invariant hands the body the accumulator at what the step before left
  (at anything before the very first step), and takes it back at the recursion's value for this step.
-/
import proofs.«147890_j85212151153300_1_alg».proof.Proof.IdealR1Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at step `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 169 := lt_of_lt_of_eq t.isLt (show cfg1.N = 169 from N_1)
  by_cases h0 : t.val % 13 = 0
  · by_cases h1 : t.val % 13 = 12
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ )
            iexact Hrest
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ )
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 13 = 12
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _ )
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _ )
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _ )
          iexact Hrest
        iexact Hg
      isplitl [Ho]; · iexact Ho
      isplitl [H0]; · iexact H0
      isplitl [H1]; · iexact H1
      iexists _; iexact H2

/-- The pipeline rule's obligation on the body, at every step. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first step, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last step the invariant gives the same back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 169 := N_1; omega), PhiA1_eq]
  iintro ⟨⟨HS0, Hrest⟩, Hg⟩
  isplitl [HS0 Hrest]
  · isplitl [HS0]
    · iexists _; iexact HS0
    iexact Hrest
  iexact Hg

end Cert.KernelIdeal.Hand

end
-- ==== Proof.IdealR2Base.lean ====
/-
  The third product of the chain, C = B · Zᵀ, as the kernel computes it: one output block, 13 steps along the
  contracted axis. At a step the body adds one 1152×640 by 640×1152 partial product to an accumulator that lives in
  a scratch buffer from step to step; the first step clears the accumulator first, the last step copies it into the
  output block. This module fixes what the steps share: which block of each operand a
  step reads, which steps are first and last, where the output block is left alone, and the accumulator as a view.
-/
import proofs.«147890_j85212151153300_1_alg».proof.Proof.Gen.KernelIdeal.Launch
import proofs.«147890_j85212151153300_1_alg».proof.Proof.Gen.KernelIdeal.Skeleton
import proofs.«147890_j85212151153300_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of operand `w` that step `t` reads, cut out of the operand's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the step's block of it, whether fetched at this step or kept. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the right operand. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-- The step is the first along the contracted axis (the accumulator is cleared). -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 13 = 0 :=
  (by decide +kernel : ∀ t : Fin grid2.N, cond2_0 (grid2.coords t) ↔ t.val % 13 = 0)

/-- The step is the last along the contracted axis (the accumulator is written out). -/
abbrev cond2_1 (i : grid2.Coords) : Prop := k2_cond2 i = 1#1
theorem hcond2_1 : ∀ t : Fin cfg2.N, cond2_1 (grid2.coords t) ↔ t.val % 13 = 12 :=
  (by decide +kernel : ∀ t : Fin grid2.N, cond2_1 (grid2.coords t) ↔ t.val % 13 = 12)

/-- The operands' windows are never idle; the output's is idle, and not written back, at every step but the last. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- One staging buffer of the output window, through which its contents are stated. -/
abbrev VO2 : View sig .tc .vmem S1152x1152 .f32 := (Memref.whole cc2_stg2_0 : Memref sig .tc .vmem S1152x1152 .f32).view
/-- Each window's current staging buffer at step `t`, as the pipeline passes it to the body. -/
abbrev ms2_0 (t : Fin cfg2.N) : Memref sig .tc .vmem S1152x640 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S640x1152 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1152x1152 .f32 := win2_2.stage (cfg2.slots t 2)
abbrev hs2_2 (t : Fin cfg2.N) : (ms2_2 t).IsWhole := hstage2_2 ((cfg2.slots t 2).cast nbuf2_2)
/-- The accumulator: a whole scoped buffer of the call's own, and the view its contents are stated through. -/
abbrev scM2 : Memref sig .tc .vmem S1152x1152 .f32 := Memref.whole cc2_scratch0
abbrev VS2 : View sig .tc .vmem S1152x1152 .f32 := scM2.view

/-- The call's scoped buffers that it does not stage through, split at the accumulator. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole, bigSepL]; try rfl

end Cert.KernelIdeal.Hand

end
-- ==== Proof.IdealR2RunA.lean ====
/-
  The first step of C = B · Zᵀ (not also the last): the body clears the accumulator, adds the step's partial product to it, and leaves the output block alone. Whatever the accumulator held before is overwritten.
-/
import proofs.«147890_j85212151153300_1_alg».proof.Proof.IdealR2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- What the body's stores leave in the accumulator at a first step, as pieces, with the proof that on whole
    buffers (the operands' at their blocks, the output's at anything and handed back untouched, the accumulator at
    anything) the body runs to the continuation holding them so. -/
noncomputable def kernelRun2_A (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : cond2_0 i) (hc1 : ¬cond2_1 i)
    (x0 : Vec F S1152x640 .bf16) (x1 : Vec F S640x1152 .bf16) :
    Σ' (L2 : List (View.Piece (Elt F) S1152x1152 .f32)), { LS0 : List (View.Piece (Elt F) S1152x1152 .f32) //
      ∀ (xi2 : Vec F S1152x1152 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.IdealR2RunB.lean ====
/-
  A step of C = B · Zᵀ that is neither first nor last along the contracted axis: the body adds the step's partial product to the accumulator and leaves the output block alone.
-/
import proofs.«147890_j85212151153300_1_alg».proof.Proof.IdealR2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- What the body's stores leave in the accumulator at a middle step, as pieces, with the proof that on whole
    buffers (the operands' at their blocks, the output's at anything and handed back untouched, the accumulator at
    what the step before left) the body runs to the continuation holding them so. -/
noncomputable def kernelRun2_B (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : ¬cond2_1 i)
    (x0 : Vec F S1152x640 .bf16) (x1 : Vec F S640x1152 .bf16) (xs0 : Vec F S1152x1152 .f32) :
    Σ' (L2 : List (View.Piece (Elt F) S1152x1152 .f32)), { LS0 : List (View.Piece (Elt F) S1152x1152 .f32) //
      ∀ (xi2 : Vec F S1152x1152 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.IdealR2RunC.lean ====
/-
  The last step of C = B · Zᵀ (not also the first): the body adds the step's partial product to the accumulator and copies the accumulator into the output block.
-/
import proofs.«147890_j85212151153300_1_alg».proof.Proof.IdealR2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- What the body's stores leave in the output block and in the accumulator at a last step, as pieces, with the
    proof that on whole buffers (the operands' at their blocks, the output's at anything, the accumulator at what the
    step before left) the body runs to the continuation holding them so. -/
noncomputable def kernelRun2_C (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : cond2_1 i)
    (x0 : Vec F S1152x640 .bf16) (x1 : Vec F S640x1152 .bf16) (xs0 : Vec F S1152x1152 .f32) :
    Σ' (L2 : List (View.Piece (Elt F) S1152x1152 .f32)), { LS0 : List (View.Piece (Elt F) S1152x1152 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.IdealR2Data.lean ====
/-
  The third product of the chain, C = B · Zᵀ, step by step. What the accumulator holds after each step is a
  recursion over the steps: a first step starts it afresh, every other step continues from what the step before left.
  The output block is written at the last step only. From this recursion come the data the pipeline
  rule asks for — every staging buffer's contents after every step and the invariant between steps, which carries the
  accumulator at the recursion's value — and the proof that the body meets them at every step.
-/
import proofs.«147890_j85212151153300_1_alg».proof.Proof.IdealR2RunA
import proofs.«147890_j85212151153300_1_alg».proof.Proof.IdealR2RunB
import proofs.«147890_j85212151153300_1_alg».proof.Proof.IdealR2RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a step leaves, case by case -/

/-- The output block's placeholder at the steps that do not write it: nothing reads it. -/
def outIdle2 : Vec F S1152x1152 .f32 := VO2.read (Elt F) VO2.junk

theorem scover2_A (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : cond2_0 i) (hc1 : ¬cond2_1 i)
    (x0 : Vec F S1152x640 .bf16) (x1 : Vec F S640x1152 .bf16) (y : S1152x1152.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S1152x1152.size (by sl_kernel_rfl) y

/-- The accumulator after a first step. -/
def sout2_A (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : cond2_0 i) (hc1 : ¬cond2_1 i)
    (x0 : Vec F S1152x640 .bf16) (x1 : Vec F S640x1152 .bf16) : Vec F S1152x1152 .f32 :=
  VS2.read (Elt F) (VS2.writes (Elt F) VS2.junk (kernelRun2_A c i arg3 harg3 arg4 harg4 arg5 harg5 arg6 harg6 hc0 hc1 x0 x1).2.1)

theorem scover2_B (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : ¬cond2_1 i)
    (x0 : Vec F S1152x640 .bf16) (x1 : Vec F S640x1152 .bf16) (xs0 : Vec F S1152x1152 .f32) (y : S1152x1152.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S1152x1152.size (by sl_kernel_rfl) y

/-- The accumulator after a middle step that found it at `xs0`. -/
def sout2_B (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : ¬cond2_1 i)
    (x0 : Vec F S1152x640 .bf16) (x1 : Vec F S640x1152 .bf16) (xs0 : Vec F S1152x1152 .f32) : Vec F S1152x1152 .f32 :=
  VS2.read (Elt F) (VS2.writes (Elt F) VS2.junk (kernelRun2_B c i arg3 harg3 arg4 harg4 arg5 harg5 arg6 harg6 hc0 hc1 x0 x1 xs0).2.1)

theorem cover2_C (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : cond2_1 i)
    (x0 : Vec F S1152x640 .bf16) (x1 : Vec F S640x1152 .bf16) (xs0 : Vec F S1152x1152 .f32) (y : S1152x1152.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S1152x1152.size (by sl_kernel_rfl) y

/-- The output block after a last step that found the accumulator at `xs0`. -/
def out2_C (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : cond2_1 i)
    (x0 : Vec F S1152x640 .bf16) (x1 : Vec F S640x1152 .bf16) (xs0 : Vec F S1152x1152 .f32) : Vec F S1152x1152 .f32 :=
  VO2.read (Elt F) (VO2.writes (Elt F) VO2.junk (kernelRun2_C c i arg3 harg3 arg4 harg4 arg5 harg5 arg6 harg6 hc0 hc1 x0 x1 xs0).1)

theorem scover2_C (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : cond2_1 i)
    (x0 : Vec F S1152x640 .bf16) (x1 : Vec F S640x1152 .bf16) (xs0 : Vec F S1152x1152 .f32) (y : S1152x1152.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S1152x1152.size (by sl_kernel_rfl) y

/-- The accumulator after a last step that found it at `xs0`. -/
def sout2_C (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : cond2_1 i)
    (x0 : Vec F S1152x640 .bf16) (x1 : Vec F S640x1152 .bf16) (xs0 : Vec F S1152x1152 .f32) : Vec F S1152x1152 .f32 :=
  VS2.read (Elt F) (VS2.writes (Elt F) VS2.junk (kernelRun2_C c i arg3 harg3 arg4 harg4 arg5 harg5 arg6 harg6 hc0 hc1 x0 x1 xs0).2.1)

/-! ## The recursion over the steps -/

/-- What the output's staging buffer and the accumulator hold after step `n`: a first step starts the
    accumulator afresh from the step's two blocks, any other step continues from what step `n - 1` left. -/
def outsAt2 (c : Dev nD) : (n : ℕ) → n < cfg2.N → Vec F S1152x1152 .f32 × Vec F S1152x1152 .f32
  | 0, hn => (outIdle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 13 = 0 then
      if h1 : (n + 1) % 13 = 12 then
        False.elim (by omega)
      else
        (outIdle2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 13 = 12 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (outIdle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 13 = 0) (h1 : ¬t.val % 13 = 12) :
    outsAt2 V c t.val t.isLt = (outIdle2, sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 13 = 0) (h1 : ¬t.val % 13 = 12) :
    outsAt2 V c t.val t.isLt = (outIdle2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 13 = 0) (h1 : t.val % 13 = 12) :
    outsAt2 V c t.val t.isLt = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between steps -/

/-- Before the first step: the call's scoped buffers it does not stage through, at anything. After step `n`: the
    same, but the accumulator at the recursion's value. The generator register rides along. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's data -/

/-- The arrays as the call finds them; after step `t` each operand's buffer at its block and the output's at the
    recursion's first component; the invariant above; nothing owed to another core; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.KernelIdeal.Hand

end
-- ==== Proof.IdealR2Body.lean ====
/-
  The body of C = B · Zᵀ meets the pipeline's data at every step: the step's position along the contracted axis
  says which of the three cases it is; the invariant hands the body the accumulator at what the step before left
  (at anything before the very first step), and takes it back at the recursion's value for this step.
-/
import proofs.«147890_j85212151153300_1_alg».proof.Proof.IdealR2Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at step `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 13 := lt_of_lt_of_eq t.isLt (show cfg2.N = 13 from N_2)
  by_cases h0 : t.val % 13 = 0
  · by_cases h1 : t.val % 13 = 12
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2 t (fun h => h1 ((hcond2_1 t).mp h))) (noFlush2_2 t (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A c _ _ _ _ _ _ _ _ _ _ _ _ _ )
            iexact Hrest
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A c _ _ _ _ _ _ _ _ _ _ _ _ _ )
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 13 = 12
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C sout2_C; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C c _ _ _ _ _ _ _ _ _ _ _ _ _ _ )
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _ )
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B c _ _ _ _ _ _ _ _ _ _ _ _ _ _ )
          iexact Hrest
        iexact Hg
      isplitl [Ho]; · iexact Ho
      isplitl [H0]; · iexact H0
      isplitl [H1]; · iexact H1
      iexists _; iexact H2

/-- The pipeline rule's obligation on the body, at every step. -/
theorem body_obligation2 (c : Dev nD) : BodyObligation (dat2 (F := F) V c) (defs₀ (F := F)) Variants.none () Set.univ := fun t => by
  rw [bigSep_W2, bigSep_W2]
  exact sound_body2 V c t

/-- What the call is entered with is the invariant before the first step, -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after the last step the invariant gives the same back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 13 := N_2; omega), PhiA2_eq]
  iintro ⟨⟨HS0, Hrest⟩, Hg⟩
  isplitl [HS0 Hrest]
  · isplitl [HS0]
    · iexists _; iexact HS0
    iexact Hrest
  iexact Hg

end Cert.KernelIdeal.Hand

end
-- ==== Proof.IdealR3Base.lean ====
/-
  The fourth product of the chain, D = C · Q, as the kernel computes it: one block, one step. The body clears the
  accumulator (a scratch buffer), adds the 1152×1152 by 1152×1152 product to it and rounds it into the output block:
  the one step is both first and last along the contracted axis. This module fixes which block of each operand a step reads, that both conditions hold at every step, and the
  accumulator as a view.
-/
import proofs.«147890_j85212151153300_1_alg».proof.Proof.Gen.KernelIdeal.Launch
import proofs.«147890_j85212151153300_1_alg».proof.Proof.Gen.KernelIdeal.Skeleton
import proofs.«147890_j85212151153300_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of operand `w` that step `t` reads, cut out of the operand's array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds the step's block of it, whether fetched at this step or kept. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the right operand. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
end

/-- The step is the first along the contracted axis: at every step. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) :=
  (by decide +kernel : ∀ t : Fin grid3.N, cond3_0 (grid3.coords t))

/-- The step is the last along the contracted axis: at every step. -/
abbrev cond3_1 (i : grid3.Coords) : Prop := k3_cond2 i = 1#1
theorem hcond3_1 : ∀ t : Fin cfg3.N, cond3_1 (grid3.coords t) :=
  (by decide +kernel : ∀ t : Fin grid3.N, cond3_1 (grid3.coords t))

/-- No window is idle at any step. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

/-- One staging buffer of the output window, through which its contents are stated. -/
abbrev VO3 : View sig .tc .vmem S1152x1152 .bf16 := (Memref.whole cc3_stg2_0 : Memref sig .tc .vmem S1152x1152 .bf16).view
/-- Each window's current staging buffer at step `t`, as the pipeline passes it to the body. -/
abbrev ms3_0 (t : Fin cfg3.N) : Memref sig .tc .vmem S1152x1152 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1152x1152 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1152x1152 .bf16 := win3_2.stage (cfg3.slots t 2)
abbrev hs3_2 (t : Fin cfg3.N) : (ms3_2 t).IsWhole := hstage3_2 ((cfg3.slots t 2).cast nbuf3_2)
/-- The accumulator: a whole scoped buffer of the call's own. -/
abbrev scM3 : Memref sig .tc .vmem S1152x1152 .f32 := Memref.whole cc3_scratch0

/-- The call's scoped buffers that it does not stage through, split at the accumulator. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [scM3, owns_whole, bigSepL]; try rfl

end Cert.KernelIdeal.Hand

end
-- ==== Proof.IdealR3Run.lean ====
/-
  The one step of D = C · Q, run whole: the body clears the accumulator, adds the step's product to it, and rounds the
  accumulator into the output block.
-/
import proofs.«147890_j85212151153300_1_alg».proof.Proof.IdealR3Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- What the body's stores leave in the output block and in the accumulator, as pieces, with the proof that on
    whole buffers (the operands' at their blocks, the output's and the accumulator's at anything) the body runs to the
    continuation holding them so. -/
noncomputable def kernelRun3_D (c : Dev nD) (i : grid3.Coords) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .f32) (harg6 : arg6.IsWhole) (hc0 : cond3_0 i) (hc1 : cond3_1 i)
    (x0 : Vec F S1152x1152 .bf16) (x1 : Vec F S1152x1152 .bf16) :
    Σ' (L2 : List (View.Piece (Elt F) S1152x1152 .bf16)), { LS0 : List (View.Piece (Elt F) S1152x1152 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__matmul_kernel i arg3 harg3 arg4 harg4 arg5 harg5 arg6 harg6) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.IdealR3Body.lean ====
/-
  D = C · Q, its one step: the output's staging buffer after a step is what the step's run leaves there, a function
  of the step's two blocks alone. The invariant between steps is constant (the accumulator at anything: each step clears
  it before use). From this come the pipeline's data and the proof that the body meets them at every step.
-/
import proofs.«147890_j85212151153300_1_alg».proof.Proof.IdealR3Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover3_D (c : Dev nD) (i : grid3.Coords) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .f32) (harg6 : arg6.IsWhole) (hc0 : cond3_0 i) (hc1 : cond3_1 i)
    (x0 : Vec F S1152x1152 .bf16) (x1 : Vec F S1152x1152 .bf16) (y : S1152x1152.Idx) :
    ∃ pc ∈ (kernelRun3_D c i arg3 harg3 arg4 harg4 arg5 harg5 arg6 harg6 hc0 hc1 x0 x1).1, y ∈ pc.1.set :=
  View.cover_of_tiledL (kernelRun3_D c i arg3 harg3 arg4 harg4 arg5 harg5 arg6 harg6 hc0 hc1 x0 x1).1 S1152x1152.size (by sl_kernel_rfl) y

/-- The output block after a step. -/
def out3_D (c : Dev nD) (i : grid3.Coords) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .f32) (harg6 : arg6.IsWhole) (hc0 : cond3_0 i) (hc1 : cond3_1 i)
    (x0 : Vec F S1152x1152 .bf16) (x1 : Vec F S1152x1152 .bf16) : Vec F S1152x1152 .bf16 :=
  VO3.read (Elt F) (VO3.writes (Elt F) VO3.junk (kernelRun3_D c i arg3 harg3 arg4 harg4 arg5 harg5 arg6 harg6 hc0 hc1 x0 x1).1)

/-- The arrays as the call finds them; after step `t` each operand's buffer at its block and the output's at what
    the step's run leaves; the constant invariant; nothing owed to another core; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_D c (grid3.coords t) (ms3_0 t) (hs3_0 t) (ms3_1 t) (hs3_1 t) (ms3_2 t) (hs3_2 t) scM3 (Memref.isWhole_whole _) (hcond3_0 t) (hcond3_1 t) (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_D c (grid3.coords t) (ms3_0 t) (hs3_0 t) (ms3_1 t) (hs3_1 t) (ms3_2 t) (hs3_2 t) scM3 (Memref.isWhole_whole _) (hcond3_0 t) (hcond3_1 t) (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at step `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl, PhiA3_eq]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  unfold out3_D; (try dsimp only)
  iintro ⟨⟨⟨HS0, Hrest⟩, Hg⟩, Ho, ⟨%d0, H0⟩, ⟨%d1, H1⟩, ⟨%d2, H2⟩⟩
  iapply ((kernelRun3_D c (grid3.coords t) _ _ _ _ _ _ _ _ (hcond3_0 t) (hcond3_1 t) (iblk3 V c 0 t) (iblk3 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _, _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover3_D c _ _ _ _ _ _ _ _ _ _ _ _ _ )

/-- The pipeline rule's obligation on the body, at every step. -/
theorem body_obligation3 (c : Dev nD) : BodyObligation (dat3 (F := F) V c) (defs₀ (F := F)) Variants.none () Set.univ := fun t => by
  rw [bigSep_W3, bigSep_W3]
  exact sound_body3 V c t

/-- What the call is entered with is the invariant, before the first step and after the last. -/
theorem hin3 (c : Dev nD) : Pipeline.ΦA spec3 c ⊢ (dat3 V c).Φ 0 := Idealize.SL.BI.Entails.refl _
theorem hout3 (c : Dev nD) : (dat3 V c).Φ (Fin.last cfg3.N) ⊢ Pipeline.ΦA spec3 c := Idealize.SL.BI.Entails.refl _

end Cert.KernelIdeal.Hand

end
-- ==== Proof.IdealR4Base.lean ====
/-
  The fifth product of the chain, E = D · Z, as the kernel computes it: 13 column blocks, the whole contracted
  axis in one step. At each step the body clears the accumulator (a scratch buffer), adds the step's 1152×1152 by
  1152×640 product to it and copies it into the output block: every step is both first and last along the contracted
  axis. This module fixes which block of each operand a step reads, that both conditions hold at every step, and the
  accumulator as a view.
-/
import proofs.«147890_j85212151153300_1_alg».proof.Proof.Gen.KernelIdeal.Launch
import proofs.«147890_j85212151153300_1_alg».proof.Proof.Gen.KernelIdeal.Skeleton
import proofs.«147890_j85212151153300_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of operand `w` that step `t` reads, cut out of the operand's array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's staging buffer holds the step's block of it, whether fetched at this step or kept. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the right operand. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
end

/-- The step is the first along the contracted axis: at every step. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) :=
  (by decide +kernel : ∀ t : Fin grid4.N, cond4_0 (grid4.coords t))

/-- The step is the last along the contracted axis: at every step. -/
abbrev cond4_1 (i : grid4.Coords) : Prop := k4_cond2 i = 1#1
theorem hcond4_1 : ∀ t : Fin cfg4.N, cond4_1 (grid4.coords t) :=
  (by decide +kernel : ∀ t : Fin grid4.N, cond4_1 (grid4.coords t))

/-- No window is idle at any step. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

/-- One staging buffer of the output window, through which its contents are stated. -/
abbrev VO4 : View sig .tc .vmem S1152x640 .f32 := (Memref.whole cc4_stg2_0 : Memref sig .tc .vmem S1152x640 .f32).view
/-- Each window's current staging buffer at step `t`, as the pipeline passes it to the body. -/
abbrev ms4_0 (t : Fin cfg4.N) : Memref sig .tc .vmem S1152x1152 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1152x640 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1152x640 .f32 := win4_2.stage (cfg4.slots t 2)
abbrev hs4_2 (t : Fin cfg4.N) : (ms4_2 t).IsWhole := hstage4_2 ((cfg4.slots t 2).cast nbuf4_2)
/-- The accumulator: a whole scoped buffer of the call's own. -/
abbrev scM4 : Memref sig .tc .vmem S1152x640 .f32 := Memref.whole cc4_scratch0

/-- The call's scoped buffers that it does not stage through, split at the accumulator. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA
  rw [Pipeline.scopedRest_split_of_list spec4 c [cc4_scratch0] (by decide) (by decide)]
  simp only [scM4, owns_whole, bigSepL]; try rfl

end Cert.KernelIdeal.Hand

end
-- ==== Proof.IdealR4Run.lean ====
/-
  One step of E = D · Z, run whole: the body clears the accumulator, adds the step's product to it, and copies the
  accumulator into the output block.
-/
import proofs.«147890_j85212151153300_1_alg».proof.Proof.IdealR4Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- What the body's stores leave in the output block and in the accumulator, as pieces, with the proof that on
    whole buffers (the operands' at their blocks, the output's and the accumulator's at anything) the body runs to the
    continuation holding them so. -/
noncomputable def kernelRun4_D (c : Dev nD) (i : grid4.Coords) (arg3 : Memref sig .tc .vmem S1152x1152 .bf16) (harg3 : arg3.IsWhole) (arg4 : Memref sig .tc .vmem S1152x640 .bf16) (harg4 : arg4.IsWhole) (arg5 : Memref sig .tc .vmem S1152x640 .f32) (harg5 : arg5.IsWhole) (arg6 : Memref sig .tc .vmem S1152x640 .f32) (harg6 : arg6.IsWhole) (hc0 : cond4_0 i) (hc1 : cond4_1 i)
    (x0 : Vec F S1152x1152 .bf16) (x1 : Vec F S1152x640 .bf16) :
    Σ' (L2 : List (View.Piece (Elt F) S1152x640 .f32)), { LS0 : List (View.Piece (Elt F) S1152x640 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc4__matmul_kernel i arg3 harg3 arg4 harg4 arg5 harg5 arg6 harg6) K } := by
  refine ⟨?_, ?_, fun E K => ?run⟩
  case run =>
    simp only [cc4__matmul_kernel_eq_skeleton]; unfold cc4__matmul_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.IdealR4Body.lean ====
/-
  E = D · Z, step by step: the output's staging buffer after a step is what the step's run leaves there, a function
  of the step's two blocks alone. The invariant between steps is constant (the accumulator at anything: each step clears
  it before use). From this come the pipeline's data and the proof that the body meets them at every step.
-/
import proofs.«147890_j85212151153300_1_alg».proof.Proof.IdealR4Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover4_D (c : Dev nD) (i : grid4.Coords) (arg3 : Memref sig .tc .vmem S1152x1152 .bf16) (harg3 : arg3.IsWhole) (arg4 : Memref sig .tc .vmem S1152x640 .bf16) (harg4 : arg4.IsWhole) (arg5 : Memref sig .tc .vmem S1152x640 .f32) (harg5 : arg5.IsWhole) (arg6 : Memref sig .tc .vmem S1152x640 .f32) (harg6 : arg6.IsWhole) (hc0 : cond4_0 i) (hc1 : cond4_1 i)
    (x0 : Vec F S1152x1152 .bf16) (x1 : Vec F S1152x640 .bf16) (y : S1152x640.Idx) :
    ∃ pc ∈ (kernelRun4_D c i arg3 harg3 arg4 harg4 arg5 harg5 arg6 harg6 hc0 hc1 x0 x1).1, y ∈ pc.1.set :=
  View.cover_of_tiledL (kernelRun4_D c i arg3 harg3 arg4 harg4 arg5 harg5 arg6 harg6 hc0 hc1 x0 x1).1 S1152x640.size (by sl_kernel_rfl) y

/-- The output block after a step. -/
def out4_D (c : Dev nD) (i : grid4.Coords) (arg3 : Memref sig .tc .vmem S1152x1152 .bf16) (harg3 : arg3.IsWhole) (arg4 : Memref sig .tc .vmem S1152x640 .bf16) (harg4 : arg4.IsWhole) (arg5 : Memref sig .tc .vmem S1152x640 .f32) (harg5 : arg5.IsWhole) (arg6 : Memref sig .tc .vmem S1152x640 .f32) (harg6 : arg6.IsWhole) (hc0 : cond4_0 i) (hc1 : cond4_1 i)
    (x0 : Vec F S1152x1152 .bf16) (x1 : Vec F S1152x640 .bf16) : Vec F S1152x640 .f32 :=
  VO4.read (Elt F) (VO4.writes (Elt F) VO4.junk (kernelRun4_D c i arg3 harg3 arg4 harg4 arg5 harg5 arg6 harg6 hc0 hc1 x0 x1).1)

/-- The arrays as the call finds them; after step `t` each operand's buffer at its block and the output's at what
    the step's run leaves; the constant invariant; nothing owed to another core; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_D c (grid4.coords t) (ms4_0 t) (hs4_0 t) (ms4_1 t) (hs4_1 t) (ms4_2 t) (hs4_2 t) scM4 (Memref.isWhole_whole _) (hcond4_0 t) (hcond4_1 t) (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_D c (grid4.coords t) (ms4_0 t) (hs4_0 t) (ms4_1 t) (hs4_1 t) (ms4_2 t) (hs4_2 t) scM4 (Memref.isWhole_whole _) (hcond4_0 t) (hcond4_1 t) (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at step `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Pipeline.ΦA spec4 c from rfl, show (dat4 V c).Φ t.castSucc = Pipeline.ΦA spec4 c from rfl, PhiA4_eq]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  unfold out4_D; (try dsimp only)
  iintro ⟨⟨⟨HS0, Hrest⟩, Hg⟩, Ho, ⟨%d0, H0⟩, ⟨%d1, H1⟩, ⟨%d2, H2⟩⟩
  iapply ((kernelRun4_D c (grid4.coords t) _ _ _ _ _ _ _ _ (hcond4_0 t) (hcond4_1 t) (iblk4 V c 0 t) (iblk4 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _, _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover4_D c _ _ _ _ _ _ _ _ _ _ _ _ _ )

/-- The pipeline rule's obligation on the body, at every step. -/
theorem body_obligation4 (c : Dev nD) : BodyObligation (dat4 (F := F) V c) (defs₀ (F := F)) Variants.none () Set.univ := fun t => by
  rw [bigSep_W4, bigSep_W4]
  exact sound_body4 V c t

/-- What the call is entered with is the invariant, before the first step and after the last. -/
theorem hin4 (c : Dev nD) : Pipeline.ΦA spec4 c ⊢ (dat4 V c).Φ 0 := Idealize.SL.BI.Entails.refl _
theorem hout4 (c : Dev nD) : (dat4 V c).Φ (Fin.last cfg4.N) ⊢ Pipeline.ΦA spec4 c := Idealize.SL.BI.Entails.refl _

end Cert.KernelIdeal.Hand

end
-- ==== Proof.IdealRun.lean ====
/-
  The whole program as a run. Between two items of @main a core holds every unscoped buffer at a valuation: the launch
  memory, then each stretch of host operations applied, then, after a kernel region, the region's output array at what the
  pipeline's write-backs leave there. Each region is entered from the valuation before it and left at the one after it;
  the host stretches run over the valuations by themselves. At the end every unscoped buffer is read off the last
  valuation: the argument arrays are as launched, and the result is what the last stretch computes.
-/
import proofs.«147890_j85212151153300_1_alg».proof.Proof.IdealR0Body
import proofs.«147890_j85212151153300_1_alg».proof.Proof.IdealR1Body
import proofs.«147890_j85212151153300_1_alg».proof.Proof.IdealR2Body
import proofs.«147890_j85212151153300_1_alg».proof.Proof.IdealR3Body
import proofs.«147890_j85212151153300_1_alg».proof.Proof.IdealR4Body
import proofs.«147890_j85212151153300_1_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's valuation read at the TensorCore's references. -/
abbrev Vt (W : Dev nD → Valuation τ sig (Elt F)) : (c : Dev nD) → (b : Ref sig .tc) → Buf (Elt F) ((c : Thread nD τ).loc b) :=
  fun c b => W c b

/-! ## What each region leaves in its output array, and the valuations after it -/

def o0 (c : Dev nD) : Buf (Elt F) ((c : Thread nD τ).loc main_v8) := (dat0 (Vt (Gen.V9 m)) c).arrAt 2 cfg0.N
def U10 (c : Dev nD) : Valuation τ sig (Elt F) := Function.update (Gen.V9 m c) main_v8 (o0 m c)
def o1 (c : Dev nD) : Buf (Elt F) ((c : Thread nD τ).loc main_v9) := (dat1 (Vt (U10 m)) c).arrAt 2 cfg1.N
def U11 (c : Dev nD) : Valuation τ sig (Elt F) := Function.update (U10 m c) main_v9 (o1 m c)
abbrev U12 (c : Dev nD) : Valuation τ sig (Elt F) := StableHlo.after hostOps2 (U11 m c)
def o2 (c : Dev nD) : Buf (Elt F) ((c : Thread nD τ).loc main_v11) := (dat2 (Vt (U12 m)) c).arrAt 2 cfg2.N
def U13 (c : Dev nD) : Valuation τ sig (Elt F) := Function.update (U12 m c) main_v11 (o2 m c)
abbrev U14 (c : Dev nD) : Valuation τ sig (Elt F) := StableHlo.after hostOps3 (U13 m c)
def o3 (c : Dev nD) : Buf (Elt F) ((c : Thread nD τ).loc main_v13) := (dat3 (Vt (U14 m)) c).arrAt 2 cfg3.N
def U15 (c : Dev nD) : Valuation τ sig (Elt F) := Function.update (U14 m c) main_v13 (o3 m c)
def o4 (c : Dev nD) : Buf (Elt F) ((c : Thread nD τ).loc main_v14) := (dat4 (Vt (U15 m)) c).arrAt 2 cfg4.N
def U16 (c : Dev nD) : Valuation τ sig (Elt F) := Function.update (U15 m c) main_v14 (o4 m c)

/-- The contents the regions leave, as the generated valuations read them: after item J the buffers are `UJ`. -/
def outs : Gen.Outs (F := F) := fun J r c =>
  match J with
  | 10 => U10 m c r
  | 11 => U11 m c r
  | 13 => U13 m c r
  | 15 => U15 m c r
  | 16 => U16 m c r
  | _ => Gen.V0 m c r

theorem outs10 (c : Dev nD) : outs m 10 main_v8 c = o0 m c := by
  show U10 m c main_v8 = o0 m c; unfold U10; exact Function.update_self ..
theorem V10_eq : Gen.V10 m (outs m) = U10 m := by
  funext c; show Function.update (Gen.V9 m c) main_v8 (outs m 10 main_v8 c) = U10 m c; rw [outs10]; rfl
theorem outs11 (c : Dev nD) : outs m 11 main_v9 c = o1 m c := by
  show U11 m c main_v9 = o1 m c; unfold U11; exact Function.update_self ..
theorem V11_eq : Gen.V11 m (outs m) = U11 m := by
  funext c; show Function.update (Gen.V10 m (outs m) c) main_v9 (outs m 11 main_v9 c) = U11 m c; rw [outs11, V10_eq]; rfl
theorem V12_eq : Gen.V12 m (outs m) = U12 m := by
  funext c; show StableHlo.after hostOps2 (Gen.V11 m (outs m) c) = _; rw [V11_eq]
theorem outs13 (c : Dev nD) : outs m 13 main_v11 c = o2 m c := by
  show U13 m c main_v11 = o2 m c; unfold U13; exact Function.update_self ..
theorem V13_eq : Gen.V13 m (outs m) = U13 m := by
  funext c; show Function.update (Gen.V12 m (outs m) c) main_v11 (outs m 13 main_v11 c) = U13 m c; rw [outs13, V12_eq]; rfl
theorem V14_eq : Gen.V14 m (outs m) = U14 m := by
  funext c; show StableHlo.after hostOps3 (Gen.V13 m (outs m) c) = _; rw [V13_eq]
theorem outs15 (c : Dev nD) : outs m 15 main_v13 c = o3 m c := by
  show U15 m c main_v13 = o3 m c; unfold U15; exact Function.update_self ..
theorem V15_eq : Gen.V15 m (outs m) = U15 m := by
  funext c; show Function.update (Gen.V14 m (outs m) c) main_v13 (outs m 15 main_v13 c) = U15 m c; rw [outs15, V14_eq]; rfl
theorem outs16 (c : Dev nD) : outs m 16 main_v14 c = o4 m c := by
  show U16 m c main_v14 = o4 m c; unfold U16; exact Function.update_self ..

/-! ## The pipelines' data, each at its region's entry valuation -/

def pdats : (p : Fin 5) → (c : Dev nD) → Dat τ (Elt F) Unit ℕ (UR sig nD τ) ℕ (Pipeline.pin (pcfgs (F := F)) Gen.adm p) c
  | ⟨0, _⟩ => fun c => dat0 (Vt (Gen.V9 m)) c
  | ⟨1, _⟩ => fun c => dat1 (Vt (Gen.V10 m (outs m))) c
  | ⟨2, _⟩ => fun c => dat2 (Vt (Gen.V12 m (outs m))) c
  | ⟨3, _⟩ => fun c => dat3 (Vt (Gen.V14 m (outs m))) c
  | ⟨4, _⟩ => fun c => dat4 (Vt (Gen.V15 m (outs m))) c

/-- Each region's output array after the region is what the valuation after it holds there. -/
theorem out0_eq (c : Dev nD) : Vt (Gen.V10 m (outs m)) c (Pipeline.arrRef spec0 2) = (pdats m 0 c).arrAt 2 cfg0.N := by
  show Function.update (Gen.V9 m c) main_v8 (outs m 10 main_v8 c) main_v8 = o0 m c
  rw [Function.update_self, outs10]
theorem out1_eq (c : Dev nD) : Vt (Gen.V11 m (outs m)) c (Pipeline.arrRef spec1 2) = (pdats m 1 c).arrAt 2 cfg1.N := by
  show Function.update (Gen.V10 m (outs m) c) main_v9 (outs m 11 main_v9 c) main_v9 = (dat1 (Vt (Gen.V10 m (outs m))) c).arrAt 2 cfg1.N
  rw [Function.update_self, outs11, V10_eq]; rfl
theorem out2_eq (c : Dev nD) : Vt (Gen.V13 m (outs m)) c (Pipeline.arrRef spec2 2) = (pdats m 2 c).arrAt 2 cfg2.N := by
  show Function.update (Gen.V12 m (outs m) c) main_v11 (outs m 13 main_v11 c) main_v11 = (dat2 (Vt (Gen.V12 m (outs m))) c).arrAt 2 cfg2.N
  rw [Function.update_self, outs13, V12_eq]; rfl
theorem out3_eq (c : Dev nD) : Vt (Gen.V15 m (outs m)) c (Pipeline.arrRef spec3 2) = (pdats m 3 c).arrAt 2 cfg3.N := by
  show Function.update (Gen.V14 m (outs m) c) main_v13 (outs m 15 main_v13 c) main_v13 = (dat3 (Vt (Gen.V14 m (outs m))) c).arrAt 2 cfg3.N
  rw [Function.update_self, outs15, V14_eq]; rfl
theorem out4_eq (c : Dev nD) : Vt (Gen.V16 m (outs m)) c (Pipeline.arrRef spec4 2) = (pdats m 4 c).arrAt 2 cfg4.N := by
  show Function.update (Gen.V15 m (outs m) c) main_v14 (outs m 16 main_v14 c) main_v14 = (dat4 (Vt (Gen.V15 m (outs m))) c).arrAt 2 cfg4.N
  rw [Function.update_self, outs16, V15_eq]; rfl

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A stretch of host operations as a segment over a valuation. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- Where region 0 leaves the buffers it does not write, and its three arrays. -/
theorem hrest0 (c : Dev nD) : ∀ b, b ∉ Finset.univ.image (Pipeline.arrRef spec0) → Vt (Gen.V10 m (outs m)) c b = Vt (Gen.V9 m) c b :=
  fun b hb => Gen.V10_of m (outs m) c b fun hm =>
    hb (Finset.mem_image.mpr ⟨2, Finset.mem_univ _, ((List.mem_singleton.mp hm).trans (rfl : main_v8 = Pipeline.arrRef spec0 2)).symm⟩)
theorem hF0 (c : Dev nD) (w : Fin cfg0.W) : (pdats m 0 c).arrAt w cfg0.N = Vt (Gen.V10 m (outs m)) c (Pipeline.arrRef spec0 w) :=
  match w with
  | ⟨0, _⟩ => (((pdats m 0 c).arrAt_in 0 rfl _).trans (A_eq0 _ c 0)).trans (Gen.V10_of m (outs m) c (Pipeline.arrRef spec0 0) (by decide)).symm
  | ⟨1, _⟩ => (((pdats m 0 c).arrAt_in 1 rfl _).trans (A_eq0 _ c 1)).trans (Gen.V10_of m (outs m) c (Pipeline.arrRef spec0 1) (by decide)).symm
  | ⟨2, _⟩ => (out0_eq m c).symm

set_option backward.isDefEq.respectTransparency.types false in
/-- Region 0 over the thread state: entered with every unscoped buffer at the valuation before it, left with them at
    the valuation after it. Its arrays are split out of the unscoped buffers and put back at what the pipeline leaves; the
    generator register goes into the invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt (Gen.V9 m)) c).loose
  hwaits := Pipeline.hwaits_of_owed_zero _ _ _ _ L lv 0 fun _ _ => rfl
  pre c := iprop(StableHlo.held (c : Thread nD τ) (Pipeline.ucRefs τ sig) (Gen.V9 m c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vt (Gen.V9 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vt (Gen.V9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (Vt (Gen.V9 m)) c
    unfold Pipeline.ΦA at h
    rw [show (pdats m 0 c).Φ 0 = (dat0 (Vt (Gen.V9 m)) c).Φ 0 from rfl]
    iintro ⟨Hp, -, Hr⟩
    iapply h
    isplitl [Hr]; · iexact Hr
    iexact Hp
  hout c := by
    have h := hout0 (Vt (Gen.V9 m)) c
    unfold Pipeline.ΦA at h
    rw [Pipeline.ownSems0_none, show (pdats m 0 c).Φ (Fin.last _) = (dat0 (Vt (Gen.V9 m)) c).Φ (Fin.last cfg0.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vt (Gen.V9 m) c) (Vt (Gen.V10 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Where region 1 leaves the buffers it does not write, and its three arrays. -/
theorem hrest1 (c : Dev nD) : ∀ b, b ∉ Finset.univ.image (Pipeline.arrRef spec1) → Vt (Gen.V11 m (outs m)) c b = Vt (Gen.V10 m (outs m)) c b :=
  fun b hb => Gen.V11_of m (outs m) c b fun hm =>
    hb (Finset.mem_image.mpr ⟨2, Finset.mem_univ _, ((List.mem_singleton.mp hm).trans (rfl : main_v9 = Pipeline.arrRef spec1 2)).symm⟩)
theorem hF1 (c : Dev nD) (w : Fin cfg1.W) : (pdats m 1 c).arrAt w cfg1.N = Vt (Gen.V11 m (outs m)) c (Pipeline.arrRef spec1 w) :=
  match w with
  | ⟨0, _⟩ => (((pdats m 1 c).arrAt_in 0 rfl _).trans (A_eq1 _ c 0)).trans (Gen.V11_of m (outs m) c (Pipeline.arrRef spec1 0) (by decide)).symm
  | ⟨1, _⟩ => (((pdats m 1 c).arrAt_in 1 rfl _).trans (A_eq1 _ c 1)).trans (Gen.V11_of m (outs m) c (Pipeline.arrRef spec1 1) (by decide)).symm
  | ⟨2, _⟩ => (out1_eq m c).symm

set_option backward.isDefEq.respectTransparency.types false in
/-- Region 1 over the thread state: entered with every unscoped buffer at the valuation before it, left with them at
    the valuation after it. Its arrays are split out of the unscoped buffers and put back at what the pipeline leaves; the
    generator register goes into the invariant and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt (Gen.V10 m (outs m))) c).loose
  hwaits := Pipeline.hwaits_of_owed_zero _ _ _ _ L lv 1 fun _ _ => rfl
  pre c := iprop(StableHlo.held (c : Thread nD τ) (Pipeline.ucRefs τ sig) (Gen.V10 m (outs m) c) ∗ R c)
  post c := iprop(StableHlo.held (c : Thread nD τ) (Pipeline.ucRefs τ sig) (Gen.V11 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vt (Gen.V10 m (outs m)) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vt (Gen.V10 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vt (Gen.V10 m (outs m))) c
    unfold Pipeline.ΦA at h
    rw [show (pdats m 1 c).Φ 0 = (dat1 (Vt (Gen.V10 m (outs m))) c).Φ 0 from rfl]
    iintro ⟨Hp, -, Hr⟩
    iapply h
    isplitl [Hr]; · iexact Hr
    iexact Hp
  hout c := by
    have h := hout1 (Vt (Gen.V10 m (outs m))) c
    unfold Pipeline.ΦA at h
    rw [Pipeline.ownSems0_none, show (pdats m 1 c).Φ (Fin.last _) = (dat1 (Vt (Gen.V10 m (outs m))) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vt (Gen.V10 m (outs m)) c) (Vt (Gen.V11 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Where region 2 leaves the buffers it does not write, and its three arrays. -/
theorem hrest2 (c : Dev nD) : ∀ b, b ∉ Finset.univ.image (Pipeline.arrRef spec2) → Vt (Gen.V13 m (outs m)) c b = Vt (Gen.V12 m (outs m)) c b :=
  fun b hb => Gen.V13_of m (outs m) c b fun hm =>
    hb (Finset.mem_image.mpr ⟨2, Finset.mem_univ _, ((List.mem_singleton.mp hm).trans (rfl : main_v11 = Pipeline.arrRef spec2 2)).symm⟩)
theorem hF2 (c : Dev nD) (w : Fin cfg2.W) : (pdats m 2 c).arrAt w cfg2.N = Vt (Gen.V13 m (outs m)) c (Pipeline.arrRef spec2 w) :=
  match w with
  | ⟨0, _⟩ => (((pdats m 2 c).arrAt_in 0 rfl _).trans (A_eq2 _ c 0)).trans (Gen.V13_of m (outs m) c (Pipeline.arrRef spec2 0) (by decide)).symm
  | ⟨1, _⟩ => (((pdats m 2 c).arrAt_in 1 rfl _).trans (A_eq2 _ c 1)).trans (Gen.V13_of m (outs m) c (Pipeline.arrRef spec2 1) (by decide)).symm
  | ⟨2, _⟩ => (out2_eq m c).symm

set_option backward.isDefEq.respectTransparency.types false in
/-- Region 2 over the thread state: entered with every unscoped buffer at the valuation before it, left with them at
    the valuation after it. Its arrays are split out of the unscoped buffers and put back at what the pipeline leaves; the
    generator register goes into the invariant and comes out; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt (Gen.V12 m (outs m))) c).loose
  hwaits := Pipeline.hwaits_of_owed_zero _ _ _ _ L lv 2 fun _ _ => rfl
  pre c := iprop(StableHlo.held (c : Thread nD τ) (Pipeline.ucRefs τ sig) (Gen.V12 m (outs m) c) ∗ R c)
  post c := iprop(StableHlo.held (c : Thread nD τ) (Pipeline.ucRefs τ sig) (Gen.V13 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vt (Gen.V12 m (outs m)) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Vt (Gen.V12 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (Vt (Gen.V12 m (outs m))) c
    unfold Pipeline.ΦA at h
    rw [show (pdats m 2 c).Φ 0 = (dat2 (Vt (Gen.V12 m (outs m))) c).Φ 0 from rfl]
    iintro ⟨Hp, -, Hr⟩
    iapply h
    isplitl [Hr]; · iexact Hr
    iexact Hp
  hout c := by
    have h := hout2 (Vt (Gen.V12 m (outs m))) c
    unfold Pipeline.ΦA at h
    rw [Pipeline.ownSems0_none, show (pdats m 2 c).Φ (Fin.last _) = (dat2 (Vt (Gen.V12 m (outs m))) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Vt (Gen.V12 m (outs m)) c) (Vt (Gen.V13 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Where region 3 leaves the buffers it does not write, and its three arrays. -/
theorem hrest3 (c : Dev nD) : ∀ b, b ∉ Finset.univ.image (Pipeline.arrRef spec3) → Vt (Gen.V15 m (outs m)) c b = Vt (Gen.V14 m (outs m)) c b :=
  fun b hb => Gen.V15_of m (outs m) c b fun hm =>
    hb (Finset.mem_image.mpr ⟨2, Finset.mem_univ _, ((List.mem_singleton.mp hm).trans (rfl : main_v13 = Pipeline.arrRef spec3 2)).symm⟩)
theorem hF3 (c : Dev nD) (w : Fin cfg3.W) : (pdats m 3 c).arrAt w cfg3.N = Vt (Gen.V15 m (outs m)) c (Pipeline.arrRef spec3 w) :=
  match w with
  | ⟨0, _⟩ => (((pdats m 3 c).arrAt_in 0 rfl _).trans (A_eq3 _ c 0)).trans (Gen.V15_of m (outs m) c (Pipeline.arrRef spec3 0) (by decide)).symm
  | ⟨1, _⟩ => (((pdats m 3 c).arrAt_in 1 rfl _).trans (A_eq3 _ c 1)).trans (Gen.V15_of m (outs m) c (Pipeline.arrRef spec3 1) (by decide)).symm
  | ⟨2, _⟩ => (out3_eq m c).symm

set_option backward.isDefEq.respectTransparency.types false in
/-- Region 3 over the thread state: entered with every unscoped buffer at the valuation before it, left with them at
    the valuation after it. Its arrays are split out of the unscoped buffers and put back at what the pipeline leaves; the
    generator register goes into the invariant and comes out; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt (Gen.V14 m (outs m))) c).loose
  hwaits := Pipeline.hwaits_of_owed_zero _ _ _ _ L lv 3 fun _ _ => rfl
  pre c := iprop(StableHlo.held (c : Thread nD τ) (Pipeline.ucRefs τ sig) (Gen.V14 m (outs m) c) ∗ R c)
  post c := iprop(StableHlo.held (c : Thread nD τ) (Pipeline.ucRefs τ sig) (Gen.V15 m (outs m) c) ∗ R c)
  X c := iprop(∃ r, prngReg c r)
  Y c := iprop(∃ r, prngReg c r)
  Z c := Pipeline.unscopedRest (Ix := Unit) (Name := ℕ) (U := UR sig nD τ) (Lvl := ℕ) spec3 c (Vt (Gen.V14 m (outs m)) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (Vt (Gen.V14 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (Vt (Gen.V14 m (outs m))) c
    unfold Pipeline.ΦA at h
    rw [show (pdats m 3 c).Φ 0 = (dat3 (Vt (Gen.V14 m (outs m))) c).Φ 0 from rfl]
    iintro ⟨Hp, -, Hr⟩
    iapply h
    isplitl [Hr]; · iexact Hr
    iexact Hp
  hout c := by
    have h := hout3 (Vt (Gen.V14 m (outs m))) c
    unfold Pipeline.ΦA at h
    rw [Pipeline.ownSems0_none, show (pdats m 3 c).Φ (Fin.last _) = (dat3 (Vt (Gen.V14 m (outs m))) c).Φ (Fin.last cfg3.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (Vt (Gen.V14 m (outs m)) c) (Vt (Gen.V15 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Where region 4 leaves the buffers it does not write, and its three arrays. -/
theorem hrest4 (c : Dev nD) : ∀ b, b ∉ Finset.univ.image (Pipeline.arrRef spec4) → Vt (Gen.V16 m (outs m)) c b = Vt (Gen.V15 m (outs m)) c b :=
  fun b hb => Gen.V16_of m (outs m) c b fun hm =>
    hb (Finset.mem_image.mpr ⟨2, Finset.mem_univ _, ((List.mem_singleton.mp hm).trans (rfl : main_v14 = Pipeline.arrRef spec4 2)).symm⟩)
theorem hF4 (c : Dev nD) (w : Fin cfg4.W) : (pdats m 4 c).arrAt w cfg4.N = Vt (Gen.V16 m (outs m)) c (Pipeline.arrRef spec4 w) :=
  match w with
  | ⟨0, _⟩ => (((pdats m 4 c).arrAt_in 0 rfl _).trans (A_eq4 _ c 0)).trans (Gen.V16_of m (outs m) c (Pipeline.arrRef spec4 0) (by decide)).symm
  | ⟨1, _⟩ => (((pdats m 4 c).arrAt_in 1 rfl _).trans (A_eq4 _ c 1)).trans (Gen.V16_of m (outs m) c (Pipeline.arrRef spec4 1) (by decide)).symm
  | ⟨2, _⟩ => (out4_eq m c).symm

set_option backward.isDefEq.respectTransparency.types false in
/-- Region 4 over the thread state: entered with every unscoped buffer at the valuation before it, left with them at
    the valuation after it. Its arrays are split out of the unscoped buffers and put back at what the pipeline leaves; the
    generator register goes into the invariant and comes out; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vt (Gen.V15 m (outs m))) c).loose
  hwaits := Pipeline.hwaits_of_owed_zero _ _ _ _ L lv 4 fun _ _ => rfl
  pre c := iprop(StableHlo.held (c : Thread nD τ) (Pipeline.ucRefs τ sig) (Gen.V15 m (outs m) c) ∗ R c)
  post c := iprop(StableHlo.held (c : Thread nD τ) (Pipeline.ucRefs τ sig) (Gen.V16 m (outs m) c) ∗ R c)
  X c := iprop(∃ r, prngReg c r)
  Y c := iprop(∃ r, prngReg c r)
  Z c := Pipeline.unscopedRest (Ix := Unit) (Name := ℕ) (U := UR sig nD τ) (Lvl := ℕ) spec4 c (Vt (Gen.V15 m (outs m)) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (Vt (Gen.V15 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (Vt (Gen.V15 m (outs m))) c
    unfold Pipeline.ΦA at h
    rw [show (pdats m 4 c).Φ 0 = (dat4 (Vt (Gen.V15 m (outs m))) c).Φ 0 from rfl]
    iintro ⟨Hp, -, Hr⟩
    iapply h
    isplitl [Hr]; · iexact Hr
    iexact Hp
  hout c := by
    have h := hout4 (Vt (Gen.V15 m (outs m))) c
    unfold Pipeline.ΦA at h
    rw [Pipeline.ownSems0_none, show (pdats m 4 c).Φ (Fin.last _) = (dat4 (Vt (Gen.V15 m (outs m))) c).Φ (Fin.last cfg4.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (Vt (Gen.V15 m (outs m)) c) (Vt (Gen.V16 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) Gen.adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .host (hseg hostOps0_5 hostOps0_5_sub Gen.hostOps0_5_fresh (Gen.V5 m)),
    .host (hseg hostOps0_6 hostOps0_6_sub Gen.hostOps0_6_fresh (Gen.V6 m)),
    .host (hseg hostOps0_7 hostOps0_7_sub Gen.hostOps0_7_fresh (Gen.V7 m)),
    .host (hseg hostOps0_8 hostOps0_8_sub Gen.hostOps0_8_fresh (Gen.V8 m)),
    .region (reg0 m),
    .region (reg1 m),
    .host (hseg hostOps2 hostOps2_sub Gen.hostOps2_fresh (Gen.V11 m (outs m))),
    .region (reg2 m),
    .host (hseg hostOps3 hostOps3_sub Gen.hostOps3_fresh (Gen.V13 m (outs m))),
    .region (reg3 m),
    .region (reg4 m),
    .host (hseg hostOps5 hostOps5_sub Gen.hostOps5_fresh (Gen.V16 m (outs m))) ]

theorem main_run (c : Dev nD) : main (F := F) c = Pipeline.Seg.run (segs m) := (main_chain c).trans (by chain_rfl)

set_option backward.isDefEq.respectTransparency.types false in
/-- From any memory with zero counters every weakly fair execution of @main terminates, nothing faulting, and in every
    final state each core's unscoped buffers hold the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V17 m (outs m) c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V17 m (outs m) c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Gen.V17 m (outs m) c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V17 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V17 m (outs m) c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Gen.V17_main_arg0 m (outs m) c),
     (h c _ (mem_uc main_arg1 (by decide))).trans (Gen.V17_main_arg1 m (outs m) c),
     (h c _ (mem_uc main_arg2 (by decide))).trans (Gen.V17_main_arg2 m (outs m) c),
     (h c _ (mem_uc main_arg3 (by decide))).trans (Gen.V17_main_arg3 m (outs m) c),
     (h c _ (mem_uc main_arg4 (by decide))).trans (Gen.V17_main_arg4 m (outs m) c)⟩) (run_all m ρ)

end Cert.KernelIdeal.Hand

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibWholeProduct.lean ====
/-
  The matrix product of an M×K array with a K×N array on the extended reals, as ONE function of the two arrays:
  entry (p, c) is Σ_{q < K} x[p, q] · w[q, c] (`mm`). The vector unit's product into a zero accumulator (whatever
  float formats its operands were cast to) and the host's dot_general (contract the left operand's axis 1 with the
  right operand's axis 0, no batch axes) are both this function, as whole arrays (`matmul_zero_eq`,
  `dotGeneral_eq`). An entry depends on one row of the left operand and one column of the right operand
  (`mm_eq_of_row_col`): two products of arrays of any heights and widths agree at a pair of entries whose row and
  column agree term by term — what a product computed a block of rows at a time needs. Any extents; no program.
-/
import proofs.«147890_j85212151153300_1_alg».proof.Proof.LibPlainDot

noncomputable section

open scoped BigOperators

namespace Cert.Product

open Idealize.ShloMosaic Idealize.ShloMosaic.ValueIdx Cert.PlainDot

/-- The product, entry by entry. -/
def mm {M K N : Nat} (x : (⟨2, ![M, K]⟩ : Shape).Idx → EReal) (w : (⟨2, ![K, N]⟩ : Shape).Idx → EReal) :
    (⟨2, ![M, N]⟩ : Shape).Idx → EReal :=
  fun i => ∑ q : Fin K, x (ix2 (i 0) q) * w (ix2 q (i 1))

theorem mm_apply {M K N : Nat} (x : (⟨2, ![M, K]⟩ : Shape).Idx → EReal) (w : (⟨2, ![K, N]⟩ : Shape).Idx → EReal)
    (p : Fin M) (c : Fin N) : mm x w (ix2 p c) = ∑ q : Fin K, x (ix2 p q) * w (ix2 q c) := rfl

/-- An entry of a product depends on one row of the left operand and one column of the right operand: two products,
    of arrays of any heights and widths, agree at a pair of entries whose row and column agree term by term. -/
theorem mm_eq_of_row_col {M K N M' N' : Nat}
    (x : (⟨2, ![M, K]⟩ : Shape).Idx → EReal) (w : (⟨2, ![K, N]⟩ : Shape).Idx → EReal)
    (x' : (⟨2, ![M', K]⟩ : Shape).Idx → EReal) (w' : (⟨2, ![K, N']⟩ : Shape).Idx → EReal)
    (i : (⟨2, ![M, N]⟩ : Shape).Idx) (i' : (⟨2, ![M', N']⟩ : Shape).Idx)
    (hx : ∀ q : Fin K, x (ix2 (i 0) q) = x' (ix2 (i' 0) q)) (hw : ∀ q : Fin K, w (ix2 q (i 1)) = w' (ix2 q (i' 1))) :
    mm x w i = mm x' w' i' :=
  Finset.sum_congr rfl fun q _ => by rw [hx q, hw q]

variable {M K N : Nat} {d : DotDims ⟨2, ![M, K]⟩ ⟨2, ![K, N]⟩ ⟨2, ![M, N]⟩}

/-- The host's dot_general of a plain product is `mm`. -/
theorem dotGeneral_eq (h : IsPlain d) (prec : Option ContractPrecision)
    (l : FVec Ideal ⟨2, ![M, K]⟩ .f32) (r : FVec Ideal ⟨2, ![K, N]⟩ .f32) :
    Host.dotGeneral d prec l r = mm l r := by
  funext i
  rw [eq_ix2 i]
  exact dotGeneral_apply h prec l r (i 0) (i 1)

/-- The vector unit's product into a zero accumulator is `mm`, whatever float formats the operands were cast to. -/
theorem matmul_zero_eq (h : IsPlain d) (prec : Option ContractPrecision) {φ₁ φ₂ : FTy}
    (l : FVec Ideal ⟨2, ![M, K]⟩ φ₁) (r : FVec Ideal ⟨2, ![K, N]⟩ φ₂) :
    matmul d prec l r (constant ⟨2, ![M, N]⟩ .f32 0x00000000#32) = mm (K := K) (fun i => l i) (fun i => r i) := by
  funext i
  rw [eq_ix2 i]
  exact matmul_zero_apply h prec l r (i 0) (i 1)

end Cert.Product

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.LibBlockedProduct.lean ====
/-
  Matrix products on the extended reals taken in pieces, and products of zero-padded matrices.

  An array read outside its extents is read as zero (`ext2`). With that reading:
  * a product whose contracted axis is cut into T consecutive blocks of B, the partial products added up one after
    the other from zero, is the whole product (`mm_blocks`) — only commutativity and associativity of the sum;
  * the product of two zero-padded matrices is the zero-padded product (`mm_pad`): a term beyond the contracted
    extent has a zero factor, and zero times any extended real is zero, so no finiteness is needed;
  * a zero-padded array read back inside its extents is the array (`padTo_ix2`).
  Any extents; no program.
-/
import proofs.«147890_j85212151153300_1_alg».proof.Proof.LibWholeProduct
import proofs.«147890_j85212151153300_1_alg».proof.Proof.LibBlockSum

noncomputable section

open scoped BigOperators

namespace Cert.BlockedProduct

open Idealize.ShloMosaic Idealize.ShloMosaic.ValueIdx Cert.Product

/-- An array read at a pair of natural numbers: its entry inside its extents, zero outside. -/
def ext2 {A B : ℕ} (f : (⟨2, ![A, B]⟩ : Shape).Idx → EReal) (i j : ℕ) : EReal :=
  if h : i < A ∧ j < B then f (ix2 ⟨i, h.1⟩ ⟨j, h.2⟩) else 0

theorem ext2_val {A B : ℕ} (f : (⟨2, ![A, B]⟩ : Shape).Idx → EReal) (p : Fin A) (q : Fin B) :
    ext2 f p.val q.val = f (ix2 p q) := by
  unfold ext2; rw [dif_pos ⟨p.isLt, q.isLt⟩]

theorem ext2_of_lt {A B : ℕ} (f : (⟨2, ![A, B]⟩ : Shape).Idx → EReal) {i j : ℕ} (hi : i < A) (hj : j < B) :
    ext2 f i j = f (ix2 ⟨i, hi⟩ ⟨j, hj⟩) := by
  unfold ext2; rw [dif_pos ⟨hi, hj⟩]

theorem ext2_row_out {A B : ℕ} (f : (⟨2, ![A, B]⟩ : Shape).Idx → EReal) {i : ℕ} (hi : ¬ i < A) (j : ℕ) : ext2 f i j = 0 := by
  unfold ext2; rw [dif_neg fun h => hi h.1]

theorem ext2_col_out {A B : ℕ} (f : (⟨2, ![A, B]⟩ : Shape).Idx → EReal) (i : ℕ) {j : ℕ} (hj : ¬ j < B) : ext2 f i j = 0 := by
  unfold ext2; rw [dif_neg fun h => hj h.2]

/-- The whole product, its contracted axis read at natural numbers. -/
theorem mm_ext {M K N : ℕ} (x : (⟨2, ![M, K]⟩ : Shape).Idx → EReal) (w : (⟨2, ![K, N]⟩ : Shape).Idx → EReal) (p : Fin M) (c : Fin N) :
    mm x w (ix2 p c) = ∑ n : Fin K, ext2 x p.val n.val * ext2 w n.val c.val := by
  rw [mm_apply]
  exact Finset.sum_congr rfl fun q _ => by rw [ext2_val, ext2_val]

/-- T partial products over consecutive blocks of B of the contracted axis, added up from zero, are the product. -/
theorem mm_blocks {M K N : ℕ} (T B : ℕ) (hK : T * B = K) (x : (⟨2, ![M, K]⟩ : Shape).Idx → EReal) (w : (⟨2, ![K, N]⟩ : Shape).Idx → EReal)
    (p : Fin M) (c : Fin N) :
    0 + ∑ s ∈ Finset.range T, ∑ q : Fin B, ext2 x p.val (s * B + q.val) * ext2 w (s * B + q.val) c.val = mm x w (ix2 p c) := by
  subst hK
  rw [zero_add, mm_ext]
  exact Cert.BlockSum.sum_blocks T B fun n => ext2 x p.val n * ext2 w n c.val

/-- A zero-padded copy of an array, of any extents. -/
def padTo {A B : ℕ} (A' B' : ℕ) (f : (⟨2, ![A, B]⟩ : Shape).Idx → EReal) : (⟨2, ![A', B']⟩ : Shape).Idx → EReal :=
  fun i => ext2 f (i 0).val (i 1).val

theorem padTo_ix2 {A B A' B' : ℕ} (f : (⟨2, ![A, B]⟩ : Shape).Idx → EReal) (p : Fin A') (q : Fin B') :
    padTo A' B' f (ix2 p q) = ext2 f p.val q.val := rfl

theorem ext2_padTo {A B A' B' : ℕ} (hA : A ≤ A') (hB : B ≤ B') (f : (⟨2, ![A, B]⟩ : Shape).Idx → EReal) (i j : ℕ) :
    ext2 (padTo A' B' f) i j = ext2 f i j := by
  by_cases h : i < A' ∧ j < B'
  · rw [ext2_of_lt _ h.1 h.2]; rfl
  · have : ¬ (i < A ∧ j < B) := fun h' => h ⟨lt_of_lt_of_le h'.1 hA, lt_of_lt_of_le h'.2 hB⟩
    unfold ext2; rw [dif_neg h, dif_neg this]

/-- A sum over a longer range whose terms beyond `K` vanish is the sum over `K`. -/
theorem sum_fin_of_zero_beyond {K K' : ℕ} (hK : K ≤ K') (g : ℕ → EReal) (hg : ∀ n, ¬ n < K → g n = 0) :
    ∑ n : Fin K', g n.val = ∑ n : Fin K, g n.val := by
  rw [Fin.sum_univ_eq_sum_range g K', Fin.sum_univ_eq_sum_range g K]
  exact (Finset.sum_subset (Finset.range_subset_range.mpr hK) fun n _ hn => hg n (by simpa using hn)).symm

/-- The product of zero-padded matrices, read anywhere, is the product read there as zero-padded. -/
theorem mm_pad_ext {M K N M' K' N' : ℕ} (hK : K ≤ K')
    (x : (⟨2, ![M, K]⟩ : Shape).Idx → EReal) (w : (⟨2, ![K, N]⟩ : Shape).Idx → EReal)
    (x' : (⟨2, ![M', K']⟩ : Shape).Idx → EReal) (w' : (⟨2, ![K', N']⟩ : Shape).Idx → EReal)
    (hx : ∀ i j, ext2 x' i j = ext2 x i j) (hw : ∀ i j, ext2 w' i j = ext2 w i j) (p : Fin M') (c : Fin N') :
    mm x' w' (ix2 p c) = ext2 (mm x w) p.val c.val := by
  rw [mm_ext]
  simp only [hx, hw]
  rw [sum_fin_of_zero_beyond hK (fun n => ext2 x p.val n * ext2 w n c.val) fun n hn => by
    show ext2 x p.val n * ext2 w n c.val = 0; rw [ext2_col_out x _ hn, zero_mul]]
  by_cases h : p.val < M ∧ c.val < N
  · rw [ext2_of_lt _ h.1 h.2, mm_ext]
  · rw [show ext2 (mm x w) p.val c.val = 0 from by unfold ext2; rw [dif_neg h]]
    refine Finset.sum_eq_zero fun n _ => ?_
    by_cases hp : p.val < M
    · rw [ext2_col_out w _ (fun hc => h ⟨hp, hc⟩), mul_zero]
    · rw [ext2_row_out x hp, zero_mul]

/-- The product of two zero-padded matrices is the zero-padded product. -/
theorem mm_pad {M K N M' K' N' : ℕ} (hM : M ≤ M') (hK : K ≤ K') (hN : N ≤ N')
    (x : (⟨2, ![M, K]⟩ : Shape).Idx → EReal) (w : (⟨2, ![K, N]⟩ : Shape).Idx → EReal) :
    mm (padTo M' K' x) (padTo K' N' w) = padTo M' N' (mm x w) := by
  funext i
  obtain ⟨p, q, rfl⟩ : ∃ (p : Fin M') (q : Fin N'), i = ix2 p q := ⟨i 0, i 1, eq_ix2 i⟩
  show mm (padTo M' K' x) (padTo K' N' w) (ix2 p q) = ext2 (mm x w) p.val q.val
  exact mm_pad_ext hK x w _ _ (ext2_padTo hM hK x) (ext2_padTo hK hN w) p q

end Cert.BlockedProduct

end
-- ==== Proof.IdealR0Value.lean ====
/-
  What A = P · Z leaves in its output array: the whole product. A step clears the accumulator, adds the product of the
  step's two blocks over the whole contracted axis, and writes the accumulator rounded, which on the extended reals changes nothing, to the output block; so the block a step writes back is its block of the product, entry by entry, and the
  blocks tile the array.
-/
import proofs.«147890_j85212151153300_1_alg».proof.Proof.IdealR0Body
import proofs.«147890_j85212151153300_1_alg».proof.Proof.LibBlockedProduct
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal.Gen Cert.Product Cert.BlockedProduct Cert.PlainDot

theorem hz0 : (![0, 0] : Fin 2 → Nat) = fun _ => 0 := funext fun a => by fin_cases a <;> rfl

/-! ## What a step's run leaves in the output block, as payloads of the blocks it found -/

section Pieces
variable {F : FTy → Type} [FloatOps F]

theorem out0_D_eq (c : Dev nD) (i : grid0.Coords) (arg3 : Memref sig .tc .vmem S1152x1152 .bf16) (harg3 : arg3.IsWhole) (arg4 : Memref sig .tc .vmem S1152x640 .bf16) (harg4 : arg4.IsWhole) (arg5 : Memref sig .tc .vmem S1152x640 .bf16) (harg5 : arg5.IsWhole) (arg6 : Memref sig .tc .vmem S1152x640 .f32) (harg6 : arg6.IsWhole) (hc0 : cond0_0 i) (hc1 : cond0_1 i) (x0 : Vec F S1152x1152 .bf16) (x1 : Vec F S1152x640 .bf16) :
    out0_D c i arg3 harg3 arg4 harg4 arg5 harg5 arg6 harg6 hc0 hc1 x0 x1 = k0_pay3 (k0_pay2 (k0_pay1 (F := F)) x0 x1) := by
  unfold out0_D
  rw [View.read_writes_eq_canon _ _ _ (cover0_D c i arg3 harg3 arg4 harg4 arg5 harg5 arg6 harg6 hc0 hc1 x0 x1)]
  unfold kernelRun0_D
  dsimp only
  sl_unfold_words
  rw [View.canon_unit_zero hz0, View.readCov_cons_toLoadRect, View.readCov_cons_toLoadRect]
  simp only [View.readAt_eq_ld, harg3.read_unread, harg4.read_unread, View.ld_unit_zero (S := S1152x1152) hz0, View.ld_unit_zero (S := S1152x640) hz0]

end Pieces

/-! ## The payloads at an entry, on the extended reals -/

theorem plain0 : IsPlain dot_S1152x1152_S1152x640_S1152x640_1_0_0_1_n_n := ⟨rfl, rfl, rfl, rfl, rfl, rfl⟩

theorem pay1_0_apply (j : S1152x640.Idx) : k0_pay1 (F := Ideal) j = 0 := by
  unfold k0_pay1
  rw [shapeCast_self]
  show Ideal.ofBits .f32 0x00000000#32 = 0
  exact Ideal.ofBits_zero_f32

theorem pay2_0_apply (xs : Vec Ideal S1152x640 .f32) (x0 : Vec Ideal S1152x1152 .bf16) (x1 : Vec Ideal S1152x640 .bf16) (p : Fin 1152) (c' : Fin 640) :
    k0_pay2 xs x0 x1 (ix2 p c') = xs (ix2 p c') + ∑ q : Fin 1152, x0 (ix2 p q) * x1 (ix2 q c') := by
  unfold k0_pay2
  simp only [shapeCast_self]
  rw [addf_apply]
  exact congrArg (xs (ix2 p c') + ·) (matmul_zero_apply plain0 none x0 x1 p c')

theorem pay3_0_apply (v : Vec Ideal S1152x640 .f32) (j : S1152x640.Idx) : k0_pay3 v j = v j := rfl

/-! ## The operands' blocks at an entry, and the array -/

section Value
variable (V : (c : Dev nD) → (b : Ref sig .tc) → Buf (Elt Ideal) ((c : Thread nD τ).loc b))

/-- The left operand P and the right operand Z as the call finds them, as plain arrays of extended reals. -/
abbrev L0 (c : Dev nD) : (⟨2, ![1152, 1152]⟩ : Shape).Idx → EReal := fun i => V c main_v5 i
abbrev Rt0 (c : Dev nD) : (⟨2, ![1152, 8320]⟩ : Shape).Idx → EReal := fun i => V c main_v4 i

/-- Where the windows' blocks sit at step t: the left operand's one block; the right operand's and the output's at
    block column t. -/
theorem idx0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

theorem iblk0_0_apply (c : Dev nD) (t : Fin cfg0.N) (p : Fin 1152) (q : Fin 1152) :
    iblk0 V c 0 t (ix2 p q) = L0 V c (ix2 p q) := by
  obtain ⟨e0, e1, -, -, -, -⟩ := idx0 t
  show V c main_v5 (((cfg0.win 0).blk t).view.emb (ix2 p q)) = V c main_v5 _
  refine congrArg (V c main_v5) (funext fun a => Fin.ext ?_)
  match a with
  | ⟨0, _⟩ => show win0_0.index t (0 : Fin 2) * 1152 + 1 * p.val = p.val; omega
  | ⟨1, _⟩ => show win0_0.index t (1 : Fin 2) * 1152 + 1 * q.val = q.val; omega

theorem iblk0_1_apply (c : Dev nD) (t : Fin cfg0.N) (q : Fin 1152) (c' : Fin 640) :
    iblk0 V c 1 t (ix2 q c') = ext2 (Rt0 V c) q.val (640 * t.val + c'.val) := by
  have hN : t.val < 13 := lt_of_lt_of_eq t.isLt (show cfg0.N = 13 from N_0)
  obtain ⟨-, -, e0, e1, -, -⟩ := idx0 t
  have hq := q.isLt; have hc := c'.isLt
  rw [ext2_of_lt _ hq (by omega)]
  show V c main_v4 (((cfg0.win 1).blk t).view.emb (ix2 q c')) = V c main_v4 _
  refine congrArg (V c main_v4) (funext fun a => Fin.ext ?_)
  match a with
  | ⟨0, _⟩ => show win0_1.index t (0 : Fin 2) * 1152 + 1 * q.val = q.val; omega
  | ⟨1, _⟩ => show win0_1.index t (1 : Fin 2) * 640 + 1 * c'.val = 640 * t.val + c'.val; omega

/-- What a step writes back is its block of the product. -/
theorem flushed0_eq (c : Dev nD) (t : Fin cfg0.N) (hf : (cfg0.win 2).flush t = true) :
    (dat0 V c).flushed 2 t = ((cfg0.win 2).blk t).view.read (Elt Ideal) (mm (L0 V c) (Rt0 V c)) := by
  have hN : t.val < 13 := lt_of_lt_of_eq t.isLt (show cfg0.N = 13 from N_0)
  obtain ⟨-, -, -, -, e0, e1⟩ := idx0 t
  show (cfg0.win 2).cut (grid0.coords t) ((dat0 V c).after 2 t) = _
  rw [after0_2, out0_D_eq]
  funext j
  obtain ⟨p, c', rfl⟩ : ∃ (p : Fin 1152) (c' : Fin 640), j = ix2 p c' := ⟨j 0, j 1, eq_ix2 j⟩
  have hp := p.isLt; have hc := c'.isLt
  have hcol : 640 * t.val + c'.val < 8320 := by omega
  have hidx : ((cfg0.win 2).blk t).view.emb (ix2 p c') = ix2 p ⟨640 * t.val + c'.val, hcol⟩ := by
    funext a; apply Fin.ext
    match a with
    | ⟨0, _⟩ => show win0_2.index t (0 : Fin 2) * 1152 + 1 * p.val = p.val; omega
    | ⟨1, _⟩ => show win0_2.index t (1 : Fin 2) * 640 + 1 * c'.val = 640 * t.val + c'.val; omega
  show k0_pay3 (k0_pay2 k0_pay1 (iblk0 V c 0 t) (iblk0 V c 1 t)) (ix2 p c') = mm (L0 V c) (Rt0 V c) (((cfg0.win 2).blk t).view.emb (ix2 p c'))
  rw [hidx, pay3_0_apply, pay2_0_apply, pay1_0_apply, zero_add, mm_apply]
  refine Finset.sum_congr rfl fun q _ => ?_
  rw [iblk0_0_apply, iblk0_1_apply, ext2_of_lt _ q.isLt hcol]

theorem mem_blk0 (t : Fin cfg0.N) (i : S1152x8320.Idx) :
    i ∈ ((cfg0.win 2).blk t).view.set ↔ ∀ a : Fin 2, win0_2.index t a * S1152x640.size a ≤ (i a).val ∧ (i a).val < win0_2.index t a * S1152x640.size a + S1152x640.size a := by
  show i ∈ ((View.whole main_v8).slice (win0_2.rect t)).set ↔ _
  rw [View.set_slice_whole, Rect.mem_set_unit]
  exact Iff.rfl

/-- The array ends holding the product. -/
theorem value0 (c : Dev nD) : (dat0 V c).arrAt 2 cfg0.N = mm (L0 V c) (Rt0 V c) :=
  (dat0 V c).arrAt_eq_of_cover 2 (mm (L0 V c) (Rt0 V c)) (flushed0_eq V c) fun i => by
    have hi0 : (i 0).val < 1152 := (i 0).isLt
    have hi1 : (i 1).val < 8320 := (i 1).isLt
    have ht : (i 1).val / 640 < cfg0.N := by rw [show cfg0.N = 13 from N_0]; omega
    refine ⟨⟨(i 1).val / 640, ht⟩, flush0_2 _, ?_⟩
    rw [mem_blk0]
    obtain ⟨-, -, -, -, e0, e1⟩ := idx0 ⟨(i 1).val / 640, ht⟩
    have e1' : win0_2.index ⟨(i 1).val / 640, ht⟩ (1 : Fin 2) = (i 1).val / 640 := e1
    intro a
    match a with
    | ⟨0, _⟩ => show win0_2.index _ (0 : Fin 2) * 1152 ≤ (i 0).val ∧ (i 0).val < win0_2.index _ (0 : Fin 2) * 1152 + 1152; omega
    | ⟨1, _⟩ => show win0_2.index _ (1 : Fin 2) * 640 ≤ (i 1).val ∧ (i 1).val < win0_2.index _ (1 : Fin 2) * 640 + 640; omega

end Value

end Cert.KernelIdeal.Hand

end
-- ==== Proof.IdealR1Value.lean ====
/-
  What B = A · M leaves in its output array: the whole product. The accumulator after a step is the previous one plus the
  step's partial product (cleared before the first step of a column block), so after step k of column block j it holds, at
  row p and column c, the sum over the first k + 1 blocks of the contracted axis of A[p, ·] · M[·, 640 j + c]; at the
  last step that is the whole contracted axis, and the output block is the accumulator rounded, which on the extended
  reals changes nothing. The column blocks tile the array, so the array ends holding the product, entry by entry.
-/
import proofs.«147890_j85212151153300_1_alg».proof.Proof.IdealR1Data
import proofs.«147890_j85212151153300_1_alg».proof.Proof.LibBlockedProduct
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal.Gen Cert.Product Cert.BlockedProduct Cert.PlainDot

theorem hz2 : (![0, 0] : Fin 2 → Nat) = fun _ => 0 := funext fun a => by fin_cases a <;> rfl

/-! ## What a step's run leaves, as payloads of what it found -/

section Pieces
variable {F : FTy → Type} [FloatOps F]

theorem sout1_A_eq (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : cond1_0 i) (hc1 : ¬cond1_1 i) (x0 : Vec F S1152x640 .bf16) (x1 : Vec F S640x640 .bf16) :
    sout1_A c i arg3 harg3 arg4 harg4 arg5 harg5 arg6 harg6 hc0 hc1 x0 x1 = k1_pay2 (k1_pay1 (F := F)) x0 x1 := by
  unfold sout1_A
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero (S := S1152x640) hz2, View.readCov_unit_zero (S := S1152x640) _ hz2]
  simp only [View.readAt_eq_ld, harg3.read_unread, harg4.read_unread, View.ld_unit_zero (S := S1152x640) hz2, View.ld_unit_zero (S := S640x640) hz2]

theorem sout1_B_eq (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : ¬cond1_1 i) (x0 : Vec F S1152x640 .bf16) (x1 : Vec F S640x640 .bf16) (xs0 : Vec F S1152x640 .f32) :
    sout1_B c i arg3 harg3 arg4 harg4 arg5 harg5 arg6 harg6 hc0 hc1 x0 x1 xs0 = k1_pay2 xs0 x0 x1 := by
  unfold sout1_B
  rw [View.read_writes_eq_canon _ _ _ (scover1_B c i arg3 harg3 arg4 harg4 arg5 harg5 arg6 harg6 hc0 hc1 x0 x1 xs0)]
  unfold kernelRun1_B
  dsimp only
  rw [View.canon_unit_zero hz2]
  simp only [View.readAt_eq_ld, harg3.read_unread, harg4.read_unread, harg6.read_unread, View.ld_unit_zero (S := S1152x640) hz2, View.ld_unit_zero (S := S640x640) hz2]

theorem sout1_C_eq (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : cond1_1 i) (x0 : Vec F S1152x640 .bf16) (x1 : Vec F S640x640 .bf16) (xs0 : Vec F S1152x640 .f32) :
    sout1_C c i arg3 harg3 arg4 harg4 arg5 harg5 arg6 harg6 hc0 hc1 x0 x1 xs0 = k1_pay2 xs0 x0 x1 := by
  unfold sout1_C
  rw [View.read_writes_eq_canon _ _ _ (scover1_C c i arg3 harg3 arg4 harg4 arg5 harg5 arg6 harg6 hc0 hc1 x0 x1 xs0)]
  unfold kernelRun1_C
  dsimp only
  sl_unfold_words
  rw [View.canon_unit_zero hz2]
  simp only [View.readAt_eq_ld, harg3.read_unread, harg4.read_unread, harg6.read_unread, View.ld_unit_zero (S := S1152x640) hz2, View.ld_unit_zero (S := S640x640) hz2]

theorem out1_C_eq (c : Dev nD) (i : grid1.Coords) (arg3 : Memref sig .tc .vmem S1152x640 .bf16) (harg3 : arg3.IsWhole) (arg4 : Memref sig .tc .vmem S640x640 .bf16) (harg4 : arg4.IsWhole) (arg5 : Memref sig .tc .vmem S1152x640 .bf16) (harg5 : arg5.IsWhole) (arg6 : Memref sig .tc .vmem S1152x640 .f32) (harg6 : arg6.IsWhole) (hc0 : ¬cond1_0 i) (hc1 : cond1_1 i) (x0 : Vec F S1152x640 .bf16) (x1 : Vec F S640x640 .bf16) (xs0 : Vec F S1152x640 .f32) :
    out1_C c i arg3 harg3 arg4 harg4 arg5 harg5 arg6 harg6 hc0 hc1 x0 x1 xs0 = k1_pay3 (k1_pay2 xs0 x0 x1) := by
  unfold out1_C
  rw [View.read_writes_eq_canon _ _ _ (cover1_C c i arg3 harg3 arg4 harg4 arg5 harg5 arg6 harg6 hc0 hc1 x0 x1 xs0)]
  unfold kernelRun1_C
  dsimp only
  sl_unfold_words
  rw [View.canon_unit_zero hz2, View.readCov_unit_zero (S := S1152x640) _ hz2]
  simp only [View.readAt_eq_ld, harg3.read_unread, harg4.read_unread, harg6.read_unread, View.ld_unit_zero (S := S1152x640) hz2, View.ld_unit_zero (S := S640x640) hz2]

end Pieces

/-! ## The payloads at an entry, on the extended reals -/

theorem plain1 : IsPlain dot_S1152x640_S640x640_S1152x640_1_0_0_1_n_n := ⟨rfl, rfl, rfl, rfl, rfl, rfl⟩

theorem pay1_1_apply (j : S1152x640.Idx) : k1_pay1 (F := Ideal) j = 0 := by
  unfold k1_pay1
  rw [shapeCast_self]
  show Ideal.ofBits .f32 0x00000000#32 = 0
  exact Ideal.ofBits_zero_f32

theorem pay2_1_apply (xs : Vec Ideal S1152x640 .f32) (x0 : Vec Ideal S1152x640 .bf16) (x1 : Vec Ideal S640x640 .bf16) (p : Fin 1152) (c' : Fin 640) :
    k1_pay2 xs x0 x1 (ix2 p c') = xs (ix2 p c') + ∑ q : Fin 640, x0 (ix2 p q) * x1 (ix2 q c') := by
  unfold k1_pay2
  simp only [shapeCast_self]
  rw [addf_apply]
  exact congrArg (xs (ix2 p c') + ·) (matmul_zero_apply plain1 none x0 x1 p c')

theorem pay3_1_apply (v : Vec Ideal S1152x640 .f32) (j : S1152x640.Idx) : k1_pay3 v j = v j := rfl

/-! ## The operands' blocks at an entry -/

section Value
variable (V : (c : Dev nD) → (b : Ref sig .tc) → Buf (Elt Ideal) ((c : Thread nD τ).loc b))

/-- The left operand A and the right operand M as the call finds them, as plain arrays of extended reals. -/
abbrev L1 (c : Dev nD) : (⟨2, ![1152, 8320]⟩ : Shape).Idx → EReal := fun i => V c main_v8 i
abbrev Rt1 (c : Dev nD) : (⟨2, ![8320, 8320]⟩ : Shape).Idx → EReal := fun i => V c main_v7 i

/-- Where the windows' blocks sit at step t: the left operand's at block column t % 13, the right operand's at block
    row t % 13 and block column t / 13, the output's at block column t / 13. -/
theorem idx1 : ∀ t : Fin cfg1.N, win1_0.index t (0 : Fin 2) = 0 ∧ win1_0.index t (1 : Fin 2) = t.val % 13
    ∧ win1_1.index t (0 : Fin 2) = t.val % 13 ∧ win1_1.index t (1 : Fin 2) = t.val / 13
    ∧ win1_2.index t (0 : Fin 2) = 0 ∧ win1_2.index t (1 : Fin 2) = t.val / 13 :=
  (by decide +kernel : ∀ t : Fin grid1.N, _)

theorem iblk1_0_apply (c : Dev nD) (t : Fin cfg1.N) (p : Fin 1152) (q : Fin 640) :
    iblk1 V c 0 t (ix2 p q) = ext2 (L1 V c) p.val (640 * (t.val % 13) + q.val) := by
  have hN : t.val < 169 := lt_of_lt_of_eq t.isLt (show cfg1.N = 169 from N_1)
  obtain ⟨e0, e1, -, -, -, -⟩ := idx1 t
  have hp := p.isLt; have hq := q.isLt
  rw [ext2_of_lt _ hp (by omega)]
  show V c main_v8 (((cfg1.win 0).blk t).view.emb (ix2 p q)) = V c main_v8 _
  refine congrArg (V c main_v8) (funext fun a => Fin.ext ?_)
  match a with
  | ⟨0, _⟩ => show win1_0.index t (0 : Fin 2) * 1152 + 1 * p.val = p.val; omega
  | ⟨1, _⟩ => show win1_0.index t (1 : Fin 2) * 640 + 1 * q.val = 640 * (t.val % 13) + q.val; omega

theorem iblk1_1_apply (c : Dev nD) (t : Fin cfg1.N) (q : Fin 640) (c' : Fin 640) :
    iblk1 V c 1 t (ix2 q c') = ext2 (Rt1 V c) (640 * (t.val % 13) + q.val) (640 * (t.val / 13) + c'.val) := by
  have hN : t.val < 169 := lt_of_lt_of_eq t.isLt (show cfg1.N = 169 from N_1)
  obtain ⟨-, -, e0, e1, -, -⟩ := idx1 t
  have hq := q.isLt; have hc := c'.isLt
  rw [ext2_of_lt _ (by omega) (by omega)]
  show V c main_v7 (((cfg1.win 1).blk t).view.emb (ix2 q c')) = V c main_v7 _
  refine congrArg (V c main_v7) (funext fun a => Fin.ext ?_)
  match a with
  | ⟨0, _⟩ => show win1_1.index t (0 : Fin 2) * 640 + 1 * q.val = 640 * (t.val % 13) + q.val; omega
  | ⟨1, _⟩ => show win1_1.index t (1 : Fin 2) * 640 + 1 * c'.val = 640 * (t.val / 13) + c'.val; omega

/-! ## The accumulator after every step -/

/-- The partial product of block s of the contracted axis, at row p and column col. -/
abbrev term1 (c : Dev nD) (p col s : ℕ) : EReal := ∑ q : Fin 640, ext2 (L1 V c) p (s * 640 + q.val) * ext2 (Rt1 V c) (s * 640 + q.val) col

theorem step1_apply (c : Dev nD) (t : Fin cfg1.N) (xs : Vec Ideal S1152x640 .f32) (p : Fin 1152) (c' : Fin 640) :
    k1_pay2 xs (iblk1 V c 0 t) (iblk1 V c 1 t) (ix2 p c') = xs (ix2 p c') + term1 V c p.val (640 * (t.val / 13) + c'.val) (t.val % 13) := by
  rw [pay2_1_apply]
  refine congrArg (xs (ix2 p c') + ·) (Finset.sum_congr rfl fun q _ => ?_)
  rw [iblk1_0_apply, iblk1_1_apply, Nat.mul_comm 640 (t.val % 13)]

theorem acc1_eq (c : Dev nD) : ∀ (n : ℕ) (hn : n < cfg1.N) (p : Fin 1152) (c' : Fin 640),
    (outsAt1 V c n hn).2 (ix2 p c') = 0 + ∑ s ∈ Finset.range (n % 13 + 1), term1 V c p.val (640 * (n / 13) + c'.val) s
  | 0, hn, p, c' => by
    have e := outsAt1_A V c ⟨0, hn⟩ rfl (show ¬ (0 : ℕ) % 13 = 12 by decide)
    rw [show outsAt1 V c 0 hn = _ from e]
    dsimp only
    rw [sout1_A_eq, step1_apply, pay1_1_apply]
    simp only [Nat.zero_mod, Nat.zero_div, Finset.sum_range_one, zero_add]
  | n + 1, hn, p, c' => by
    have hN : n + 1 < 169 := lt_of_lt_of_eq hn (show cfg1.N = 169 from N_1)
    by_cases h0 : (n + 1) % 13 = 0
    · have h1 : ¬ (n + 1) % 13 = 12 := by omega
      have e := outsAt1_A V c ⟨n + 1, hn⟩ h0 h1
      rw [show outsAt1 V c (n + 1) hn = _ from e]
      dsimp only
      rw [sout1_A_eq, step1_apply, pay1_1_apply]
      show 0 + term1 V c p.val (640 * ((n + 1) / 13) + c'.val) ((n + 1) % 13) = _
      rw [h0]; simp only [Finset.sum_range_one, zero_add]
    · have ih := acc1_eq c n (Nat.lt_of_succ_lt hn) p c'
      have hd : n / 13 = (n + 1) / 13 := by omega
      have hm : n % 13 + 1 = (n + 1) % 13 := by omega
      have key : (outsAt1 V c n (Nat.lt_of_succ_lt hn)).2 (ix2 p c') + term1 V c p.val (640 * ((n + 1) / 13) + c'.val) ((n + 1) % 13)
          = 0 + ∑ s ∈ Finset.range ((n + 1) % 13 + 1), term1 V c p.val (640 * ((n + 1) / 13) + c'.val) s := by
        rw [ih, hd, hm, Finset.sum_range_succ _ ((n + 1) % 13), add_assoc]
      by_cases h1 : (n + 1) % 13 = 12
      · have e := outsAt1_C V c ⟨n + 1, hn⟩ h0 h1
        rw [show outsAt1 V c (n + 1) hn = _ from e]
        dsimp only
        rw [sout1_C_eq, step1_apply]
        exact key
      · have e := outsAt1_B V c ⟨n + 1, hn⟩ h0 h1
        rw [show outsAt1 V c (n + 1) hn = _ from e]
        dsimp only
        rw [sout1_B_eq, step1_apply]
        exact key

/-- At a last step the output block is the accumulator, entry by entry. -/
theorem out1_last (c : Dev nD) (t : Fin cfg1.N) (h1 : t.val % 13 = 12) (j : S1152x640.Idx) :
    (outsAt1 V c t.val t.isLt).1 j = (outsAt1 V c t.val t.isLt).2 j := by
  have h0 : ¬ t.val % 13 = 0 := by omega
  rw [outsAt1_C V c t h0 h1]
  dsimp only
  rw [out1_C_eq, sout1_C_eq]
  rfl

/-! ## From the blocks to the array -/

/-- What a last step writes back is its block of the product. -/
theorem flushed1_eq (c : Dev nD) (t : Fin cfg1.N) (hf : (cfg1.win 2).flush t = true) :
    (dat1 V c).flushed 2 t = ((cfg1.win 2).blk t).view.read (Elt Ideal) (mm (L1 V c) (Rt1 V c)) := by
  have h1 : t.val % 13 = 12 := (flush1_2 t).mp hf
  have hN : t.val < 169 := lt_of_lt_of_eq t.isLt (show cfg1.N = 169 from N_1)
  obtain ⟨-, -, -, -, e0, e1⟩ := idx1 t
  show (cfg1.win 2).cut (grid1.coords t) ((dat1 V c).after 2 t) = _
  rw [after1_2]
  funext j
  obtain ⟨p, c', rfl⟩ : ∃ (p : Fin 1152) (c' : Fin 640), j = ix2 p c' := ⟨j 0, j 1, eq_ix2 j⟩
  have hp := p.isLt; have hc := c'.isLt
  show (outsAt1 V c t.val t.isLt).1 (ix2 p c') = mm (L1 V c) (Rt1 V c) (((cfg1.win 2).blk t).view.emb (ix2 p c'))
  rw [out1_last V c t h1, acc1_eq V c t.val t.isLt p c', h1]
  have hcol : 640 * (t.val / 13) + c'.val < 8320 := by omega
  have hidx : ((cfg1.win 2).blk t).view.emb (ix2 p c') = ix2 p ⟨640 * (t.val / 13) + c'.val, hcol⟩ := by
    funext a; apply Fin.ext
    match a with
    | ⟨0, _⟩ => show win1_2.index t (0 : Fin 2) * 1152 + 1 * p.val = p.val; omega
    | ⟨1, _⟩ => show win1_2.index t (1 : Fin 2) * 640 + 1 * c'.val = 640 * (t.val / 13) + c'.val; omega
  rw [hidx]
  exact mm_blocks 13 640 rfl (L1 V c) (Rt1 V c) p ⟨640 * (t.val / 13) + c'.val, hcol⟩

theorem mem_blk1 (t : Fin cfg1.N) (i : S1152x8320.Idx) :
    i ∈ ((cfg1.win 2).blk t).view.set ↔ ∀ a : Fin 2, win1_2.index t a * S1152x640.size a ≤ (i a).val ∧ (i a).val < win1_2.index t a * S1152x640.size a + S1152x640.size a := by
  show i ∈ ((View.whole main_v9).slice (win1_2.rect t)).set ↔ _
  rw [View.set_slice_whole, Rect.mem_set_unit]
  exact Iff.rfl

/-- The array ends holding the product. -/
theorem value1 (c : Dev nD) : (dat1 V c).arrAt 2 cfg1.N = mm (L1 V c) (Rt1 V c) :=
  (dat1 V c).arrAt_eq_of_cover 2 (mm (L1 V c) (Rt1 V c)) (flushed1_eq V c) fun i => by
    have hi0 : (i 0).val < 1152 := (i 0).isLt
    have hi1 : (i 1).val < 8320 := (i 1).isLt
    have ht : 13 * ((i 1).val / 640) + 12 < cfg1.N := by rw [show cfg1.N = 169 from N_1]; omega
    refine ⟨⟨13 * ((i 1).val / 640) + 12, ht⟩, (flush1_2 _).mpr (by show (13 * ((i 1).val / 640) + 12) % 13 = 12; omega), ?_⟩
    rw [mem_blk1]
    obtain ⟨-, -, -, -, e0, e1⟩ := idx1 ⟨13 * ((i 1).val / 640) + 12, ht⟩
    have e1' : win1_2.index ⟨13 * ((i 1).val / 640) + 12, ht⟩ (1 : Fin 2) = (i 1).val / 640 := by rw [e1]; show (13 * ((i 1).val / 640) + 12) / 13 = _; omega
    intro a
    match a with
    | ⟨0, _⟩ => show win1_2.index _ (0 : Fin 2) * 1152 ≤ (i 0).val ∧ (i 0).val < win1_2.index _ (0 : Fin 2) * 1152 + 1152; omega
    | ⟨1, _⟩ => show win1_2.index _ (1 : Fin 2) * 640 ≤ (i 1).val ∧ (i 1).val < win1_2.index _ (1 : Fin 2) * 640 + 640; omega

end Value

end Cert.KernelIdeal.Hand

end
-- ==== Proof.IdealR2Value.lean ====
/-
  What C = B · Zᵀ leaves in its output array: the whole product. The accumulator after a step is the previous one plus the
  step's partial product (cleared before the first step), so after step k it holds, at row p and column c, the sum over
  the first k + 1 blocks of the contracted axis of B[p, ·] · Zᵀ[·, c]; at the last step that is the whole contracted axis,
  and the output block is the accumulator. The one block is the whole array, so the array ends holding the product.
-/
import proofs.«147890_j85212151153300_1_alg».proof.Proof.IdealR2Data
import proofs.«147890_j85212151153300_1_alg».proof.Proof.LibBlockedProduct
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal.Gen Cert.Product Cert.BlockedProduct Cert.PlainDot

theorem hzz : (![0, 0] : Fin 2 → Nat) = fun _ => 0 := funext fun a => by fin_cases a <;> rfl

/-! ## What a step's run leaves, as payloads of what it found -/

section Pieces
variable {F : FTy → Type} [FloatOps F]

theorem sout2_A_eq (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : cond2_0 i) (hc1 : ¬cond2_1 i) (x0 : Vec F S1152x640 .bf16) (x1 : Vec F S640x1152 .bf16) :
    sout2_A c i arg3 harg3 arg4 harg4 arg5 harg5 arg6 harg6 hc0 hc1 x0 x1 = k2_pay2 (k2_pay1 (F := F)) x0 x1 := by
  unfold sout2_A
  rw [View.read_writes_eq_canon _ _ _ (scover2_A c i arg3 harg3 arg4 harg4 arg5 harg5 arg6 harg6 hc0 hc1 x0 x1)]
  unfold kernelRun2_A
  dsimp only
  sl_unfold_words
  rw [View.canon_cons_unit_zero (S := S1152x1152) hzz, View.readCov_unit_zero (S := S1152x1152) _ hzz]
  simp only [View.readAt_eq_ld, harg3.read_unread, harg4.read_unread, View.ld_unit_zero (S := S1152x640) hzz, View.ld_unit_zero (S := S640x1152) hzz, View.ld_unit_zero (S := S1152x1152) hzz]

theorem sout2_B_eq (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : ¬cond2_1 i) (x0 : Vec F S1152x640 .bf16) (x1 : Vec F S640x1152 .bf16) (xs0 : Vec F S1152x1152 .f32) :
    sout2_B c i arg3 harg3 arg4 harg4 arg5 harg5 arg6 harg6 hc0 hc1 x0 x1 xs0 = k2_pay2 xs0 x0 x1 := by
  unfold sout2_B
  rw [View.read_writes_eq_canon _ _ _ (scover2_B c i arg3 harg3 arg4 harg4 arg5 harg5 arg6 harg6 hc0 hc1 x0 x1 xs0)]
  unfold kernelRun2_B
  dsimp only
  rw [View.canon_unit_zero hzz]
  simp only [View.readAt_eq_ld, harg3.read_unread, harg4.read_unread, harg6.read_unread, View.ld_unit_zero (S := S1152x640) hzz, View.ld_unit_zero (S := S640x1152) hzz, View.ld_unit_zero (S := S1152x1152) hzz]

theorem sout2_C_eq (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : cond2_1 i) (x0 : Vec F S1152x640 .bf16) (x1 : Vec F S640x1152 .bf16) (xs0 : Vec F S1152x1152 .f32) :
    sout2_C c i arg3 harg3 arg4 harg4 arg5 harg5 arg6 harg6 hc0 hc1 x0 x1 xs0 = k2_pay2 xs0 x0 x1 := by
  unfold sout2_C
  rw [View.read_writes_eq_canon _ _ _ (scover2_C c i arg3 harg3 arg4 harg4 arg5 harg5 arg6 harg6 hc0 hc1 x0 x1 xs0)]
  unfold kernelRun2_C
  dsimp only
  sl_unfold_words
  rw [View.canon_unit_zero hzz]
  simp only [View.readAt_eq_ld, harg3.read_unread, harg4.read_unread, harg6.read_unread, View.ld_unit_zero (S := S1152x640) hzz, View.ld_unit_zero (S := S640x1152) hzz, View.ld_unit_zero (S := S1152x1152) hzz]

theorem out2_C_eq (c : Dev nD) (i : grid2.Coords) (arg3 : Memref sig .tc .vmem S1152x640 .bf16) (harg3 : arg3.IsWhole) (arg4 : Memref sig .tc .vmem S640x1152 .bf16) (harg4 : arg4.IsWhole) (arg5 : Memref sig .tc .vmem S1152x1152 .f32) (harg5 : arg5.IsWhole) (arg6 : Memref sig .tc .vmem S1152x1152 .f32) (harg6 : arg6.IsWhole) (hc0 : ¬cond2_0 i) (hc1 : cond2_1 i) (x0 : Vec F S1152x640 .bf16) (x1 : Vec F S640x1152 .bf16) (xs0 : Vec F S1152x1152 .f32) :
    out2_C c i arg3 harg3 arg4 harg4 arg5 harg5 arg6 harg6 hc0 hc1 x0 x1 xs0 = k2_pay2 xs0 x0 x1 := by
  unfold out2_C
  rw [View.read_writes_eq_canon _ _ _ (cover2_C c i arg3 harg3 arg4 harg4 arg5 harg5 arg6 harg6 hc0 hc1 x0 x1 xs0)]
  unfold kernelRun2_C
  dsimp only
  sl_unfold_words
  rw [View.canon_unit_zero hzz, View.readCov_unit_zero (S := S1152x1152) _ hzz]
  simp only [View.readAt_eq_ld, harg3.read_unread, harg4.read_unread, harg6.read_unread, View.ld_unit_zero (S := S1152x640) hzz, View.ld_unit_zero (S := S640x1152) hzz, View.ld_unit_zero (S := S1152x1152) hzz]

end Pieces

/-! ## The payloads at an entry, on the extended reals -/

theorem plain2 : IsPlain dot_S1152x640_S640x1152_S1152x1152_1_0_0_1_n_n := ⟨rfl, rfl, rfl, rfl, rfl, rfl⟩

theorem pay1_2_apply (j : S1152x1152.Idx) : k2_pay1 (F := Ideal) j = 0 := by
  unfold k2_pay1
  rw [shapeCast_self]
  show Ideal.ofBits .f32 0x00000000#32 = 0
  exact Ideal.ofBits_zero_f32

theorem pay2_2_apply (xs : Vec Ideal S1152x1152 .f32) (x0 : Vec Ideal S1152x640 .bf16) (x1 : Vec Ideal S640x1152 .bf16) (p : Fin 1152) (c' : Fin 1152) :
    k2_pay2 xs x0 x1 (ix2 p c') = xs (ix2 p c') + ∑ q : Fin 640, x0 (ix2 p q) * x1 (ix2 q c') := by
  unfold k2_pay2
  simp only [shapeCast_self]
  rw [addf_apply]
  exact congrArg (xs (ix2 p c') + ·) (matmul_zero_apply plain2 none x0 x1 p c')

/-! ## The operands' blocks at an entry -/

section Value
variable (V : (c : Dev nD) → (b : Ref sig .tc) → Buf (Elt Ideal) ((c : Thread nD τ).loc b))

/-- The left operand B and the right operand Zᵀ as the call finds them, as plain arrays of extended reals. -/
abbrev L2 (c : Dev nD) : (⟨2, ![1152, 8320]⟩ : Shape).Idx → EReal := fun i => V c main_v9 i
abbrev Rt2 (c : Dev nD) : (⟨2, ![8320, 1152]⟩ : Shape).Idx → EReal := fun i => V c main_v10 i

/-- Where the windows' blocks sit at step t: the left operand's at block column t % 13, the right operand's at block
    row t % 13 and block column t / 13, the output's at block column t / 13. -/
theorem idx2 : ∀ t : Fin cfg2.N, win2_0.index t (0 : Fin 2) = 0 ∧ win2_0.index t (1 : Fin 2) = t.val % 13
    ∧ win2_1.index t (0 : Fin 2) = t.val % 13 ∧ win2_1.index t (1 : Fin 2) = t.val / 13
    ∧ win2_2.index t (0 : Fin 2) = 0 ∧ win2_2.index t (1 : Fin 2) = t.val / 13 :=
  (by decide +kernel : ∀ t : Fin grid2.N, _)

theorem iblk2_0_apply (c : Dev nD) (t : Fin cfg2.N) (p : Fin 1152) (q : Fin 640) :
    iblk2 V c 0 t (ix2 p q) = ext2 (L2 V c) p.val (640 * (t.val % 13) + q.val) := by
  have hN : t.val < 13 := lt_of_lt_of_eq t.isLt (show cfg2.N = 13 from N_2)
  obtain ⟨e0, e1, -, -, -, -⟩ := idx2 t
  have hp := p.isLt; have hq := q.isLt
  rw [ext2_of_lt _ hp (by omega)]
  show V c main_v9 (((cfg2.win 0).blk t).view.emb (ix2 p q)) = V c main_v9 _
  refine congrArg (V c main_v9) (funext fun a => Fin.ext ?_)
  match a with
  | ⟨0, _⟩ => show win2_0.index t (0 : Fin 2) * 1152 + 1 * p.val = p.val; omega
  | ⟨1, _⟩ => show win2_0.index t (1 : Fin 2) * 640 + 1 * q.val = 640 * (t.val % 13) + q.val; omega

theorem iblk2_1_apply (c : Dev nD) (t : Fin cfg2.N) (q : Fin 640) (c' : Fin 1152) :
    iblk2 V c 1 t (ix2 q c') = ext2 (Rt2 V c) (640 * (t.val % 13) + q.val) (1152 * (t.val / 13) + c'.val) := by
  have hN : t.val < 13 := lt_of_lt_of_eq t.isLt (show cfg2.N = 13 from N_2)
  obtain ⟨-, -, e0, e1, -, -⟩ := idx2 t
  have hq := q.isLt; have hc := c'.isLt
  rw [ext2_of_lt _ (by omega) (by omega)]
  show V c main_v10 (((cfg2.win 1).blk t).view.emb (ix2 q c')) = V c main_v10 _
  refine congrArg (V c main_v10) (funext fun a => Fin.ext ?_)
  match a with
  | ⟨0, _⟩ => show win2_1.index t (0 : Fin 2) * 640 + 1 * q.val = 640 * (t.val % 13) + q.val; omega
  | ⟨1, _⟩ => show win2_1.index t (1 : Fin 2) * 1152 + 1 * c'.val = 1152 * (t.val / 13) + c'.val; omega

/-! ## The accumulator after every step -/

/-- The partial product of block s of the contracted axis, at row p and column col. -/
abbrev term2 (c : Dev nD) (p col s : ℕ) : EReal := ∑ q : Fin 640, ext2 (L2 V c) p (s * 640 + q.val) * ext2 (Rt2 V c) (s * 640 + q.val) col

theorem step2_apply (c : Dev nD) (t : Fin cfg2.N) (xs : Vec Ideal S1152x1152 .f32) (p : Fin 1152) (c' : Fin 1152) :
    k2_pay2 xs (iblk2 V c 0 t) (iblk2 V c 1 t) (ix2 p c') = xs (ix2 p c') + term2 V c p.val (1152 * (t.val / 13) + c'.val) (t.val % 13) := by
  rw [pay2_2_apply]
  refine congrArg (xs (ix2 p c') + ·) (Finset.sum_congr rfl fun q _ => ?_)
  rw [iblk2_0_apply, iblk2_1_apply, Nat.mul_comm 640 (t.val % 13)]

theorem acc2_eq (c : Dev nD) : ∀ (n : ℕ) (hn : n < cfg2.N) (p : Fin 1152) (c' : Fin 1152),
    (outsAt2 V c n hn).2 (ix2 p c') = 0 + ∑ s ∈ Finset.range (n % 13 + 1), term2 V c p.val (1152 * (n / 13) + c'.val) s
  | 0, hn, p, c' => by
    have e := outsAt2_A V c ⟨0, hn⟩ rfl (show ¬ (0 : ℕ) % 13 = 12 by decide)
    rw [show outsAt2 V c 0 hn = _ from e]
    dsimp only
    rw [sout2_A_eq, step2_apply, pay1_2_apply]
    simp only [Nat.zero_mod, Nat.zero_div, Finset.sum_range_one, zero_add]
  | n + 1, hn, p, c' => by
    have hN : n + 1 < 13 := lt_of_lt_of_eq hn (show cfg2.N = 13 from N_2)
    by_cases h0 : (n + 1) % 13 = 0
    · have h1 : ¬ (n + 1) % 13 = 12 := by omega
      have e := outsAt2_A V c ⟨n + 1, hn⟩ h0 h1
      rw [show outsAt2 V c (n + 1) hn = _ from e]
      dsimp only
      rw [sout2_A_eq, step2_apply, pay1_2_apply]
      show 0 + term2 V c p.val (1152 * ((n + 1) / 13) + c'.val) ((n + 1) % 13) = _
      rw [h0]; simp only [Finset.sum_range_one, zero_add]
    · have ih := acc2_eq c n (Nat.lt_of_succ_lt hn) p c'
      have hd : n / 13 = (n + 1) / 13 := by omega
      have hm : n % 13 + 1 = (n + 1) % 13 := by omega
      have key : (outsAt2 V c n (Nat.lt_of_succ_lt hn)).2 (ix2 p c') + term2 V c p.val (1152 * ((n + 1) / 13) + c'.val) ((n + 1) % 13)
          = 0 + ∑ s ∈ Finset.range ((n + 1) % 13 + 1), term2 V c p.val (1152 * ((n + 1) / 13) + c'.val) s := by
        rw [ih, hd, hm, Finset.sum_range_succ _ ((n + 1) % 13), add_assoc]
      by_cases h1 : (n + 1) % 13 = 12
      · have e := outsAt2_C V c ⟨n + 1, hn⟩ h0 h1
        rw [show outsAt2 V c (n + 1) hn = _ from e]
        dsimp only
        rw [sout2_C_eq, step2_apply]
        exact key
      · have e := outsAt2_B V c ⟨n + 1, hn⟩ h0 h1
        rw [show outsAt2 V c (n + 1) hn = _ from e]
        dsimp only
        rw [sout2_B_eq, step2_apply]
        exact key

/-- At a last step the output block is the accumulator, entry by entry. -/
theorem out2_last (c : Dev nD) (t : Fin cfg2.N) (h1 : t.val % 13 = 12) (j : S1152x1152.Idx) :
    (outsAt2 V c t.val t.isLt).1 j = (outsAt2 V c t.val t.isLt).2 j := by
  have h0 : ¬ t.val % 13 = 0 := by omega
  rw [outsAt2_C V c t h0 h1]
  dsimp only
  rw [out2_C_eq, sout2_C_eq]

/-! ## From the blocks to the array -/

/-- What a last step writes back is its block of the product. -/
theorem flushed2_eq (c : Dev nD) (t : Fin cfg2.N) (hf : (cfg2.win 2).flush t = true) :
    (dat2 V c).flushed 2 t = ((cfg2.win 2).blk t).view.read (Elt Ideal) (mm (L2 V c) (Rt2 V c)) := by
  have h1 : t.val % 13 = 12 := (flush2_2 t).mp hf
  have hN : t.val < 13 := lt_of_lt_of_eq t.isLt (show cfg2.N = 13 from N_2)
  obtain ⟨-, -, -, -, e0, e1⟩ := idx2 t
  show (cfg2.win 2).cut (grid2.coords t) ((dat2 V c).after 2 t) = _
  rw [after2_2]
  funext j
  obtain ⟨p, c', rfl⟩ : ∃ (p : Fin 1152) (c' : Fin 1152), j = ix2 p c' := ⟨j 0, j 1, eq_ix2 j⟩
  have hp := p.isLt; have hc := c'.isLt
  show (outsAt2 V c t.val t.isLt).1 (ix2 p c') = mm (L2 V c) (Rt2 V c) (((cfg2.win 2).blk t).view.emb (ix2 p c'))
  rw [out2_last V c t h1, acc2_eq V c t.val t.isLt p c', h1]
  have hcol : 1152 * (t.val / 13) + c'.val < 1152 := by omega
  have hidx : ((cfg2.win 2).blk t).view.emb (ix2 p c') = ix2 p ⟨1152 * (t.val / 13) + c'.val, hcol⟩ := by
    funext a; apply Fin.ext
    match a with
    | ⟨0, _⟩ => show win2_2.index t (0 : Fin 2) * 1152 + 1 * p.val = p.val; omega
    | ⟨1, _⟩ => show win2_2.index t (1 : Fin 2) * 1152 + 1 * c'.val = 1152 * (t.val / 13) + c'.val; omega
  rw [hidx]
  exact mm_blocks 13 640 rfl (L2 V c) (Rt2 V c) p ⟨1152 * (t.val / 13) + c'.val, hcol⟩

theorem mem_blk2 (t : Fin cfg2.N) (i : S1152x1152.Idx) :
    i ∈ ((cfg2.win 2).blk t).view.set ↔ ∀ a : Fin 2, win2_2.index t a * S1152x1152.size a ≤ (i a).val ∧ (i a).val < win2_2.index t a * S1152x1152.size a + S1152x1152.size a := by
  show i ∈ ((View.whole main_v11).slice (win2_2.rect t)).set ↔ _
  rw [View.set_slice_whole, Rect.mem_set_unit]
  exact Iff.rfl

/-- The array ends holding the product. -/
theorem value2 (c : Dev nD) : (dat2 V c).arrAt 2 cfg2.N = mm (L2 V c) (Rt2 V c) :=
  (dat2 V c).arrAt_eq_of_cover 2 (mm (L2 V c) (Rt2 V c)) (flushed2_eq V c) fun i => by
    have hi0 : (i 0).val < 1152 := (i 0).isLt
    have hi1 : (i 1).val < 1152 := (i 1).isLt
    have ht : 13 * ((i 1).val / 1152) + 12 < cfg2.N := by rw [show cfg2.N = 13 from N_2]; omega
    refine ⟨⟨13 * ((i 1).val / 1152) + 12, ht⟩, (flush2_2 _).mpr (by show (13 * ((i 1).val / 1152) + 12) % 13 = 12; omega), ?_⟩
    rw [mem_blk2]
    obtain ⟨-, -, -, -, e0, e1⟩ := idx2 ⟨13 * ((i 1).val / 1152) + 12, ht⟩
    have e1' : win2_2.index ⟨13 * ((i 1).val / 1152) + 12, ht⟩ (1 : Fin 2) = (i 1).val / 1152 := by rw [e1]; show (13 * ((i 1).val / 1152) + 12) / 13 = _; omega
    intro a
    match a with
    | ⟨0, _⟩ => show win2_2.index _ (0 : Fin 2) * 1152 ≤ (i 0).val ∧ (i 0).val < win2_2.index _ (0 : Fin 2) * 1152 + 1152; omega
    | ⟨1, _⟩ => show win2_2.index _ (1 : Fin 2) * 1152 ≤ (i 1).val ∧ (i 1).val < win2_2.index _ (1 : Fin 2) * 1152 + 1152; omega

end Value

end Cert.KernelIdeal.Hand

end
-- ==== Proof.IdealR3Value.lean ====
/-
  What D = C · Q leaves in its output array: the whole product. A step clears the accumulator, adds the product of the
  step's two blocks over the whole contracted axis, and writes the accumulator rounded, which on the extended reals changes nothing, to the output block; so the block a step writes back is its block of the product, entry by entry, and the
  blocks tile the array.
-/
import proofs.«147890_j85212151153300_1_alg».proof.Proof.IdealR3Body
import proofs.«147890_j85212151153300_1_alg».proof.Proof.LibBlockedProduct
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal.Gen Cert.Product Cert.BlockedProduct Cert.PlainDot

theorem hz3 : (![0, 0] : Fin 2 → Nat) = fun _ => 0 := funext fun a => by fin_cases a <;> rfl

/-! ## What a step's run leaves in the output block, as payloads of the blocks it found -/

section Pieces
variable {F : FTy → Type} [FloatOps F]

theorem out3_D_eq (c : Dev nD) (i : grid3.Coords) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .f32) (harg6 : arg6.IsWhole) (hc0 : cond3_0 i) (hc1 : cond3_1 i) (x0 : Vec F S1152x1152 .bf16) (x1 : Vec F S1152x1152 .bf16) :
    out3_D c i arg3 harg3 arg4 harg4 arg5 harg5 arg6 harg6 hc0 hc1 x0 x1 = k3_pay3 (k3_pay2 (k3_pay1 (F := F)) x0 x1) := by
  unfold out3_D
  rw [View.read_writes_eq_canon _ _ _ (cover3_D c i arg3 harg3 arg4 harg4 arg5 harg5 arg6 harg6 hc0 hc1 x0 x1)]
  unfold kernelRun3_D
  dsimp only
  sl_unfold_words
  rw [View.canon_unit_zero hz3, View.readCov_cons_toLoadRect, View.readCov_cons_toLoadRect]
  simp only [View.readAt_eq_ld, harg3.read_unread, harg4.read_unread, View.ld_unit_zero (S := S1152x1152) hz3]

end Pieces

/-! ## The payloads at an entry, on the extended reals -/

theorem plain3 : IsPlain dot_S1152x1152_S1152x1152_S1152x1152_1_0_0_1_n_n := ⟨rfl, rfl, rfl, rfl, rfl, rfl⟩

theorem pay1_3_apply (j : S1152x1152.Idx) : k3_pay1 (F := Ideal) j = 0 := by
  unfold k3_pay1
  rw [shapeCast_self]
  show Ideal.ofBits .f32 0x00000000#32 = 0
  exact Ideal.ofBits_zero_f32

theorem pay2_3_apply (xs : Vec Ideal S1152x1152 .f32) (x0 : Vec Ideal S1152x1152 .bf16) (x1 : Vec Ideal S1152x1152 .bf16) (p : Fin 1152) (c' : Fin 1152) :
    k3_pay2 xs x0 x1 (ix2 p c') = xs (ix2 p c') + ∑ q : Fin 1152, x0 (ix2 p q) * x1 (ix2 q c') := by
  unfold k3_pay2
  simp only [shapeCast_self]
  rw [addf_apply]
  exact congrArg (xs (ix2 p c') + ·) (matmul_zero_apply plain3 none x0 x1 p c')

theorem pay3_3_apply (v : Vec Ideal S1152x1152 .f32) (j : S1152x1152.Idx) : k3_pay3 v j = v j := rfl

/-! ## The operands' blocks at an entry, and the array -/

section Value
variable (V : (c : Dev nD) → (b : Ref sig .tc) → Buf (Elt Ideal) ((c : Thread nD τ).loc b))

/-- The left operand C and the right operand Q as the call finds them, as plain arrays of extended reals. -/
abbrev L3 (c : Dev nD) : (⟨2, ![1152, 1152]⟩ : Shape).Idx → EReal := fun i => V c main_v12 i
abbrev Rt3 (c : Dev nD) : (⟨2, ![1152, 1152]⟩ : Shape).Idx → EReal := fun i => V c main_v6 i

/-- Where the windows' blocks sit at step t: the left operand's one block; the right operand's and the output's at
    block column t. -/
theorem idx3 : ∀ t : Fin cfg3.N, win3_0.index t (0 : Fin 2) = 0 ∧ win3_0.index t (1 : Fin 2) = 0
    ∧ win3_1.index t (0 : Fin 2) = 0 ∧ win3_1.index t (1 : Fin 2) = t.val
    ∧ win3_2.index t (0 : Fin 2) = 0 ∧ win3_2.index t (1 : Fin 2) = t.val :=
  (by decide +kernel : ∀ t : Fin grid3.N, _)

theorem iblk3_0_apply (c : Dev nD) (t : Fin cfg3.N) (p : Fin 1152) (q : Fin 1152) :
    iblk3 V c 0 t (ix2 p q) = L3 V c (ix2 p q) := by
  obtain ⟨e0, e1, -, -, -, -⟩ := idx3 t
  show V c main_v12 (((cfg3.win 0).blk t).view.emb (ix2 p q)) = V c main_v12 _
  refine congrArg (V c main_v12) (funext fun a => Fin.ext ?_)
  match a with
  | ⟨0, _⟩ => show win3_0.index t (0 : Fin 2) * 1152 + 1 * p.val = p.val; omega
  | ⟨1, _⟩ => show win3_0.index t (1 : Fin 2) * 1152 + 1 * q.val = q.val; omega

theorem iblk3_1_apply (c : Dev nD) (t : Fin cfg3.N) (q : Fin 1152) (c' : Fin 1152) :
    iblk3 V c 1 t (ix2 q c') = ext2 (Rt3 V c) q.val (1152 * t.val + c'.val) := by
  have hN : t.val < 1 := lt_of_lt_of_eq t.isLt (show cfg3.N = 1 from N_3)
  obtain ⟨-, -, e0, e1, -, -⟩ := idx3 t
  have hq := q.isLt; have hc := c'.isLt
  rw [ext2_of_lt _ hq (by omega)]
  show V c main_v6 (((cfg3.win 1).blk t).view.emb (ix2 q c')) = V c main_v6 _
  refine congrArg (V c main_v6) (funext fun a => Fin.ext ?_)
  match a with
  | ⟨0, _⟩ => show win3_1.index t (0 : Fin 2) * 1152 + 1 * q.val = q.val; omega
  | ⟨1, _⟩ => show win3_1.index t (1 : Fin 2) * 1152 + 1 * c'.val = 1152 * t.val + c'.val; omega

/-- What a step writes back is its block of the product. -/
theorem flushed3_eq (c : Dev nD) (t : Fin cfg3.N) (hf : (cfg3.win 2).flush t = true) :
    (dat3 V c).flushed 2 t = ((cfg3.win 2).blk t).view.read (Elt Ideal) (mm (L3 V c) (Rt3 V c)) := by
  have hN : t.val < 1 := lt_of_lt_of_eq t.isLt (show cfg3.N = 1 from N_3)
  obtain ⟨-, -, -, -, e0, e1⟩ := idx3 t
  show (cfg3.win 2).cut (grid3.coords t) ((dat3 V c).after 2 t) = _
  rw [after3_2, out3_D_eq]
  funext j
  obtain ⟨p, c', rfl⟩ : ∃ (p : Fin 1152) (c' : Fin 1152), j = ix2 p c' := ⟨j 0, j 1, eq_ix2 j⟩
  have hp := p.isLt; have hc := c'.isLt
  have hcol : 1152 * t.val + c'.val < 1152 := by omega
  have hidx : ((cfg3.win 2).blk t).view.emb (ix2 p c') = ix2 p ⟨1152 * t.val + c'.val, hcol⟩ := by
    funext a; apply Fin.ext
    match a with
    | ⟨0, _⟩ => show win3_2.index t (0 : Fin 2) * 1152 + 1 * p.val = p.val; omega
    | ⟨1, _⟩ => show win3_2.index t (1 : Fin 2) * 1152 + 1 * c'.val = 1152 * t.val + c'.val; omega
  show k3_pay3 (k3_pay2 k3_pay1 (iblk3 V c 0 t) (iblk3 V c 1 t)) (ix2 p c') = mm (L3 V c) (Rt3 V c) (((cfg3.win 2).blk t).view.emb (ix2 p c'))
  rw [hidx, pay3_3_apply, pay2_3_apply, pay1_3_apply, zero_add, mm_apply]
  refine Finset.sum_congr rfl fun q _ => ?_
  rw [iblk3_0_apply, iblk3_1_apply, ext2_of_lt _ q.isLt hcol]

theorem mem_blk3 (t : Fin cfg3.N) (i : S1152x1152.Idx) :
    i ∈ ((cfg3.win 2).blk t).view.set ↔ ∀ a : Fin 2, win3_2.index t a * S1152x1152.size a ≤ (i a).val ∧ (i a).val < win3_2.index t a * S1152x1152.size a + S1152x1152.size a := by
  show i ∈ ((View.whole main_v13).slice (win3_2.rect t)).set ↔ _
  rw [View.set_slice_whole, Rect.mem_set_unit]
  exact Iff.rfl

/-- The array ends holding the product. -/
theorem value3 (c : Dev nD) : (dat3 V c).arrAt 2 cfg3.N = mm (L3 V c) (Rt3 V c) :=
  (dat3 V c).arrAt_eq_of_cover 2 (mm (L3 V c) (Rt3 V c)) (flushed3_eq V c) fun i => by
    have hi0 : (i 0).val < 1152 := (i 0).isLt
    have hi1 : (i 1).val < 1152 := (i 1).isLt
    have ht : (i 1).val / 1152 < cfg3.N := by rw [show cfg3.N = 1 from N_3]; omega
    refine ⟨⟨(i 1).val / 1152, ht⟩, flush3_2 _, ?_⟩
    rw [mem_blk3]
    obtain ⟨-, -, -, -, e0, e1⟩ := idx3 ⟨(i 1).val / 1152, ht⟩
    have e1' : win3_2.index ⟨(i 1).val / 1152, ht⟩ (1 : Fin 2) = (i 1).val / 1152 := e1
    intro a
    match a with
    | ⟨0, _⟩ => show win3_2.index _ (0 : Fin 2) * 1152 ≤ (i 0).val ∧ (i 0).val < win3_2.index _ (0 : Fin 2) * 1152 + 1152; omega
    | ⟨1, _⟩ => show win3_2.index _ (1 : Fin 2) * 1152 ≤ (i 1).val ∧ (i 1).val < win3_2.index _ (1 : Fin 2) * 1152 + 1152; omega

end Value

end Cert.KernelIdeal.Hand

end
-- ==== Proof.IdealR4Value.lean ====
/-
  What E = D · Z leaves in its output array: the whole product. A step clears the accumulator, adds the product of the
  step's two blocks over the whole contracted axis, and writes the accumulator to the output block; so the block a step writes back is its block of the product, entry by entry, and the
  blocks tile the array.
-/
import proofs.«147890_j85212151153300_1_alg».proof.Proof.IdealR4Body
import proofs.«147890_j85212151153300_1_alg».proof.Proof.LibBlockedProduct
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open Cert.KernelIdeal.Gen Cert.Product Cert.BlockedProduct Cert.PlainDot

theorem hz4 : (![0, 0] : Fin 2 → Nat) = fun _ => 0 := funext fun a => by fin_cases a <;> rfl

/-! ## What a step's run leaves in the output block, as payloads of the blocks it found -/

section Pieces
variable {F : FTy → Type} [FloatOps F]

theorem out4_D_eq (c : Dev nD) (i : grid4.Coords) (arg3 : Memref sig .tc .vmem S1152x1152 .bf16) (harg3 : arg3.IsWhole) (arg4 : Memref sig .tc .vmem S1152x640 .bf16) (harg4 : arg4.IsWhole) (arg5 : Memref sig .tc .vmem S1152x640 .f32) (harg5 : arg5.IsWhole) (arg6 : Memref sig .tc .vmem S1152x640 .f32) (harg6 : arg6.IsWhole) (hc0 : cond4_0 i) (hc1 : cond4_1 i) (x0 : Vec F S1152x1152 .bf16) (x1 : Vec F S1152x640 .bf16) :
    out4_D c i arg3 harg3 arg4 harg4 arg5 harg5 arg6 harg6 hc0 hc1 x0 x1 = k4_pay2 (k4_pay1 (F := F)) x0 x1 := by
  unfold out4_D
  rw [View.read_writes_eq_canon _ _ _ (cover4_D c i arg3 harg3 arg4 harg4 arg5 harg5 arg6 harg6 hc0 hc1 x0 x1)]
  unfold kernelRun4_D
  dsimp only
  sl_unfold_words
  rw [View.canon_unit_zero hz4, View.readCov_cons_toLoadRect, View.readCov_cons_toLoadRect]
  simp only [View.readAt_eq_ld, harg3.read_unread, harg4.read_unread, View.ld_unit_zero (S := S1152x1152) hz4, View.ld_unit_zero (S := S1152x640) hz4]

end Pieces

/-! ## The payloads at an entry, on the extended reals -/

theorem plain4 : IsPlain dot_S1152x1152_S1152x640_S1152x640_1_0_0_1_n_n := ⟨rfl, rfl, rfl, rfl, rfl, rfl⟩

theorem pay1_4_apply (j : S1152x640.Idx) : k4_pay1 (F := Ideal) j = 0 := by
  unfold k4_pay1
  rw [shapeCast_self]
  show Ideal.ofBits .f32 0x00000000#32 = 0
  exact Ideal.ofBits_zero_f32

theorem pay2_4_apply (xs : Vec Ideal S1152x640 .f32) (x0 : Vec Ideal S1152x1152 .bf16) (x1 : Vec Ideal S1152x640 .bf16) (p : Fin 1152) (c' : Fin 640) :
    k4_pay2 xs x0 x1 (ix2 p c') = xs (ix2 p c') + ∑ q : Fin 1152, x0 (ix2 p q) * x1 (ix2 q c') := by
  unfold k4_pay2
  simp only [shapeCast_self]
  rw [addf_apply]
  exact congrArg (xs (ix2 p c') + ·) (matmul_zero_apply plain4 none x0 x1 p c')

/-! ## The operands' blocks at an entry, and the array -/

section Value
variable (V : (c : Dev nD) → (b : Ref sig .tc) → Buf (Elt Ideal) ((c : Thread nD τ).loc b))

/-- The left operand D and the right operand Z as the call finds them, as plain arrays of extended reals. -/
abbrev L4 (c : Dev nD) : (⟨2, ![1152, 1152]⟩ : Shape).Idx → EReal := fun i => V c main_v13 i
abbrev Rt4 (c : Dev nD) : (⟨2, ![1152, 8320]⟩ : Shape).Idx → EReal := fun i => V c main_v4 i

/-- Where the windows' blocks sit at step t: the left operand's one block; the right operand's and the output's at
    block column t. -/
theorem idx4 : ∀ t : Fin cfg4.N, win4_0.index t (0 : Fin 2) = 0 ∧ win4_0.index t (1 : Fin 2) = 0
    ∧ win4_1.index t (0 : Fin 2) = 0 ∧ win4_1.index t (1 : Fin 2) = t.val
    ∧ win4_2.index t (0 : Fin 2) = 0 ∧ win4_2.index t (1 : Fin 2) = t.val :=
  (by decide +kernel : ∀ t : Fin grid4.N, _)

theorem iblk4_0_apply (c : Dev nD) (t : Fin cfg4.N) (p : Fin 1152) (q : Fin 1152) :
    iblk4 V c 0 t (ix2 p q) = L4 V c (ix2 p q) := by
  obtain ⟨e0, e1, -, -, -, -⟩ := idx4 t
  show V c main_v13 (((cfg4.win 0).blk t).view.emb (ix2 p q)) = V c main_v13 _
  refine congrArg (V c main_v13) (funext fun a => Fin.ext ?_)
  match a with
  | ⟨0, _⟩ => show win4_0.index t (0 : Fin 2) * 1152 + 1 * p.val = p.val; omega
  | ⟨1, _⟩ => show win4_0.index t (1 : Fin 2) * 1152 + 1 * q.val = q.val; omega

theorem iblk4_1_apply (c : Dev nD) (t : Fin cfg4.N) (q : Fin 1152) (c' : Fin 640) :
    iblk4 V c 1 t (ix2 q c') = ext2 (Rt4 V c) q.val (640 * t.val + c'.val) := by
  have hN : t.val < 13 := lt_of_lt_of_eq t.isLt (show cfg4.N = 13 from N_4)
  obtain ⟨-, -, e0, e1, -, -⟩ := idx4 t
  have hq := q.isLt; have hc := c'.isLt
  rw [ext2_of_lt _ hq (by omega)]
  show V c main_v4 (((cfg4.win 1).blk t).view.emb (ix2 q c')) = V c main_v4 _
  refine congrArg (V c main_v4) (funext fun a => Fin.ext ?_)
  match a with
  | ⟨0, _⟩ => show win4_1.index t (0 : Fin 2) * 1152 + 1 * q.val = q.val; omega
  | ⟨1, _⟩ => show win4_1.index t (1 : Fin 2) * 640 + 1 * c'.val = 640 * t.val + c'.val; omega

/-- What a step writes back is its block of the product. -/
theorem flushed4_eq (c : Dev nD) (t : Fin cfg4.N) (hf : (cfg4.win 2).flush t = true) :
    (dat4 V c).flushed 2 t = ((cfg4.win 2).blk t).view.read (Elt Ideal) (mm (L4 V c) (Rt4 V c)) := by
  have hN : t.val < 13 := lt_of_lt_of_eq t.isLt (show cfg4.N = 13 from N_4)
  obtain ⟨-, -, -, -, e0, e1⟩ := idx4 t
  show (cfg4.win 2).cut (grid4.coords t) ((dat4 V c).after 2 t) = _
  rw [after4_2, out4_D_eq]
  funext j
  obtain ⟨p, c', rfl⟩ : ∃ (p : Fin 1152) (c' : Fin 640), j = ix2 p c' := ⟨j 0, j 1, eq_ix2 j⟩
  have hp := p.isLt; have hc := c'.isLt
  have hcol : 640 * t.val + c'.val < 8320 := by omega
  have hidx : ((cfg4.win 2).blk t).view.emb (ix2 p c') = ix2 p ⟨640 * t.val + c'.val, hcol⟩ := by
    funext a; apply Fin.ext
    match a with
    | ⟨0, _⟩ => show win4_2.index t (0 : Fin 2) * 1152 + 1 * p.val = p.val; omega
    | ⟨1, _⟩ => show win4_2.index t (1 : Fin 2) * 640 + 1 * c'.val = 640 * t.val + c'.val; omega
  show k4_pay2 k4_pay1 (iblk4 V c 0 t) (iblk4 V c 1 t) (ix2 p c') = mm (L4 V c) (Rt4 V c) (((cfg4.win 2).blk t).view.emb (ix2 p c'))
  rw [hidx, pay2_4_apply, pay1_4_apply, zero_add, mm_apply]
  refine Finset.sum_congr rfl fun q _ => ?_
  rw [iblk4_0_apply, iblk4_1_apply, ext2_of_lt _ q.isLt hcol]

theorem mem_blk4 (t : Fin cfg4.N) (i : S1152x8320.Idx) :
    i ∈ ((cfg4.win 2).blk t).view.set ↔ ∀ a : Fin 2, win4_2.index t a * S1152x640.size a ≤ (i a).val ∧ (i a).val < win4_2.index t a * S1152x640.size a + S1152x640.size a := by
  show i ∈ ((View.whole main_v14).slice (win4_2.rect t)).set ↔ _
  rw [View.set_slice_whole, Rect.mem_set_unit]
  exact Iff.rfl

/-- The array ends holding the product. -/
theorem value4 (c : Dev nD) : (dat4 V c).arrAt 2 cfg4.N = mm (L4 V c) (Rt4 V c) :=
  (dat4 V c).arrAt_eq_of_cover 2 (mm (L4 V c) (Rt4 V c)) (flushed4_eq V c) fun i => by
    have hi0 : (i 0).val < 1152 := (i 0).isLt
    have hi1 : (i 1).val < 8320 := (i 1).isLt
    have ht : (i 1).val / 640 < cfg4.N := by rw [show cfg4.N = 13 from N_4]; omega
    refine ⟨⟨(i 1).val / 640, ht⟩, flush4_2 _, ?_⟩
    rw [mem_blk4]
    obtain ⟨-, -, -, -, e0, e1⟩ := idx4 ⟨(i 1).val / 640, ht⟩
    have e1' : win4_2.index ⟨(i 1).val / 640, ht⟩ (1 : Fin 2) = (i 1).val / 640 := e1
    intro a
    match a with
    | ⟨0, _⟩ => show win4_2.index _ (0 : Fin 2) * 1152 ≤ (i 0).val ∧ (i 0).val < win4_2.index _ (0 : Fin 2) * 1152 + 1152; omega
    | ⟨1, _⟩ => show win4_2.index _ (1 : Fin 2) * 640 ≤ (i 1).val ∧ (i 1).val < win4_2.index _ (1 : Fin 2) * 640 + 640; omega

end Value

end Cert.KernelIdeal.Hand

end
-- ==== Proof.LibZeroPad.lean ====
/-
  The host's pad operation as a zero-padded copy, and the layout operations that meet one, on the extended reals.

  * A rank-2 `pad` with no low padding and no interior padding, whose padding value is zero, is the zero-padded copy
    of its operand (`padTo`): inside the operand's extents it reads the operand, elsewhere zero (`pad_zero_eq_padTo`).
  * The transpose of a zero-padded copy is the zero-padded copy of the transpose (`transpose_padTo`).
  * A slice from the origin of a zero-padded copy, of the operand's own extents, is the operand (`slice_padTo`).
  Any extents; no program.
-/
import proofs.«147890_j85212151153300_1_alg».proof.Proof.LibBlockedProduct
import Idealize.ShloMosaic.Lib.KernelVsHost
import Idealize.ShloMosaic.Lib.Pipeline.Value

noncomputable section

namespace Cert.ZeroPad

open Idealize.ShloMosaic Idealize.ShloMosaic.ValueIdx Cert.Product Cert.BlockedProduct

/-- A pad with no low and no interior padding and a zero padding value is the zero-padded copy. -/
theorem pad_zero_eq_padTo {A B A' B' : ℕ} (hi : Fin 2 → ℕ) (x : (⟨2, ![A, B]⟩ : Shape).Idx → EReal) {u : Shape} (v : u.Idx → EReal)
    (h : (⟨2, ![A, B]⟩ : Shape).Pads (![0, 0] : Fin 2 → ℕ) hi ![0, 0] ⟨2, ![A', B']⟩) (hu : 0 < u.numel)
    (hv : v (Shape.Idx.first hu) = 0) :
    pad ⟨2, ![A', B']⟩ (![0, 0] : Fin 2 → ℕ) hi ![0, 0] x v h hu = padTo A' B' x := by
  funext j
  obtain ⟨p, q, rfl⟩ : ∃ (p : Fin A') (q : Fin B'), j = ix2 p q := ⟨j 0, j 1, eq_ix2 j⟩
  show _ = ext2 x p.val q.val
  by_cases hp : p.val < A
  · by_cases hq : q.val < B
    · rw [ext2_of_lt _ hp hq]
      refine pad_apply_of_inside _ _ _ x v h hu (ix2 p q) (ix2 ⟨p.val, hp⟩ ⟨q.val, hq⟩) fun a => ?_
      match a with
      | ⟨0, _⟩ => show p.val = 0 + p.val * (0 + 1); omega
      | ⟨1, _⟩ => show q.val = 0 + q.val * (0 + 1); omega
    · rw [ext2_col_out x _ hq, ← hv]
      refine pad_apply_of_not_inside _ _ _ x v h hu (ix2 p q) 1 fun hin => hq ?_
      have h3 : (q.val - 0) / (0 + 1) < B := hin.2.2
      simpa using h3
  · rw [ext2_row_out x hp, ← hv]
    refine pad_apply_of_not_inside _ _ _ x v h hu (ix2 p q) 0 fun hin => hp ?_
    have h3 : (p.val - 0) / (0 + 1) < A := hin.2.2
    simpa using h3

/-- The transpose of an array, as a plain function. -/
def tr {A B : ℕ} (x : (⟨2, ![A, B]⟩ : Shape).Idx → EReal) : (⟨2, ![B, A]⟩ : Shape).Idx → EReal := fun i => x (ix2 (i 1) (i 0))

theorem tr_ix2 {A B : ℕ} (x : (⟨2, ![A, B]⟩ : Shape).Idx → EReal) (p : Fin B) (q : Fin A) : tr x (ix2 p q) = x (ix2 q p) := rfl

theorem ext2_tr {A B : ℕ} (x : (⟨2, ![A, B]⟩ : Shape).Idx → EReal) (i j : ℕ) : ext2 (tr x) i j = ext2 x j i := by
  by_cases h : i < B ∧ j < A
  · rw [ext2_of_lt _ h.1 h.2, ext2_of_lt _ h.2 h.1]; rfl
  · have h' : ¬ (j < A ∧ i < B) := fun h' => h ⟨h'.2, h'.1⟩
    unfold ext2; rw [dif_neg h, dif_neg h']

/-- Transposing a zero-padded copy is zero-padding the transpose. -/
theorem tr_padTo {A B A' B' : ℕ} (x : (⟨2, ![A, B]⟩ : Shape).Idx → EReal) : tr (padTo A' B' x) = padTo B' A' (tr x) := by
  funext j
  obtain ⟨p, q, rfl⟩ : ∃ (p : Fin B') (q : Fin A'), j = ix2 p q := ⟨j 0, j 1, eq_ix2 j⟩
  show ext2 x q.val p.val = ext2 (tr x) p.val q.val
  rw [ext2_tr]

end Cert.ZeroPad

end
-- ==== Proof.IdealChain.lean ====
/-
  The idealized kernel's result, read off the last valuation. Each operand is first zero-padded to a multiple of 128 on
  both axes and rounded to a narrower float format, which on the extended reals changes nothing. The five regions leave
  the five products of the chain, each the product of what the regions before it left. The product of zero-padded
  matrices is the zero-padded product, so each intermediate array is the zero-padded copy of the corresponding product of
  the unpadded arrays; the slice at the end cuts the padding away, and the last host operations scale the product and add
  it to the first argument.
-/
import proofs.«147890_j85212151153300_1_alg».proof.Proof.IdealRun
import proofs.«147890_j85212151153300_1_alg».proof.Proof.IdealR0Value
import proofs.«147890_j85212151153300_1_alg».proof.Proof.IdealR1Value
import proofs.«147890_j85212151153300_1_alg».proof.Proof.IdealR2Value
import proofs.«147890_j85212151153300_1_alg».proof.Proof.IdealR3Value
import proofs.«147890_j85212151153300_1_alg».proof.Proof.IdealR4Value
import proofs.«147890_j85212151153300_1_alg».proof.Proof.LibZeroPad
import Idealize.ShloMosaic.Lib.StableHlo.Run
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem Idealize.ShloMosaic.StableHlo
open Cert.KernelIdeal.Gen Cert.Product Cert.BlockedProduct Cert.ZeroPad

/-! ## The host stretches, read at one buffer over any valuation -/

section Ops
variable (W : Valuation τ sig (Elt Ideal))

theorem ops0_c : StableHlo.after hostOps0 W (Proc.devRef .tc main_c) = constantI S_ 32 0#32 := by after_results <;> rfl
theorem ops2_c : StableHlo.after hostOps0_2 W (Proc.devRef .tc main_c_0) = constantI S_ 32 0#32 := by after_results <;> rfl
theorem ops4_c : StableHlo.after hostOps0_4 W (Proc.devRef .tc main_c_1) = constantI S_ 32 0#32 := by after_results <;> rfl
theorem ops6_c : StableHlo.after hostOps0_6 W (Proc.devRef .tc main_c_2) = constantI S_ 32 0#32 := by after_results <;> rfl

theorem opsPad0 : StableHlo.after hostOps0_1 W (Proc.devRef .tc main_v0)
    = pad S1152x8320 ![0, 0] ![127, 127] ![0, 0] (W (Proc.devRef .tc main_arg0)) (sitofp (F := Ideal) .f32 (W (Proc.devRef .tc main_c))) pads_S1025x8193_S1152x8320_01270_01270 h_S_ := by after_results <;> rfl
theorem opsPad1 : StableHlo.after hostOps0_3 W (Proc.devRef .tc main_v1)
    = pad S1152x1152 ![0, 0] ![127, 127] ![0, 0] (W (Proc.devRef .tc main_arg2)) (sitofp (F := Ideal) .f32 (W (Proc.devRef .tc main_c_0))) pads_S1025x1025_S1152x1152_01270_01270 h_S_ := by after_results <;> rfl
theorem opsPad2 : StableHlo.after hostOps0_5 W (Proc.devRef .tc main_v2)
    = pad S1152x1152 ![0, 0] ![127, 127] ![0, 0] (W (Proc.devRef .tc main_arg4)) (sitofp (F := Ideal) .f32 (W (Proc.devRef .tc main_c_1))) pads_S1025x1025_S1152x1152_01270_01270 h_S_ := by after_results <;> rfl
theorem opsPad3 : StableHlo.after hostOps0_7 W (Proc.devRef .tc main_v3)
    = pad S8320x8320 ![0, 0] ![127, 127] ![0, 0] (W (Proc.devRef .tc main_arg3)) (sitofp (F := Ideal) .f32 (W (Proc.devRef .tc main_c_2))) pads_S8193x8193_S8320x8320_01270_01270 h_S_ := by after_results <;> rfl

theorem ops8_v4 : @Eq (FVec Ideal S1152x8320 .bf16) (StableHlo.after hostOps0_8 W (Proc.devRef .tc main_v4))
    (truncf .bf16 (W (Proc.devRef .tc main_v0) : FVec Ideal S1152x8320 .f32) bitsLt_bf16_f32) := by after_results <;> rfl
theorem ops8_v5 : @Eq (FVec Ideal S1152x1152 .bf16) (StableHlo.after hostOps0_8 W (Proc.devRef .tc main_v5))
    (truncf .bf16 (W (Proc.devRef .tc main_v1) : FVec Ideal S1152x1152 .f32) bitsLt_bf16_f32) := by after_results <;> rfl
theorem ops8_v6 : @Eq (FVec Ideal S1152x1152 .bf16) (StableHlo.after hostOps0_8 W (Proc.devRef .tc main_v6))
    (truncf .bf16 (W (Proc.devRef .tc main_v2) : FVec Ideal S1152x1152 .f32) bitsLt_bf16_f32) := by after_results <;> rfl
theorem ops8_v7 : @Eq (FVec Ideal S8320x8320 .bf16) (StableHlo.after hostOps0_8 W (Proc.devRef .tc main_v7))
    (truncf .bf16 (W (Proc.devRef .tc main_v3) : FVec Ideal S8320x8320 .f32) bitsLt_bf16_f32) := by after_results <;> rfl

theorem opsT_v10 : (StableHlo.after hostOps2 W (Proc.devRef .tc main_v10) : FVec Ideal S8320x1152 .bf16)
    = transpose S8320x1152 [1, 0] (W (Proc.devRef .tc main_v4) : FVec Ideal S1152x8320 .bf16) transposes_S1152x8320_S8320x1152_1_0 := by after_results <;> rfl
theorem ops3_v12 : @Eq (FVec Ideal S1152x1152 .bf16) (StableHlo.after hostOps3 W (Proc.devRef .tc main_v12))
    (truncf .bf16 (W (Proc.devRef .tc main_v11) : FVec Ideal S1152x1152 .f32) bitsLt_bf16_f32) := by after_results <;> rfl

/-- The last host operations, as one function of the first two arguments and the array they scale. -/
def tail (z : FVec Ideal S1025x8193 .f32) (a : FVec Ideal S1 .f32) (x : FVec Ideal S1025x8193 .f32) : FVec Ideal S1025x8193 .f32 :=
  addf z (mulf (broadcastInDim S1025x8193 ![] bcast_S_S1025x8193 (Host.divf (F := Ideal) (shapeCast _ a shapeCasts_S1_S_) (constant (F := Ideal) S_ .f32 0x46000000#32))) x)

theorem ops5_v20 : (StableHlo.after hostOps5 W (Proc.devRef .tc main_v20) : FVec Ideal S1025x8193 .f32)
    = tail (W (Proc.devRef .tc main_arg0)) (W (Proc.devRef .tc main_arg1)) (extractStridedSlice S1025x8193 ![0, 0] (W (Proc.devRef .tc main_v14) : FVec Ideal S1152x8320 .f32) slices_S1152x8320_S1025x8193_0_0) := by
  unfold tail; after_results <;> rfl

end Ops

/-! ## The arguments as plain arrays, and the chain of products they define -/

section Chain
variable (m : (ℓ : Loc nD τ sig) → Buf (Elt Ideal) ℓ)

abbrev Zr (c : Dev nD) : (⟨2, ![1025, 8193]⟩ : Shape).Idx → EReal := fun i => m ((c : Thread nD τ).loc main_arg0) i
abbrev Pr (c : Dev nD) : (⟨2, ![1025, 1025]⟩ : Shape).Idx → EReal := fun i => m ((c : Thread nD τ).loc main_arg2) i
abbrev Mr (c : Dev nD) : (⟨2, ![8193, 8193]⟩ : Shape).Idx → EReal := fun i => m ((c : Thread nD τ).loc main_arg3) i
abbrev Qr (c : Dev nD) : (⟨2, ![1025, 1025]⟩ : Shape).Idx → EReal := fun i => m ((c : Thread nD τ).loc main_arg4) i

/-- ((((P · Z) · M) · Zᵀ) · Q) · Z, left to right. -/
def chainE (c : Dev nD) : (⟨2, ![1025, 8193]⟩ : Shape).Idx → EReal :=
  mm (mm (mm (mm (mm (Pr m c) (Zr m c)) (Mr m c)) (tr (Zr m c))) (Qr m c)) (Zr m c)

/-- The padding value: the integer zero converted to a float. -/
theorem padval (x : IVec S_ 32) (hx : x = constantI S_ 32 0#32) : sitofp (F := Ideal) .f32 x (Shape.Idx.first h_S_) = 0 := by
  subst hx
  show (((0#32 : BitVec 32).toInt : ℝ) : EReal) = 0
  simp

/-! ### The padded, rounded operands when the first region is entered -/

theorem Zb_eq (c : Dev nD) : (fun i => Gen.V9 m c main_v4 i) = padTo 1152 8320 (Zr m c) := by
  have e8 : Gen.V8 m c main_v0 = Gen.V2 m c main_v0 :=
    (Gen.V8_of m c main_v0 (by decide)).trans <| (Gen.V7_of m c main_v0 (by decide)).trans <| (Gen.V6_of m c main_v0 (by decide)).trans <|
    (Gen.V5_of m c main_v0 (by decide)).trans <| (Gen.V4_of m c main_v0 (by decide)).trans (Gen.V3_of m c main_v0 (by decide))
  have e2 := opsPad0 (Gen.V1 m c)
  have ea : Gen.V1 m c main_arg0 = m ((c : Thread nD τ).loc main_arg0) := Gen.V1_of m c main_arg0 (by decide)
  have ec := ops0_c (Gen.V0 m c)
  funext i
  show (Gen.V8 m c main_v0 : FVec Ideal S1152x8320 .f32) i = _
  rw [e8, show Gen.V2 m c main_v0 = _ from e2, ea]
  exact congrFun (pad_zero_eq_padTo _ (Zr m c) _ _ h_S_ (padval _ ec)) i

theorem Pb_eq (c : Dev nD) : (fun i => Gen.V9 m c main_v5 i) = padTo 1152 1152 (Pr m c) := by
  have e8 : Gen.V8 m c main_v1 = Gen.V4 m c main_v1 :=
    (Gen.V8_of m c main_v1 (by decide)).trans <| (Gen.V7_of m c main_v1 (by decide)).trans <| (Gen.V6_of m c main_v1 (by decide)).trans (Gen.V5_of m c main_v1 (by decide))
  have e2 := opsPad1 (Gen.V3 m c)
  have ea : Gen.V3 m c main_arg2 = m ((c : Thread nD τ).loc main_arg2) :=
    (Gen.V3_of m c main_arg2 (by decide)).trans <| (Gen.V2_of m c main_arg2 (by decide)).trans (Gen.V1_of m c main_arg2 (by decide))
  have ec := ops2_c (Gen.V2 m c)
  funext i
  show (Gen.V8 m c main_v1 : FVec Ideal S1152x1152 .f32) i = _
  rw [e8, show Gen.V4 m c main_v1 = _ from e2, ea]
  exact congrFun (pad_zero_eq_padTo _ (Pr m c) _ _ h_S_ (padval _ ec)) i

theorem Qb_eq (c : Dev nD) : (fun i => Gen.V9 m c main_v6 i) = padTo 1152 1152 (Qr m c) := by
  have e8 : Gen.V8 m c main_v2 = Gen.V6 m c main_v2 :=
    (Gen.V8_of m c main_v2 (by decide)).trans (Gen.V7_of m c main_v2 (by decide))
  have e2 := opsPad2 (Gen.V5 m c)
  have ea : Gen.V5 m c main_arg4 = m ((c : Thread nD τ).loc main_arg4) :=
    (Gen.V5_of m c main_arg4 (by decide)).trans <| (Gen.V4_of m c main_arg4 (by decide)).trans <| (Gen.V3_of m c main_arg4 (by decide)).trans <|
    (Gen.V2_of m c main_arg4 (by decide)).trans (Gen.V1_of m c main_arg4 (by decide))
  have ec := ops4_c (Gen.V4 m c)
  funext i
  show (Gen.V8 m c main_v2 : FVec Ideal S1152x1152 .f32) i = _
  rw [e8, show Gen.V6 m c main_v2 = _ from e2, ea]
  exact congrFun (pad_zero_eq_padTo _ (Qr m c) _ _ h_S_ (padval _ ec)) i

theorem Mb_eq (c : Dev nD) : (fun i => Gen.V9 m c main_v7 i) = padTo 8320 8320 (Mr m c) := by
  have e2 := opsPad3 (Gen.V7 m c)
  have ea : Gen.V7 m c main_arg3 = m ((c : Thread nD τ).loc main_arg3) :=
    (Gen.V7_of m c main_arg3 (by decide)).trans <| (Gen.V6_of m c main_arg3 (by decide)).trans <| (Gen.V5_of m c main_arg3 (by decide)).trans <|
    (Gen.V4_of m c main_arg3 (by decide)).trans <| (Gen.V3_of m c main_arg3 (by decide)).trans <| (Gen.V2_of m c main_arg3 (by decide)).trans (Gen.V1_of m c main_arg3 (by decide))
  have ec := ops6_c (Gen.V6 m c)
  funext i
  show (Gen.V8 m c main_v3 : FVec Ideal S8320x8320 .f32) i = _
  rw [show Gen.V8 m c main_v3 = _ from e2, ea]
  exact congrFun (pad_zero_eq_padTo _ (Mr m c) _ _ h_S_ (padval _ ec)) i

/-! ### The five products -/

/-- A = P · Z, zero-padded. -/
theorem A_eq (c : Dev nD) : (fun i => Gen.V10 m (outs m) c main_v8 i) = padTo 1152 8320 (mm (Pr m c) (Zr m c)) := by
  have h := (out0_eq m c).trans (value0 (Vt (Gen.V9 m)) c)
  have hL : L0 (Vt (Gen.V9 m)) c = padTo 1152 1152 (Pr m c) := Pb_eq m c
  have hR : Rt0 (Vt (Gen.V9 m)) c = padTo 1152 8320 (Zr m c) := Zb_eq m c
  rw [hL, hR, mm_pad (by decide) (by decide) (by decide)] at h
  exact h

/-- B = A · M, zero-padded. -/
theorem B_eq (c : Dev nD) : (fun i => Gen.V11 m (outs m) c main_v9 i) = padTo 1152 8320 (mm (mm (Pr m c) (Zr m c)) (Mr m c)) := by
  have h := (out1_eq m c).trans (value1 (Vt (Gen.V10 m (outs m))) c)
  have hL : L1 (Vt (Gen.V10 m (outs m))) c = padTo 1152 8320 (mm (Pr m c) (Zr m c)) := A_eq m c
  have hR : Rt1 (Vt (Gen.V10 m (outs m))) c = padTo 8320 8320 (Mr m c) := by
    have e : Gen.V10 m (outs m) c main_v7 = Gen.V9 m c main_v7 := Gen.V10_of m (outs m) c main_v7 (by decide)
    show (fun i => Gen.V10 m (outs m) c main_v7 i) = _
    rw [e]; exact Mb_eq m c
  rw [hL, hR, mm_pad (by decide) (by decide) (by decide)] at h
  exact h

/-- The padded Z reaches the later regions unchanged. -/
theorem Zb_at11 (c : Dev nD) : Gen.V11 m (outs m) c main_v4 = Gen.V9 m c main_v4 :=
  (Gen.V11_of m (outs m) c main_v4 (by decide)).trans (Gen.V10_of m (outs m) c main_v4 (by decide))

/-- C = B · Zᵀ, zero-padded. -/
theorem C_eq (c : Dev nD) : (fun i => Gen.V13 m (outs m) c main_v11 i) = padTo 1152 1152 (mm (mm (mm (Pr m c) (Zr m c)) (Mr m c)) (tr (Zr m c))) := by
  have h := (out2_eq m c).trans (value2 (Vt (Gen.V12 m (outs m))) c)
  have hL : L2 (Vt (Gen.V12 m (outs m))) c = padTo 1152 8320 (mm (mm (Pr m c) (Zr m c)) (Mr m c)) := by
    have e : Gen.V12 m (outs m) c main_v9 = Gen.V11 m (outs m) c main_v9 := Gen.V12_of m (outs m) c main_v9 (by decide)
    show (fun i => Gen.V12 m (outs m) c main_v9 i) = _
    rw [e]; exact B_eq m c
  have hR : Rt2 (Vt (Gen.V12 m (outs m))) c = padTo 8320 1152 (tr (Zr m c)) := by
    have e : @Eq (FVec Ideal S8320x1152 .bf16) (Gen.V12 m (outs m) c main_v10)
        (transpose S8320x1152 [1, 0] (Gen.V11 m (outs m) c main_v4 : FVec Ideal S1152x8320 .bf16) transposes_S1152x8320_S8320x1152_1_0) := opsT_v10 (Gen.V11 m (outs m) c)
    rw [← tr_padTo, ← Zb_eq m c]
    funext j
    obtain ⟨p, q, rfl⟩ : ∃ (p : Fin 8320) (q : Fin 1152), j = ix2 p q := ⟨j 0, j 1, eq_ix2 j⟩
    show (Gen.V12 m (outs m) c main_v10 : FVec Ideal S8320x1152 .bf16) (ix2 p q) = Gen.V9 m c main_v4 (ix2 q p)
    rw [e, Zb_at11]
    exact transpose_apply _ _ _ (ix2 p q) (ix2 q p) (fun a => by match a with | ⟨0, _⟩ => rfl | ⟨1, _⟩ => rfl)
  rw [hL, hR, mm_pad (by decide) (by decide) (by decide)] at h
  exact h

/-- D = C · Q, zero-padded. -/
theorem D_eq (c : Dev nD) : (fun i => Gen.V15 m (outs m) c main_v13 i) = padTo 1152 1152 (mm (mm (mm (mm (Pr m c) (Zr m c)) (Mr m c)) (tr (Zr m c))) (Qr m c)) := by
  have h := (out3_eq m c).trans (value3 (Vt (Gen.V14 m (outs m))) c)
  have hL : L3 (Vt (Gen.V14 m (outs m))) c = padTo 1152 1152 (mm (mm (mm (Pr m c) (Zr m c)) (Mr m c)) (tr (Zr m c))) := by
    have e : @Eq (FVec Ideal S1152x1152 .bf16) (Gen.V14 m (outs m) c main_v12)
        (truncf .bf16 (Gen.V13 m (outs m) c main_v11 : FVec Ideal S1152x1152 .f32) bitsLt_bf16_f32) := ops3_v12 (Gen.V13 m (outs m) c)
    rw [← C_eq m c]
    funext j
    exact congrFun e j
  have hR : Rt3 (Vt (Gen.V14 m (outs m))) c = padTo 1152 1152 (Qr m c) := by
    have e : Gen.V14 m (outs m) c main_v6 = Gen.V9 m c main_v6 :=
      (Gen.V14_of m (outs m) c main_v6 (by decide)).trans <| (Gen.V13_of m (outs m) c main_v6 (by decide)).trans <| (Gen.V12_of m (outs m) c main_v6 (by decide)).trans <|
      (Gen.V11_of m (outs m) c main_v6 (by decide)).trans (Gen.V10_of m (outs m) c main_v6 (by decide))
    show (fun i => Gen.V14 m (outs m) c main_v6 i) = _
    rw [e]; exact Qb_eq m c
  rw [hL, hR, mm_pad (by decide) (by decide) (by decide)] at h
  exact h

/-- E = D · Z, zero-padded. -/
theorem E_eq (c : Dev nD) : (fun i => Gen.V16 m (outs m) c main_v14 i) = padTo 1152 8320 (chainE m c) := by
  have h := (out4_eq m c).trans (value4 (Vt (Gen.V15 m (outs m))) c)
  have hL : L4 (Vt (Gen.V15 m (outs m))) c = padTo 1152 1152 (mm (mm (mm (mm (Pr m c) (Zr m c)) (Mr m c)) (tr (Zr m c))) (Qr m c)) := D_eq m c
  have hR : Rt4 (Vt (Gen.V15 m (outs m))) c = padTo 1152 8320 (Zr m c) := by
    have e : Gen.V15 m (outs m) c main_v4 = Gen.V9 m c main_v4 :=
      (Gen.V15_of m (outs m) c main_v4 (by decide)).trans <| (Gen.V14_of m (outs m) c main_v4 (by decide)).trans <| (Gen.V13_of m (outs m) c main_v4 (by decide)).trans <|
      (Gen.V12_of m (outs m) c main_v4 (by decide)).trans (Zb_at11 m c)
    show (fun i => Gen.V15 m (outs m) c main_v4 i) = _
    rw [e]; exact Zb_eq m c
  rw [hL, hR, mm_pad (by decide) (by decide) (by decide)] at h
  exact h

/-! ### The result -/

/-- The slice at the end cuts the padding away. -/
theorem slice_E (c : Dev nD) :
    extractStridedSlice S1025x8193 ![0, 0] (Gen.V16 m (outs m) c main_v14 : FVec Ideal S1152x8320 .f32) slices_S1152x8320_S1025x8193_0_0 = chainE m c := by
  funext j
  obtain ⟨p, q, rfl⟩ : ∃ (p : Fin 1025) (q : Fin 8193), j = ix2 p q := ⟨j 0, j 1, eq_ix2 j⟩
  have hp : p.val < 1152 := lt_trans p.isLt (by decide)
  have hq : q.val < 8320 := lt_trans q.isLt (by decide)
  rw [extractStridedSlice_apply _ _ _ (ix2 p q) (ix2 ⟨p.val, hp⟩ ⟨q.val, hq⟩) (fun a => by match a with | ⟨0, _⟩ => show p.val = 0 + p.val; omega | ⟨1, _⟩ => show q.val = 0 + q.val; omega)]
  have h := congrFun (E_eq m c) (ix2 ⟨p.val, hp⟩ ⟨q.val, hq⟩)
  exact h.trans (ext2_val (chainE m c) p q)

/-- What the kernel's program leaves in its result buffer. -/
theorem result_eq (c : Dev nD) :
    (Gen.V17 m (outs m) c main_v20 : FVec Ideal S1025x8193 .f32)
      = tail (m ((c : Thread nD τ).loc main_arg0)) (m ((c : Thread nD τ).loc main_arg1)) (chainE m c) := by
  have e := ops5_v20 (Gen.V16 m (outs m) c)
  have e0 : Gen.V16 m (outs m) c main_arg0 = m ((c : Thread nD τ).loc main_arg0) :=
    (Gen.V17_of m (outs m) c main_arg0 (by decide)).symm.trans (Gen.V17_main_arg0 m (outs m) c)
  have e1 : Gen.V16 m (outs m) c main_arg1 = m ((c : Thread nD τ).loc main_arg1) :=
    (Gen.V17_of m (outs m) c main_arg1 (by decide)).symm.trans (Gen.V17_main_arg1 m (outs m) c)
  rw [show (Gen.V17 m (outs m) c main_v20 : FVec Ideal S1025x8193 .f32) = _ from e, e0, e1, slice_E]

end Chain

end Cert.KernelIdeal.Hand

end
-- ==== Proof.RefChain.lean ====
/-
  The reference's result as the shared last operations applied to the chain of products. Each of its five dot_general
  operations contracts the left operand's second axis against the right operand's first, so it is the whole-array product;
  its transpose is the plain transpose; and its last operations — divide the scalar by 8192, broadcast it, multiply, add
  the first argument — are the same as the kernel program's.
-/
import proofs.«147890_j85212151153300_1_alg».proof.Proof.Gen.ReferenceIdeal.Run
import proofs.«147890_j85212151153300_1_alg».proof.Proof.LibZeroPad
import Idealize.ShloMosaic.Lib.Pipeline.Value

noncomputable section

namespace Cert.ReferenceIdeal.RefValue

open Idealize.ShloMosaic Idealize.ShloMosaic.ValueIdx Idealize.SL.Sem
open Cert.ReferenceIdeal Cert.ReferenceIdeal.Gen Cert.Product Cert.PlainDot Cert.ZeroPad

theorem plainPZ : IsPlain dot_S1025x1025_S1025x8193_S1025x8193_1_0_0_1_n_n := ⟨rfl, rfl, rfl, rfl, rfl, rfl⟩
theorem plainAM : IsPlain dot_S1025x8193_S8193x8193_S1025x8193_1_0_0_1_n_n := ⟨rfl, rfl, rfl, rfl, rfl, rfl⟩
theorem plainBZt : IsPlain dot_S1025x8193_S8193x1025_S1025x1025_1_0_0_1_n_n := ⟨rfl, rfl, rfl, rfl, rfl, rfl⟩
theorem plainCQ : IsPlain dot_S1025x1025_S1025x1025_S1025x1025_1_0_0_1_n_n := ⟨rfl, rfl, rfl, rfl, rfl, rfl⟩

/-- The host's transpose of a matrix is the plain transpose. -/
theorem transpose_eq_tr (z : FVec Ideal S1025x8193 .f32) :
    transpose S8193x1025 [1, 0] z transposes_S1025x8193_S8193x1025_1_0 = tr (A := 1025) (B := 8193) (fun i => z i) := by
  funext j
  obtain ⟨p, q, rfl⟩ : ∃ (p : Fin 8193) (q : Fin 1025), j = ix2 p q := ⟨j 0, j 1, eq_ix2 j⟩
  exact transpose_apply _ _ _ (ix2 p q) (ix2 q p) (fun a => by match a with | ⟨0, _⟩ => rfl | ⟨1, _⟩ => rfl)

/-- The last operations, as one function of the first two arguments and the array they scale. -/
def tail (z : FVec Ideal S1025x8193 .f32) (a : FVec Ideal S1 .f32) (x : FVec Ideal S1025x8193 .f32) : FVec Ideal S1025x8193 .f32 :=
  addf z (mulf (broadcastInDim S1025x8193 ![] bcast_S_S1025x8193 (Host.divf (F := Ideal) (shapeCast _ a shapeCasts_S1_S_) (constant (F := Ideal) S_ .f32 0x46000000#32))) x)

/-- The chain of products of the reference's arguments, left to right. -/
def chain (z : FVec Ideal S1025x8193 .f32) (p : FVec Ideal S1025x1025 .f32) (mM : FVec Ideal S8193x8193 .f32) (q : FVec Ideal S1025x1025 .f32) :
    (⟨2, ![1025, 8193]⟩ : Shape).Idx → EReal :=
  mm (mm (mm (mm (mm (K := 1025) (fun i => p i) (fun i => z i)) (fun i => mM i)) (tr (A := 1025) (B := 8193) (fun i => z i))) (fun i => q i)) (fun i => z i)

/-- The reference run's term is the shared last operations of the chain. -/
theorem result_eq (z : FVec Ideal S1025x8193 .f32) (a : FVec Ideal S1 .f32) (p : FVec Ideal S1025x1025 .f32) (mM : FVec Ideal S8193x8193 .f32) (q : FVec Ideal S1025x1025 .f32) :
    addf z (mulf (broadcastInDim S1025x8193 ![] bcast_S_S1025x8193 (Host.divf (F := Ideal) (shapeCast _ a shapeCasts_S1_S_) (constant (F := Ideal) S_ .f32 0x46000000#32)))
      (Host.dotGeneral dot_S1025x1025_S1025x8193_S1025x8193_1_0_0_1_n_n none
        (Host.dotGeneral dot_S1025x1025_S1025x1025_S1025x1025_1_0_0_1_n_n none
          (Host.dotGeneral dot_S1025x8193_S8193x1025_S1025x1025_1_0_0_1_n_n none
            (Host.dotGeneral dot_S1025x8193_S8193x8193_S1025x8193_1_0_0_1_n_n none
              (Host.dotGeneral dot_S1025x1025_S1025x8193_S1025x8193_1_0_0_1_n_n none p z) mM)
            (transpose S8193x1025 [1, 0] z transposes_S1025x8193_S8193x1025_1_0)) q) z))
    = tail z a (chain z p mM q) := by
  unfold tail chain
  have e1 : Host.dotGeneral dot_S1025x1025_S1025x8193_S1025x8193_1_0_0_1_n_n none p z = mm (K := 1025) (fun i => p i) (fun i => z i) := dotGeneral_eq plainPZ none p z
  rw [e1]
  have e2 := dotGeneral_eq plainAM none (mm (K := 1025) (fun i => p i) (fun i => z i) : FVec Ideal S1025x8193 .f32) mM
  rw [e2, transpose_eq_tr]
  have e3 := dotGeneral_eq plainBZt none (mm (mm (K := 1025) (fun i => p i) (fun i => z i)) (fun i => mM i) : FVec Ideal S1025x8193 .f32) (tr (A := 1025) (B := 8193) (fun i => z i) : FVec Ideal S8193x1025 .f32)
  rw [e3]
  have e4 := dotGeneral_eq plainCQ none (mm (mm (mm (K := 1025) (fun i => p i) (fun i => z i)) (fun i => mM i)) (tr (A := 1025) (B := 8193) (fun i => z i)) : FVec Ideal S1025x1025 .f32) q
  rw [e4]
  have e5 := dotGeneral_eq plainPZ none (mm (mm (mm (mm (K := 1025) (fun i => p i) (fun i => z i)) (fun i => mM i)) (tr (A := 1025) (B := 8193) (fun i => z i))) (fun i => q i) : FVec Ideal S1025x1025 .f32) z
  rw [e5]

end Cert.ReferenceIdeal.RefValue

end
-- ==== Proof.lean ====
/-
  The kernel computes Z + (alpha / 8192) · ((((P · Z) · M) · Zᵀ) · Q) · Z as five matrix products, each a pallas_call
  that walks a grid of blocks and, where the contracted axis is cut into 13 blocks of 640, accumulates partial products in
  a scratch buffer it carries from step to step. Its operands are zero-padded to multiples of 128 and rounded to a
  narrower float format first, and the result is sliced back. The reference computes the same chain with five dot_general
  operations on the unpadded arrays.

  On the extended reals the rounding is the identity; a product accumulated block by block from zero is the whole product
  (only commutativity and associativity of the sum); the product of zero-padded matrices is the zero-padded product (a
  term beyond the true extent has a zero factor, and zero times any extended real is zero). So both programs end with the
  same last operations applied to the same chain of products. No law used here needs the inputs finite, so the precondition
  is never opened.

  The frames: each program runs to the end, faults nowhere and leaves its arguments as launched. For the two kernel
  programs this is the run theorem of Proof/IdealRun.lean and Proof/BitsRun.lean (every region entered from the buffer
  contents before it and left at those after it, the accumulator's contents carried by the region's invariant); for the
  reference it is its run with the result dropped.
-/
import proofs.«147890_j85212151153300_1_alg».proof.Defs
import proofs.«147890_j85212151153300_1_alg».proof.Proof.Gen.Kernel
import proofs.«147890_j85212151153300_1_alg».proof.Proof.Gen.KernelIdeal
import proofs.«147890_j85212151153300_1_alg».proof.Proof.Gen.ReferenceIdeal
import proofs.«147890_j85212151153300_1_alg».proof.Proof.Gen.ReferenceIdeal.Run
import proofs.«147890_j85212151153300_1_alg».proof.Proof.Gen.ReferenceIdeal.Read
import proofs.«147890_j85212151153300_1_alg».proof.Proof.Gen.Pre_finite_inputs
import proofs.«147890_j85212151153300_1_alg».proof.Proof.BitsRun
import proofs.«147890_j85212151153300_1_alg».proof.Proof.IdealChain
import proofs.«147890_j85212151153300_1_alg».proof.Proof.RefChain

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The two programs' last operations are one function (the same operations over the same shapes). -/
theorem tail_eq (z : FVec Ideal Cert.KernelIdeal.S1025x8193 .f32) (a : FVec Ideal Cert.KernelIdeal.S1 .f32) (x : FVec Ideal Cert.KernelIdeal.S1025x8193 .f32) :
    Cert.ReferenceIdeal.RefValue.tail z a x = Cert.KernelIdeal.Hand.tail z a x := rfl

/-- Both programs end with the shared last operations applied to the chain of products of the arguments. -/
theorem algebraic : Cert.algebraic_KernelIdeal_ReferenceIdeal := by
  intro m ρ m' ρ' _ hagree
  refine ⟨fun c => Cert.KernelIdeal.Hand.tail (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (Cert.KernelIdeal.Hand.chainE m c), ?_, ?_⟩
  · refine (θ_run Cert.KernelIdeal.defs _ _).mono (fun r h c => ?_) (Cert.KernelIdeal.Hand.run_all m ρ)
    exact ⟨(h c _ (Cert.KernelIdeal.Hand.mem_uc Cert.KernelIdeal.main_v20 (by decide))).trans (Cert.KernelIdeal.Hand.result_eq m c),
      (h c _ (Cert.KernelIdeal.Hand.mem_uc Cert.KernelIdeal.main_arg0 (by decide))).trans (Cert.KernelIdeal.Gen.V17_main_arg0 m (Cert.KernelIdeal.Hand.outs m) c),
      (h c _ (Cert.KernelIdeal.Hand.mem_uc Cert.KernelIdeal.main_arg1 (by decide))).trans (Cert.KernelIdeal.Gen.V17_main_arg1 m (Cert.KernelIdeal.Hand.outs m) c),
      (h c _ (Cert.KernelIdeal.Hand.mem_uc Cert.KernelIdeal.main_arg2 (by decide))).trans (Cert.KernelIdeal.Gen.V17_main_arg2 m (Cert.KernelIdeal.Hand.outs m) c),
      (h c _ (Cert.KernelIdeal.Hand.mem_uc Cert.KernelIdeal.main_arg3 (by decide))).trans (Cert.KernelIdeal.Gen.V17_main_arg3 m (Cert.KernelIdeal.Hand.outs m) c),
      (h c _ (Cert.KernelIdeal.Hand.mem_uc Cert.KernelIdeal.main_arg4 (by decide))).trans (Cert.KernelIdeal.Gen.V17_main_arg4 m (Cert.KernelIdeal.Hand.outs m) c)⟩
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.RefValue.result_eq _ _ _ _ _).trans (tail_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
